-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨3, ![1, 1024, 512]⟩ ⟨3, ![2, 1024, 1024]⟩ (Layout.meshBlock [2, 2] ![[0], [], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S1x1024x512 : Shape := ⟨3, ![1, 1024, 512]⟩
abbrev S_ : Shape := ⟨0, ![]⟩

class Facts : Prop where
  bcast_S_S1x1024x512 : S_.BroadcastsInDim S1x1024x512 (![] : Fin 0 → Fin S1x1024x512.rank)
  reducesTo_S1x1024x512_S_d0_1_2 : S1x1024x512.ReducesTo [0, 1, 2] S_
  h_S_ : 0 < S_.numel

variable [Facts]

def fn {F : FTy → Type} [FloatOps F] (main_arg0 : FVec F S1x1024x512 .f32) : IVec S_ 1 :=
  let main_v0 : FVec F S1x1024x512 .f32 := Host.absf main_arg0
  let main_cst : FVec F S_ .f32 := constant S_ .f32 0x7F800000#32
  let main_v1 : FVec F S1x1024x512 .f32 := broadcastInDim S1x1024x512 ![] bcast_S_S1x1024x512 main_cst
  let main_v2 : IVec S1x1024x512 1 := cmpf .olt main_v0 main_v1
  let main_c : IVec S_ 1 := constantI S_ 1 1#1
  let main_v3 : IVec S_ 1 := (fun x v => Host.reduce IntOp.andi x v reducesTo_S1x1024x512_S_d0_1_2 h_S_) main_v2 main_c
  main_v3
-- ==== Pre_finite_inputs_ReferenceIdeal.lean ====
abbrev S2x1024x1024 : Shape := ⟨3, ![2, 1024, 1024]⟩
abbrev S_ : Shape := ⟨0, ![]⟩

class Facts : Prop where
  bcast_S_S2x1024x1024 : S_.BroadcastsInDim S2x1024x1024 (![] : Fin 0 → Fin S2x1024x1024.rank)
  reducesTo_S2x1024x1024_S_d0_1_2 : S2x1024x1024.ReducesTo [0, 1, 2] S_
  h_S_ : 0 < S_.numel

variable [Facts]

def fn {F : FTy → Type} [FloatOps F] (main_arg0 : FVec F S2x1024x1024 .f32) : IVec S_ 1 :=
  let main_v0 : FVec F S2x1024x1024 .f32 := Host.absf main_arg0
  let main_cst : FVec F S_ .f32 := constant S_ .f32 0x7F800000#32
  let main_v1 : FVec F S2x1024x1024 .f32 := broadcastInDim S2x1024x1024 ![] bcast_S_S2x1024x1024 main_cst
  let main_v2 : IVec S2x1024x1024 1 := cmpf .olt main_v0 main_v1
  let main_c : IVec S_ 1 := constantI S_ 1 1#1
  let main_v3 : IVec S_ 1 := (fun x v => Host.reduce IntOp.andi x v reducesTo_S2x1024x1024_S_d0_1_2 h_S_) main_v2 main_c
  main_v3
-- ==== Kernel.lean ====
abbrev S1x1024x512 : Shape := ⟨3, ![1, 1024, 512]⟩
abbrev S1024x1024 : Shape := ⟨2, ![1024, 1024]⟩
abbrev S1024x512 : Shape := ⟨2, ![1024, 512]⟩
abbrev S16 : Shape := ⟨1, ![16]⟩
abbrev S_ : Shape := ⟨0, ![]⟩
abbrev S1 : Shape := ⟨1, ![1]⟩
abbrev S64x512 : Shape := ⟨2, ![64, 512]⟩
abbrev S1x64x512 : Shape := ⟨3, ![1, 64, 512]⟩

abbrev nBuf : Space → Nat
  | .hbm => 2
  | .vmem => 3
  | .smem => 0
  | _ => 0

abbrev bufTy : (tb : Table) → Fin (tcTables nBuf tb) → BufTy
  | .hbm, ⟨0, _⟩ => ⟨S1x1024x512, .f32⟩
  | .hbm, ⟨1, _⟩ => ⟨S1024x1024, .f32⟩
  | .local _ .vmem, ⟨0, _⟩ => ⟨S1x1024x512, .f32⟩
  | .local _ .vmem, ⟨1, _⟩ => ⟨S1024x1024, .f32⟩
  | .local _ .vmem, ⟨2, _⟩ => ⟨S1024x512, .f32⟩
  | _, _ => ⟨S1x1024x512, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 66 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | _ => false

abbrev sig : RefSig :=
  { ofTc nBuf bufTy 1 66 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v10 : BitVec 32 := Scalar.muli v6 c2_i32_5
  let v11 : BitVec 32 := Scalar.addi c0_i32 v10
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v12 : BitVec 32 := Scalar.muli v5 c1_i32_6
  let v13 : BitVec 32 := Scalar.addi v11 v12
  v13.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v14 : BitVec 32 := Scalar.muli v2 c2_i32_8
  let v15 : BitVec 32 := Scalar.addi c0_i32_9 v14
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v16 : BitVec 32 := Scalar.muli v7 c1_i32_10
  let v17 : BitVec 32 := Scalar.addi v15 v16
  v17.toNat
def k0_dev3 (d0 : Dev nD) : Nat :=
  let c0_i32_16 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_15 : BitVec 32 := 2#32
  let v18 : BitVec 32 := Scalar.muli v6 c2_i32_15
  let v19 : BitVec 32 := Scalar.addi c0_i32_16 v18
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_17 : BitVec 32 := 1#32
  let v20 : BitVec 32 := Scalar.muli v5 c1_i32_17
  let v21 : BitVec 32 := Scalar.addi v19 v20
  v21.toNat
def k0_dev4 (d0 : Dev nD) : Nat :=
  let c0_i32_26 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_25 : BitVec 32 := 2#32
  let v29 : BitVec 32 := Scalar.muli v6 c2_i32_25
  let v30 : BitVec 32 := Scalar.addi c0_i32_26 v29
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_27 : BitVec 32 := 1#32
  let v31 : BitVec 32 := Scalar.muli v5 c1_i32_27
  let v32 : BitVec 32 := Scalar.addi v30 v31
  v32.toNat
def k0_dev5 (d0 : Dev nD) : Nat :=
  let c0_i32_35 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_34 : BitVec 32 := 2#32
  let v40 : BitVec 32 := Scalar.muli v6 c2_i32_34
  let v41 : BitVec 32 := Scalar.addi c0_i32_35 v40
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_36 : BitVec 32 := 1#32
  let v42 : BitVec 32 := Scalar.muli v5 c1_i32_36
  let v43 : BitVec 32 := Scalar.addi v41 v42
  v43.toNat
def k0_dev6 (d0 : Dev nD) : Nat :=
  let c0_i32_43 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_42 : BitVec 32 := 2#32
  let v51 : BitVec 32 := Scalar.muli v6 c2_i32_42
  let v52 : BitVec 32 := Scalar.addi c0_i32_43 v51
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_44 : BitVec 32 := 1#32
  let v53 : BitVec 32 := Scalar.muli v5 c1_i32_44
  let v54 : BitVec 32 := Scalar.addi v52 v53
  v54.toNat
def k0_dev7 (d0 : Dev nD) : Nat :=
  let c0_i32_51 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_50 : BitVec 32 := 2#32
  let v62 : BitVec 32 := Scalar.muli v6 c2_i32_50
  let v63 : BitVec 32 := Scalar.addi c0_i32_51 v62
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_52 : BitVec 32 := 1#32
  let v64 : BitVec 32 := Scalar.muli v5 c1_i32_52
  let v65 : BitVec 32 := Scalar.addi v63 v64
  v65.toNat
def k0_dev8 (d0 : Dev nD) : Nat :=
  let c0_i32_59 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_58 : BitVec 32 := 2#32
  let v73 : BitVec 32 := Scalar.muli v6 c2_i32_58
  let v74 : BitVec 32 := Scalar.addi c0_i32_59 v73
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_60 : BitVec 32 := 1#32
  let v75 : BitVec 32 := Scalar.muli v5 c1_i32_60
  let v76 : BitVec 32 := Scalar.addi v74 v75
  v76.toNat
def k0_dev9 (d0 : Dev nD) : Nat :=
  let c0_i32_67 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_66 : BitVec 32 := 2#32
  let v84 : BitVec 32 := Scalar.muli v6 c2_i32_66
  let v85 : BitVec 32 := Scalar.addi c0_i32_67 v84
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_68 : BitVec 32 := 1#32
  let v86 : BitVec 32 := Scalar.muli v5 c1_i32_68
  let v87 : BitVec 32 := Scalar.addi v85 v86
  v87.toNat
def k0_dev10 (d0 : Dev nD) : Nat :=
  let c0_i32_75 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_74 : BitVec 32 := 2#32
  let v95 : BitVec 32 := Scalar.muli v6 c2_i32_74
  let v96 : BitVec 32 := Scalar.addi c0_i32_75 v95
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_76 : BitVec 32 := 1#32
  let v97 : BitVec 32 := Scalar.muli v5 c1_i32_76
  let v98 : BitVec 32 := Scalar.addi v96 v97
  v98.toNat
def k0_dev11 (d0 : Dev nD) : Nat :=
  let c0_i32_83 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_82 : BitVec 32 := 2#32
  let v106 : BitVec 32 := Scalar.muli v6 c2_i32_82
  let v107 : BitVec 32 := Scalar.addi c0_i32_83 v106
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_84 : BitVec 32 := 1#32
  let v108 : BitVec 32 := Scalar.muli v5 c1_i32_84
  let v109 : BitVec 32 := Scalar.addi v107 v108
  v109.toNat
def k0_dev12 (d0 : Dev nD) : Nat :=
  let c0_i32_92 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_91 : BitVec 32 := 2#32
  let v117 : BitVec 32 := Scalar.muli v6 c2_i32_91
  let v118 : BitVec 32 := Scalar.addi c0_i32_92 v117
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_93 : BitVec 32 := 1#32
  let v119 : BitVec 32 := Scalar.muli v5 c1_i32_93
  let v120 : BitVec 32 := Scalar.addi v118 v119
  v120.toNat
def k0_dev13 (d0 : Dev nD) : Nat :=
  let c0_i32_100 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_99 : BitVec 32 := 2#32
  let v128 : BitVec 32 := Scalar.muli v6 c2_i32_99
  let v129 : BitVec 32 := Scalar.addi c0_i32_100 v128
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_101 : BitVec 32 := 1#32
  let v130 : BitVec 32 := Scalar.muli v5 c1_i32_101
  let v131 : BitVec 32 := Scalar.addi v129 v130
  v131.toNat
def k0_dev14 (d0 : Dev nD) : Nat :=
  let c0_i32_108 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_107 : BitVec 32 := 2#32
  let v139 : BitVec 32 := Scalar.muli v6 c2_i32_107
  let v140 : BitVec 32 := Scalar.addi c0_i32_108 v139
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_109 : BitVec 32 := 1#32
  let v141 : BitVec 32 := Scalar.muli v5 c1_i32_109
  let v142 : BitVec 32 := Scalar.addi v140 v141
  v142.toNat
def k0_dev15 (d0 : Dev nD) : Nat :=
  let c0_i32_116 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_115 : BitVec 32 := 2#32
  let v150 : BitVec 32 := Scalar.muli v6 c2_i32_115
  let v151 : BitVec 32 := Scalar.addi c0_i32_116 v150
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_117 : BitVec 32 := 1#32
  let v152 : BitVec 32 := Scalar.muli v5 c1_i32_117
  let v153 : BitVec 32 := Scalar.addi v151 v152
  v153.toNat
def k0_dev16 (d0 : Dev nD) : Nat :=
  let c0_i32_124 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_123 : BitVec 32 := 2#32
  let v161 : BitVec 32 := Scalar.muli v6 c2_i32_123
  let v162 : BitVec 32 := Scalar.addi c0_i32_124 v161
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_125 : BitVec 32 := 1#32
  let v163 : BitVec 32 := Scalar.muli v5 c1_i32_125
  let v164 : BitVec 32 := Scalar.addi v162 v163
  v164.toNat
def k0_dev17 (d0 : Dev nD) : Nat :=
  let c0_i32_132 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_131 : BitVec 32 := 2#32
  let v172 : BitVec 32 := Scalar.muli v6 c2_i32_131
  let v173 : BitVec 32 := Scalar.addi c0_i32_132 v172
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_133 : BitVec 32 := 1#32
  let v174 : BitVec 32 := Scalar.muli v5 c1_i32_133
  let v175 : BitVec 32 := Scalar.addi v173 v174
  v175.toNat
def k0_dev18 (d0 : Dev nD) : Nat :=
  let c0_i32_140 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_139 : BitVec 32 := 2#32
  let v183 : BitVec 32 := Scalar.muli v6 c2_i32_139
  let v184 : BitVec 32 := Scalar.addi c0_i32_140 v183
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_141 : BitVec 32 := 1#32
  let v185 : BitVec 32 := Scalar.muli v5 c1_i32_141
  let v186 : BitVec 32 := Scalar.addi v184 v185
  v186.toNat
def k0_off1 (d0 : Dev nD) : Fin 2 → Nat :=
  let c0_159 : Index := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v207 : Index := Scalar.indexCast v8
  ![0, v207.toNat]
def k0_off2 (d0 : Dev nD) : Fin 2 → Nat :=
  let c0_i32_165 : BitVec 32 := 0#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![0, v8.toNat]
def k0_dev19 (d0 : Dev nD) : Nat :=
  let c0_i32_163 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_162 : BitVec 32 := 2#32
  let v209 : BitVec 32 := Scalar.muli v2 c2_i32_162
  let v210 : BitVec 32 := Scalar.addi c0_i32_163 v209
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_164 : BitVec 32 := 1#32
  let v211 : BitVec 32 := Scalar.muli v7 c1_i32_164
  let v212 : BitVec 32 := Scalar.addi v210 v211
  v212.toNat
def k0_off3 (d0 : Dev nD) : Fin 2 → Nat :=
  let c64_181 : Index := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v232 : Index := Scalar.indexCast v8
  ![64, v232.toNat]
def k0_off4 (d0 : Dev nD) : Fin 2 → Nat :=
  let c64_i32_187 : BitVec 32 := 64#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![64, v8.toNat]
def k0_dev20 (d0 : Dev nD) : Nat :=
  let c0_i32_185 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_184 : BitVec 32 := 2#32
  let v234 : BitVec 32 := Scalar.muli v2 c2_i32_184
  let v235 : BitVec 32 := Scalar.addi c0_i32_185 v234
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_186 : BitVec 32 := 1#32
  let v236 : BitVec 32 := Scalar.muli v7 c1_i32_186
  let v237 : BitVec 32 := Scalar.addi v235 v236
  v237.toNat
def k0_off5 (d0 : Dev nD) : Fin 2 → Nat :=
  let c128_203 : Index := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v257 : Index := Scalar.indexCast v8
  ![128, v257.toNat]
def k0_off6 (d0 : Dev nD) : Fin 2 → Nat :=
  let c128_i32_209 : BitVec 32 := 128#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![128, v8.toNat]
def k0_dev21 (d0 : Dev nD) : Nat :=
  let c0_i32_207 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_206 : BitVec 32 := 2#32
  let v259 : BitVec 32 := Scalar.muli v2 c2_i32_206
  let v260 : BitVec 32 := Scalar.addi c0_i32_207 v259
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_208 : BitVec 32 := 1#32
  let v261 : BitVec 32 := Scalar.muli v7 c1_i32_208
  let v262 : BitVec 32 := Scalar.addi v260 v261
  v262.toNat
def k0_off7 (d0 : Dev nD) : Fin 2 → Nat :=
  let c192_225 : Index := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v282 : Index := Scalar.indexCast v8
  ![192, v282.toNat]
def k0_off8 (d0 : Dev nD) : Fin 2 → Nat :=
  let c192_i32_231 : BitVec 32 := 192#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![192, v8.toNat]
def k0_dev22 (d0 : Dev nD) : Nat :=
  let c0_i32_229 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_228 : BitVec 32 := 2#32
  let v284 : BitVec 32 := Scalar.muli v2 c2_i32_228
  let v285 : BitVec 32 := Scalar.addi c0_i32_229 v284
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_230 : BitVec 32 := 1#32
  let v286 : BitVec 32 := Scalar.muli v7 c1_i32_230
  let v287 : BitVec 32 := Scalar.addi v285 v286
  v287.toNat
def k0_off9 (d0 : Dev nD) : Fin 2 → Nat :=
  let c256_247 : Index := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v307 : Index := Scalar.indexCast v8
  ![256, v307.toNat]
def k0_off10 (d0 : Dev nD) : Fin 2 → Nat :=
  let c256_i32_253 : BitVec 32 := 256#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![256, v8.toNat]
def k0_dev23 (d0 : Dev nD) : Nat :=
  let c0_i32_251 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_250 : BitVec 32 := 2#32
  let v309 : BitVec 32 := Scalar.muli v2 c2_i32_250
  let v310 : BitVec 32 := Scalar.addi c0_i32_251 v309
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_252 : BitVec 32 := 1#32
  let v311 : BitVec 32 := Scalar.muli v7 c1_i32_252
  let v312 : BitVec 32 := Scalar.addi v310 v311
  v312.toNat
def k0_off11 (d0 : Dev nD) : Fin 2 → Nat :=
  let c320_269 : Index := 320#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v332 : Index := Scalar.indexCast v8
  ![320, v332.toNat]
def k0_off12 (d0 : Dev nD) : Fin 2 → Nat :=
  let c320_i32_275 : BitVec 32 := 320#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![320, v8.toNat]
def k0_dev24 (d0 : Dev nD) : Nat :=
  let c0_i32_273 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_272 : BitVec 32 := 2#32
  let v334 : BitVec 32 := Scalar.muli v2 c2_i32_272
  let v335 : BitVec 32 := Scalar.addi c0_i32_273 v334
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_274 : BitVec 32 := 1#32
  let v336 : BitVec 32 := Scalar.muli v7 c1_i32_274
  let v337 : BitVec 32 := Scalar.addi v335 v336
  v337.toNat
def k0_off13 (d0 : Dev nD) : Fin 2 → Nat :=
  let c384_291 : Index := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v357 : Index := Scalar.indexCast v8
  ![384, v357.toNat]
def k0_off14 (d0 : Dev nD) : Fin 2 → Nat :=
  let c384_i32_297 : BitVec 32 := 384#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![384, v8.toNat]
def k0_dev25 (d0 : Dev nD) : Nat :=
  let c0_i32_295 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_294 : BitVec 32 := 2#32
  let v359 : BitVec 32 := Scalar.muli v2 c2_i32_294
  let v360 : BitVec 32 := Scalar.addi c0_i32_295 v359
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_296 : BitVec 32 := 1#32
  let v361 : BitVec 32 := Scalar.muli v7 c1_i32_296
  let v362 : BitVec 32 := Scalar.addi v360 v361
  v362.toNat
def k0_off15 (d0 : Dev nD) : Fin 2 → Nat :=
  let c448_313 : Index := 448#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v382 : Index := Scalar.indexCast v8
  ![448, v382.toNat]
def k0_off16 (d0 : Dev nD) : Fin 2 → Nat :=
  let c448_i32_319 : BitVec 32 := 448#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![448, v8.toNat]
def k0_dev26 (d0 : Dev nD) : Nat :=
  let c0_i32_317 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_316 : BitVec 32 := 2#32
  let v384 : BitVec 32 := Scalar.muli v2 c2_i32_316
  let v385 : BitVec 32 := Scalar.addi c0_i32_317 v384
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_318 : BitVec 32 := 1#32
  let v386 : BitVec 32 := Scalar.muli v7 c1_i32_318
  let v387 : BitVec 32 := Scalar.addi v385 v386
  v387.toNat
def k0_off17 (d0 : Dev nD) : Fin 2 → Nat :=
  let c512_335 : Index := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v407 : Index := Scalar.indexCast v8
  ![512, v407.toNat]
def k0_off18 (d0 : Dev nD) : Fin 2 → Nat :=
  let c512_i32_341 : BitVec 32 := 512#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![512, v8.toNat]
def k0_dev27 (d0 : Dev nD) : Nat :=
  let c0_i32_339 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_338 : BitVec 32 := 2#32
  let v409 : BitVec 32 := Scalar.muli v2 c2_i32_338
  let v410 : BitVec 32 := Scalar.addi c0_i32_339 v409
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_340 : BitVec 32 := 1#32
  let v411 : BitVec 32 := Scalar.muli v7 c1_i32_340
  let v412 : BitVec 32 := Scalar.addi v410 v411
  v412.toNat
def k0_off19 (d0 : Dev nD) : Fin 2 → Nat :=
  let c576_357 : Index := 576#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v432 : Index := Scalar.indexCast v8
  ![576, v432.toNat]
def k0_off20 (d0 : Dev nD) : Fin 2 → Nat :=
  let c576_i32_363 : BitVec 32 := 576#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![576, v8.toNat]
def k0_dev28 (d0 : Dev nD) : Nat :=
  let c0_i32_361 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_360 : BitVec 32 := 2#32
  let v434 : BitVec 32 := Scalar.muli v2 c2_i32_360
  let v435 : BitVec 32 := Scalar.addi c0_i32_361 v434
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_362 : BitVec 32 := 1#32
  let v436 : BitVec 32 := Scalar.muli v7 c1_i32_362
  let v437 : BitVec 32 := Scalar.addi v435 v436
  v437.toNat
def k0_off21 (d0 : Dev nD) : Fin 2 → Nat :=
  let c640_379 : Index := 640#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v457 : Index := Scalar.indexCast v8
  ![640, v457.toNat]
def k0_off22 (d0 : Dev nD) : Fin 2 → Nat :=
  let c640_i32_385 : BitVec 32 := 640#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![640, v8.toNat]
def k0_dev29 (d0 : Dev nD) : Nat :=
  let c0_i32_383 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_382 : BitVec 32 := 2#32
  let v459 : BitVec 32 := Scalar.muli v2 c2_i32_382
  let v460 : BitVec 32 := Scalar.addi c0_i32_383 v459
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_384 : BitVec 32 := 1#32
  let v461 : BitVec 32 := Scalar.muli v7 c1_i32_384
  let v462 : BitVec 32 := Scalar.addi v460 v461
  v462.toNat
def k0_off23 (d0 : Dev nD) : Fin 2 → Nat :=
  let c704_401 : Index := 704#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v482 : Index := Scalar.indexCast v8
  ![704, v482.toNat]
def k0_off24 (d0 : Dev nD) : Fin 2 → Nat :=
  let c704_i32_407 : BitVec 32 := 704#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![704, v8.toNat]
def k0_dev30 (d0 : Dev nD) : Nat :=
  let c0_i32_405 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_404 : BitVec 32 := 2#32
  let v484 : BitVec 32 := Scalar.muli v2 c2_i32_404
  let v485 : BitVec 32 := Scalar.addi c0_i32_405 v484
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_406 : BitVec 32 := 1#32
  let v486 : BitVec 32 := Scalar.muli v7 c1_i32_406
  let v487 : BitVec 32 := Scalar.addi v485 v486
  v487.toNat
def k0_off25 (d0 : Dev nD) : Fin 2 → Nat :=
  let c768_423 : Index := 768#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v507 : Index := Scalar.indexCast v8
  ![768, v507.toNat]
def k0_off26 (d0 : Dev nD) : Fin 2 → Nat :=
  let c768_i32_429 : BitVec 32 := 768#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![768, v8.toNat]
def k0_dev31 (d0 : Dev nD) : Nat :=
  let c0_i32_427 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_426 : BitVec 32 := 2#32
  let v509 : BitVec 32 := Scalar.muli v2 c2_i32_426
  let v510 : BitVec 32 := Scalar.addi c0_i32_427 v509
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_428 : BitVec 32 := 1#32
  let v511 : BitVec 32 := Scalar.muli v7 c1_i32_428
  let v512 : BitVec 32 := Scalar.addi v510 v511
  v512.toNat
def k0_off27 (d0 : Dev nD) : Fin 2 → Nat :=
  let c832_445 : Index := 832#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v532 : Index := Scalar.indexCast v8
  ![832, v532.toNat]
def k0_off28 (d0 : Dev nD) : Fin 2 → Nat :=
  let c832_i32_451 : BitVec 32 := 832#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![832, v8.toNat]
def k0_dev32 (d0 : Dev nD) : Nat :=
  let c0_i32_449 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_448 : BitVec 32 := 2#32
  let v534 : BitVec 32 := Scalar.muli v2 c2_i32_448
  let v535 : BitVec 32 := Scalar.addi c0_i32_449 v534
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_450 : BitVec 32 := 1#32
  let v536 : BitVec 32 := Scalar.muli v7 c1_i32_450
  let v537 : BitVec 32 := Scalar.addi v535 v536
  v537.toNat
def k0_off29 (d0 : Dev nD) : Fin 2 → Nat :=
  let c896_467 : Index := 896#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v557 : Index := Scalar.indexCast v8
  ![896, v557.toNat]
def k0_off30 (d0 : Dev nD) : Fin 2 → Nat :=
  let c896_i32_473 : BitVec 32 := 896#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![896, v8.toNat]
def k0_dev33 (d0 : Dev nD) : Nat :=
  let c0_i32_471 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_470 : BitVec 32 := 2#32
  let v559 : BitVec 32 := Scalar.muli v2 c2_i32_470
  let v560 : BitVec 32 := Scalar.addi c0_i32_471 v559
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_472 : BitVec 32 := 1#32
  let v561 : BitVec 32 := Scalar.muli v7 c1_i32_472
  let v562 : BitVec 32 := Scalar.addi v560 v561
  v562.toNat
def k0_off31 (d0 : Dev nD) : Fin 2 → Nat :=
  let c960_489 : Index := 960#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  let v582 : Index := Scalar.indexCast v8
  ![960, v582.toNat]
def k0_off32 (d0 : Dev nD) : Fin 2 → Nat :=
  let c960_i32_495 : BitVec 32 := 960#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c512_i32 : BitVec 32 := 512#32
  let v8 : BitVec 32 := Scalar.muli v5 c512_i32
  ![960, v8.toNat]
def k0_dev34 (d0 : Dev nD) : Nat :=
  let c0_i32_493 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_492 : BitVec 32 := 2#32
  let v584 : BitVec 32 := Scalar.muli v2 c2_i32_492
  let v585 : BitVec 32 := Scalar.addi c0_i32_493 v584
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_494 : BitVec 32 := 1#32
  let v586 : BitVec 32 := Scalar.muli v7 c1_i32_494
  let v587 : BitVec 32 := Scalar.addi v585 v586
  v587.toNat
abbrev stage0_0 : Fin 1 → Memref sig .tc .vmem S1x1024x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

class Facts₀ : Prop where
  hamt_1 : (1#32 : BitVec 32).msb = false
  hamt_2 : (2#32 : BitVec 32).msb = false
  inb_S16_S1_0 : ∀ a, (![0] : Fin 1 → Nat) a + S1.size a ≤ S16.size a
  squeezes_S1_S_ : S1.Squeezes S_
  inb_S1024x512_S64x512_0_0 : ∀ a, (![0, 0] : Fin 2 → Nat) a + S64x512.size a ≤ S1024x512.size a
  inb_S1x1024x512_S1x64x512_0_0_0 : ∀ a, (![0, 0, 0] : Fin 3 → Nat) a + S1x64x512.size a ≤ S1x1024x512.size a
  squeezes_S1x64x512_S64x512 : S1x64x512.Squeezes S64x512
  inb_S16_S1_1 : ∀ a, (![1] : Fin 1 → Nat) a + S1.size a ≤ S16.size a
  inb_S1024x512_S64x512_64_0 : ∀ a, (![64, 0] : Fin 2 → Nat) a + S64x512.size a ≤ S1024x512.size a
  inb_S1x1024x512_S1x64x512_0_64_0 : ∀ a, (![0, 64, 0] : Fin 3 → Nat) a + S1x64x512.size a ≤ S1x1024x512.size a
  inb_S16_S1_2 : ∀ a, (![2] : Fin 1 → Nat) a + S1.size a ≤ S16.size a
  inb_S1024x512_S64x512_128_0 : ∀ a, (![128, 0] : Fin 2 → Nat) a + S64x512.size a ≤ S1024x512.size a
  inb_S1x1024x512_S1x64x512_0_128_0 : ∀ a, (![0, 128, 0] : Fin 3 → Nat) a + S1x64x512.size a ≤ S1x1024x512.size a
  inb_S16_S1_3 : ∀ a, (![3] : Fin 1 → Nat) a + S1.size a ≤ S16.size a
  inb_S1024x512_S64x512_192_0 : ∀ a, (![192, 0] : Fin 2 → Nat) a + S64x512.size a ≤ S1024x512.size a
  inb_S1x1024x512_S1x64x512_0_192_0 : ∀ a, (![0, 192, 0] : Fin 3 → Nat) a + S1x64x512.size a ≤ S1x1024x512.size a
  inb_S16_S1_4 : ∀ a, (![4] : Fin 1 → Nat) a + S1.size a ≤ S16.size a
  inb_S1024x512_S64x512_256_0 : ∀ a, (![256, 0] : Fin 2 → Nat) a + S64x512.size a ≤ S1024x512.size a
  inb_S1x1024x512_S1x64x512_0_256_0 : ∀ a, (![0, 256, 0] : Fin 3 → Nat) a + S1x64x512.size a ≤ S1x1024x512.size a
  inb_S16_S1_5 : ∀ a, (![5] : Fin 1 → Nat) a + S1.size a ≤ S16.size a
  inb_S1024x512_S64x512_320_0 : ∀ a, (![320, 0] : Fin 2 → Nat) a + S64x512.size a ≤ S1024x512.size a
  inb_S1x1024x512_S1x64x512_0_320_0 : ∀ a, (![0, 320, 0] : Fin 3 → Nat) a + S1x64x512.size a ≤ S1x1024x512.size a
  inb_S16_S1_6 : ∀ a, (![6] : Fin 1 → Nat) a + S1.size a ≤ S16.size a
  inb_S1024x512_S64x512_384_0 : ∀ a, (![384, 0] : Fin 2 → Nat) a + S64x512.size a ≤ S1024x512.size a
  inb_S1x1024x512_S1x64x512_0_384_0 : ∀ a, (![0, 384, 0] : Fin 3 → Nat) a + S1x64x512.size a ≤ S1x1024x512.size a
  inb_S16_S1_7 : ∀ a, (![7] : Fin 1 → Nat) a + S1.size a ≤ S16.size a
  inb_S1024x512_S64x512_448_0 : ∀ a, (![448, 0] : Fin 2 → Nat) a + S64x512.size a ≤ S1024x512.size a
  inb_S1x1024x512_S1x64x512_0_448_0 : ∀ a, (![0, 448, 0] : Fin 3 → Nat) a + S1x64x512.size a ≤ S1x1024x512.size a
  inb_S16_S1_8 : ∀ a, (![8] : Fin 1 → Nat) a + S1.size a ≤ S16.size a
  inb_S1024x512_S64x512_512_0 : ∀ a, (![512, 0] : Fin 2 → Nat) a + S64x512.size a ≤ S1024x512.size a
  inb_S1x1024x512_S1x64x512_0_512_0 : ∀ a, (![0, 512, 0] : Fin 3 → Nat) a + S1x64x512.size a ≤ S1x1024x512.size a
  inb_S16_S1_9 : ∀ a, (![9] : Fin 1 → Nat) a + S1.size a ≤ S16.size a
  inb_S1024x512_S64x512_576_0 : ∀ a, (![576, 0] : Fin 2 → Nat) a + S64x512.size a ≤ S1024x512.size a
  inb_S1x1024x512_S1x64x512_0_576_0 : ∀ a, (![0, 576, 0] : Fin 3 → Nat) a + S1x64x512.size a ≤ S1x1024x512.size a
  inb_S16_S1_10 : ∀ a, (![10] : Fin 1 → Nat) a + S1.size a ≤ S16.size a
  inb_S1024x512_S64x512_640_0 : ∀ a, (![640, 0] : Fin 2 → Nat) a + S64x512.size a ≤ S1024x512.size a
  inb_S1x1024x512_S1x64x512_0_640_0 : ∀ a, (![0, 640, 0] : Fin 3 → Nat) a + S1x64x512.size a ≤ S1x1024x512.size a
  inb_S16_S1_11 : ∀ a, (![11] : Fin 1 → Nat) a + S1.size a ≤ S16.size a
  inb_S1024x512_S64x512_704_0 : ∀ a, (![704, 0] : Fin 2 → Nat) a + S64x512.size a ≤ S1024x512.size a
  inb_S1x1024x512_S1x64x512_0_704_0 : ∀ a, (![0, 704, 0] : Fin 3 → Nat) a + S1x64x512.size a ≤ S1x1024x512.size a
  inb_S16_S1_12 : ∀ a, (![12] : Fin 1 → Nat) a + S1.size a ≤ S16.size a
  inb_S1024x512_S64x512_768_0 : ∀ a, (![768, 0] : Fin 2 → Nat) a + S64x512.size a ≤ S1024x512.size a
  inb_S1x1024x512_S1x64x512_0_768_0 : ∀ a, (![0, 768, 0] : Fin 3 → Nat) a + S1x64x512.size a ≤ S1x1024x512.size a
  inb_S16_S1_13 : ∀ a, (![13] : Fin 1 → Nat) a + S1.size a ≤ S16.size a
  inb_S1024x512_S64x512_832_0 : ∀ a, (![832, 0] : Fin 2 → Nat) a + S64x512.size a ≤ S1024x512.size a
  inb_S1x1024x512_S1x64x512_0_832_0 : ∀ a, (![0, 832, 0] : Fin 3 → Nat) a + S1x64x512.size a ≤ S1x1024x512.size a
  inb_S16_S1_14 : ∀ a, (![14] : Fin 1 → Nat) a + S1.size a ≤ S16.size a
  inb_S1024x512_S64x512_896_0 : ∀ a, (![896, 0] : Fin 2 → Nat) a + S64x512.size a ≤ S1024x512.size a
  inb_S1x1024x512_S1x64x512_0_896_0 : ∀ a, (![0, 896, 0] : Fin 3 → Nat) a + S1x64x512.size a ≤ S1x1024x512.size a
  inb_S16_S1_15 : ∀ a, (![15] : Fin 1 → Nat) a + S1.size a ≤ S16.size a
  inb_S1024x512_S64x512_960_0 : ∀ a, (![960, 0] : Fin 2 → Nat) a + S64x512.size a ≤ S1024x512.size a
  inb_S1x1024x512_S1x64x512_0_960_0 : ∀ a, (![0, 960, 0] : Fin 3 → Nat) a + S1x64x512.size a ≤ S1x1024x512.size a
  h_S1x64x512 : 0 < S1x64x512.numel
  shapeCasts_S1x64x512_S64x512 : S1x64x512.ShapeCasts S64x512
  h_S64x512 : 0 < S64x512.numel
  hcc0_scratch1 : 2 + S16.numel ≤ 66
  hcc0_scratch2 : 18 + S16.numel ≤ 66
  hcc0_scratch3 : 34 + S16.numel ≤ 66
  hcc0_scratch4 : 50 + S16.numel ≤ 66
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_off1_inb : ∀ d0 : Dev nD, ∀ a, (k0_off1 d0) a + S64x512.size a ≤ S1024x1024.size a
  k0_off2_inb : ∀ d0 : Dev nD, ∀ a, (k0_off2 d0) a + S64x512.size a ≤ S1024x1024.size a
  k0_dev19_lt : ∀ d0 : Dev nD, (k0_dev19 d0) < nD
  k0_off3_inb : ∀ d0 : Dev nD, ∀ a, (k0_off3 d0) a + S64x512.size a ≤ S1024x1024.size a
  k0_off4_inb : ∀ d0 : Dev nD, ∀ a, (k0_off4 d0) a + S64x512.size a ≤ S1024x1024.size a
  k0_dev20_lt : ∀ d0 : Dev nD, (k0_dev20 d0) < nD
  k0_off5_inb : ∀ d0 : Dev nD, ∀ a, (k0_off5 d0) a + S64x512.size a ≤ S1024x1024.size a
  k0_off6_inb : ∀ d0 : Dev nD, ∀ a, (k0_off6 d0) a + S64x512.size a ≤ S1024x1024.size a
  k0_dev21_lt : ∀ d0 : Dev nD, (k0_dev21 d0) < nD
  k0_off7_inb : ∀ d0 : Dev nD, ∀ a, (k0_off7 d0) a + S64x512.size a ≤ S1024x1024.size a
  k0_off8_inb : ∀ d0 : Dev nD, ∀ a, (k0_off8 d0) a + S64x512.size a ≤ S1024x1024.size a
  k0_dev22_lt : ∀ d0 : Dev nD, (k0_dev22 d0) < nD
  k0_off9_inb : ∀ d0 : Dev nD, ∀ a, (k0_off9 d0) a + S64x512.size a ≤ S1024x1024.size a
  k0_off10_inb : ∀ d0 : Dev nD, ∀ a, (k0_off10 d0) a + S64x512.size a ≤ S1024x1024.size a
  k0_dev23_lt : ∀ d0 : Dev nD, (k0_dev23 d0) < nD
  k0_off11_inb : ∀ d0 : Dev nD, ∀ a, (k0_off11 d0) a + S64x512.size a ≤ S1024x1024.size a
  k0_off12_inb : ∀ d0 : Dev nD, ∀ a, (k0_off12 d0) a + S64x512.size a ≤ S1024x1024.size a
  k0_dev24_lt : ∀ d0 : Dev nD, (k0_dev24 d0) < nD
  k0_off13_inb : ∀ d0 : Dev nD, ∀ a, (k0_off13 d0) a + S64x512.size a ≤ S1024x1024.size a
  k0_off14_inb : ∀ d0 : Dev nD, ∀ a, (k0_off14 d0) a + S64x512.size a ≤ S1024x1024.size a
  k0_dev25_lt : ∀ d0 : Dev nD, (k0_dev25 d0) < nD
  k0_off15_inb : ∀ d0 : Dev nD, ∀ a, (k0_off15 d0) a + S64x512.size a ≤ S1024x1024.size a
  k0_off16_inb : ∀ d0 : Dev nD, ∀ a, (k0_off16 d0) a + S64x512.size a ≤ S1024x1024.size a
  k0_dev26_lt : ∀ d0 : Dev nD, (k0_dev26 d0) < nD
  k0_off17_inb : ∀ d0 : Dev nD, ∀ a, (k0_off17 d0) a + S64x512.size a ≤ S1024x1024.size a
  k0_off18_inb : ∀ d0 : Dev nD, ∀ a, (k0_off18 d0) a + S64x512.size a ≤ S1024x1024.size a
  k0_dev27_lt : ∀ d0 : Dev nD, (k0_dev27 d0) < nD
  k0_off19_inb : ∀ d0 : Dev nD, ∀ a, (k0_off19 d0) a + S64x512.size a ≤ S1024x1024.size a
  k0_off20_inb : ∀ d0 : Dev nD, ∀ a, (k0_off20 d0) a + S64x512.size a ≤ S1024x1024.size a
  k0_dev28_lt : ∀ d0 : Dev nD, (k0_dev28 d0) < nD
  k0_off21_inb : ∀ d0 : Dev nD, ∀ a, (k0_off21 d0) a + S64x512.size a ≤ S1024x1024.size a
  k0_off22_inb : ∀ d0 : Dev nD, ∀ a, (k0_off22 d0) a + S64x512.size a ≤ S1024x1024.size a
  k0_dev29_lt : ∀ d0 : Dev nD, (k0_dev29 d0) < nD
  k0_off23_inb : ∀ d0 : Dev nD, ∀ a, (k0_off23 d0) a + S64x512.size a ≤ S1024x1024.size a
  k0_off24_inb : ∀ d0 : Dev nD, ∀ a, (k0_off24 d0) a + S64x512.size a ≤ S1024x1024.size a
  k0_dev30_lt : ∀ d0 : Dev nD, (k0_dev30 d0) < nD
  k0_off25_inb : ∀ d0 : Dev nD, ∀ a, (k0_off25 d0) a + S64x512.size a ≤ S1024x1024.size a
  k0_off26_inb : ∀ d0 : Dev nD, ∀ a, (k0_off26 d0) a + S64x512.size a ≤ S1024x1024.size a
  k0_dev31_lt : ∀ d0 : Dev nD, (k0_dev31 d0) < nD
  k0_off27_inb : ∀ d0 : Dev nD, ∀ a, (k0_off27 d0) a + S64x512.size a ≤ S1024x1024.size a
  k0_off28_inb : ∀ d0 : Dev nD, ∀ a, (k0_off28 d0) a + S64x512.size a ≤ S1024x1024.size a
  k0_dev32_lt : ∀ d0 : Dev nD, (k0_dev32 d0) < nD
  k0_off29_inb : ∀ d0 : Dev nD, ∀ a, (k0_off29 d0) a + S64x512.size a ≤ S1024x1024.size a
  k0_off30_inb : ∀ d0 : Dev nD, ∀ a, (k0_off30 d0) a + S64x512.size a ≤ S1024x1024.size a
  k0_dev33_lt : ∀ d0 : Dev nD, (k0_dev33 d0) < nD
  k0_off31_inb : ∀ d0 : Dev nD, ∀ a, (k0_off31 d0) a + S64x512.size a ≤ S1024x1024.size a
  k0_off32_inb : ∀ d0 : Dev nD, ∀ a, (k0_off32 d0) a + S64x512.size a ≤ S1024x1024.size a
  k0_dev34_lt : ∀ d0 : Dev nD, (k0_dev34 d0) < nD
  hstage0_0 : ∀ j, (stage0_0 j).IsWhole
  hstage0_1 : ∀ j, (stage0_1 j).IsWhole

variable [Facts₀]

abbrev cc0_scratch1 : DmaSems sig S16 := SemArray.consecutive 2 S16 hcc0_scratch1
abbrev cc0_scratch2 : DmaSems sig S16 := SemArray.consecutive 18 S16 hcc0_scratch2
abbrev cc0_scratch3 : DmaSems sig S16 := SemArray.consecutive 34 S16 hcc0_scratch3
abbrev cc0_scratch4 : DmaSems sig S16 := SemArray.consecutive 50 S16 hcc0_scratch4

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_v1) true false (stage0_1 0) (sem0_1 0) (Memref.isWhole_whole _) (hstage0_1 0)

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S2x1024x1024 : Shape := ⟨3, ![2, 1024, 1024]⟩
abbrev S_ : Shape := ⟨0, ![]⟩
abbrev S1024x1024 : Shape := ⟨2, ![1024, 1024]⟩

abbrev nBuf : Space → Nat
  | .hbm => 3
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S_, .f32⟩
  | .hbm, ⟨2, _⟩ => ⟨S1024x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]

class Facts₀ : Prop where
  reducesTo_S2x1024x1024_S1024x1024_d0 : S2x1024x1024.ReducesTo [0] S1024x1024
  h_S_ : 0 < S_.numel

variable [Facts₀]

class Facts : Prop extends Facts₀ where

variable [Facts]
-- ==== Proof.Kernel.Proto.lean ====
/-
  The protocol of the 2 × 2 all-reduce: every device first tells both its mesh neighbours that it is inside the
  kernel (one unit each on their barrier semaphore) and waits for their two units; then it sends its block, sixteen
  chunks of 64 rows, to the neighbour along the first mesh axis, adds what that neighbour sent chunk by chunk into
  its own half of the columns of the result, and forwards each finished chunk to the neighbour along the second
  axis, which writes the other half of the columns.  Stated here: the neighbours, the semaphores and their cells,
  the sixteen row chunks of each buffer, what each buffer holds at the end, and the rounds schedule (one round per
  cell) with its tables.
-/
import proofs.«900315_g7700000000000316_dist_rsx_agy_m1024_n512_v7x_xy2x2_f32_1_alg».proof.Proof.Gen.Kernel
import proofs.«900315_g7700000000000316_dist_rsx_agy_m1024_n512_v7x_xy2x2_f32_1_alg».proof.Proof.Gen.Kernel.Skeleton
import proofs.«900315_g7700000000000316_dist_rsx_agy_m1024_n512_v7x_xy2x2_f32_1_alg».proof.Proof.Gen.Kernel.Launch
import proofs.«900315_g7700000000000316_dist_rsx_agy_m1024_n512_v7x_xy2x2_f32_1_alg».proof.Proof.Gen.Kernel.Points
import proofs.«900315_g7700000000000316_dist_rsx_agy_m1024_n512_v7x_xy2x2_f32_1_alg».proof.Proof.Gen.Kernel.Frame
import Idealize.ShloMosaic.Lib.Pipeline.Launch
import Idealize.ShloMosaic.Lib.Pipeline.Kit
import Idealize.ShloMosaic.Lib.Tactic
import Mathlib.Tactic.IntervalCases

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy (one duty a round) beside the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The two neighbours of a device

Device `c` sits at row `c / 2`, column `c % 2` of the mesh. Its neighbour along the first axis is in the other
row and the same column, its neighbour along the second axis in the same row and the other column; both maps are
involutions. -/

def xp (c : Dev nD) : Dev nD := ⟨(c.val + 2) % 4, Nat.mod_lt _ (by decide)⟩
def yp (c : Dev nD) : Dev nD := ⟨c.val + 1 - 2 * (c.val % 2), by have h : c.val < 4 := c.isLt; show c.val + 1 - 2 * (c.val % 2) < 4; omega⟩

theorem xp_xp (c : Dev nD) : xp (xp c) = c := by revert c; decide
theorem yp_yp (c : Dev nD) : yp (yp c) = c := by revert c; decide
theorem xp_ne_yp (c : Dev nD) : xp c ≠ yp c := by revert c; decide
theorem xp_ne (c : Dev nD) : xp c ≠ c := by revert c; decide
theorem yp_ne (c : Dev nD) : yp c ≠ c := by revert c; decide
/-- the column of a device, and that the second-axis neighbour has the other one -/
def col (c : Dev nD) : ℕ := c.val % 2
theorem col_lt (c : Dev nD) : col c < 2 := Nat.mod_lt _ (by decide)
theorem col_xp (c : Dev nD) : col (xp c) = col c := by revert c; decide
theorem col_yp (c : Dev nD) : col (yp c) = 1 - col c := by revert c; decide

def xswap : Dev nD ≃ Dev nD := ⟨xp, xp, xp_xp, xp_xp⟩
def yswap : Dev nD ≃ Dev nD := ⟨yp, yp, yp_yp, yp_yp⟩

/-- What the kernel's printed device computations address: the two signals and the sixteen first-axis transfers name
    `xp c` (the first signal and the chains 3 to 18) and `yp c` (the second signal and the chains 19 to 34). -/
theorem devX_of {k : ℕ} {h : k < nD} (c : Dev nD) (e : k = ((c.val % 2) + 2) - 2 * (c.val / 2)) : (⟨k, h⟩ : Dev nD) = xp c := by
  subst e; revert c; decide
theorem devY_of {k : ℕ} {h : k < nD} (c : Dev nD) (e : k = (2 * (c.val / 2) + 1) - (c.val % 2)) : (⟨k, h⟩ : Dev nD) = yp c := by
  subst e; revert c; decide

/-! ## The semaphores and their cells -/

/-- The runtime's barrier semaphore of collective id 0. -/
abbrev barS : Sem sig := (SemArray.scalar (sig.barrier 0 rfl) : Sems sig S_).sem

theorem h16 (i : ℕ) (hi : i < 16) : ∀ a, (![i] : Fin 1 → Nat) a + S1.size a ≤ S16.size a := by
  interval_cases i <;> decide

/-- Semaphore `i` of one of the kernel's four arrays of sixteen DMA semaphores, as the body spells it. -/
def semAt (A : DmaSems sig S16) (i : ℕ) (hi : i < 16) : DmaSem sig :=
  ((A.slice (Rect.unit (s := S16) ![i] S1.size (h16 i hi))).squeeze S_ squeezes_S1_S_).sem

/-- first-axis send, first-axis receive, second-axis send, second-axis receive -/
abbrev sxS (i : ℕ) (hi : i < 16) : DmaSem sig := semAt cc0_scratch1 i hi
abbrev rxS (i : ℕ) (hi : i < 16) : DmaSem sig := semAt cc0_scratch2 i hi
abbrev syS (i : ℕ) (hi : i < 16) : DmaSem sig := semAt cc0_scratch3 i hi
abbrev ryS (i : ℕ) (hi : i < 16) : DmaSem sig := semAt cc0_scratch4 i hi

theorem sxS_valF : ∀ i : Fin 16, (sxS i.val i.isLt).val = 2 + i.val := by decide
theorem sxS_val (i : ℕ) (hi : i < 16) : (sxS i hi).val = 2 + i := sxS_valF ⟨i, hi⟩
theorem rxS_valF : ∀ i : Fin 16, (rxS i.val i.isLt).val = 18 + i.val := by decide
theorem rxS_val (i : ℕ) (hi : i < 16) : (rxS i hi).val = 18 + i := rxS_valF ⟨i, hi⟩
theorem syS_valF : ∀ i : Fin 16, (syS i.val i.isLt).val = 34 + i.val := by decide
theorem syS_val (i : ℕ) (hi : i < 16) : (syS i hi).val = 34 + i := syS_valF ⟨i, hi⟩
theorem ryS_valF : ∀ i : Fin 16, (ryS i.val i.isLt).val = 50 + i.val := by decide
theorem ryS_val (i : ℕ) (hi : i < 16) : (ryS i hi).val = 50 + i := ryS_valF ⟨i, hi⟩

abbrev barC (c : Dev nD) : GSem nD τ sig := ((c : Thread nD τ), .reg barS)
abbrev dmaC (c : Dev nD) (q : DmaSem sig) : GSem nD τ sig := ((c : Thread nD τ), .dma q)

/-- Which of the four families a scratch DMA semaphore (index 2 to 65) belongs to, and which chunk it serves. -/
def famOf (q : DmaSem sig) : ℕ := (q.val - 2) / 16
def chunkOf (q : DmaSem sig) : ℕ := (q.val - 2) % 16
theorem chunkOf_lt (q : DmaSem sig) : chunkOf q < 16 := Nat.mod_lt _ (by decide)

/-! ## The buffers and their sixteen chunks of 64 rows -/

abbrev xM : Memref sig .tc .vmem S1x1024x512 .f32 := Memref.whole cc0_stg0_0
abbrev oM : Memref sig .tc .vmem S1024x1024 .f32 := Memref.whole cc0_stg1_0
abbrev rM : Memref sig .tc .vmem S1024x512 .f32 := Memref.whole cc0_scratch0

theorem hxin (i : ℕ) (hi : i < 16) : ∀ a, (![0, 64 * i, 0] : Fin 3 → Nat) a + S1x64x512.size a ≤ S1x1024x512.size a := by
  interval_cases i <;> decide
theorem hrin (i : ℕ) (hi : i < 16) : ∀ a, (![64 * i, 0] : Fin 2 → Nat) a + S64x512.size a ≤ S1024x512.size a := by
  interval_cases i <;> decide
theorem hoin (i : ℕ) (hi : i < 16) (j : ℕ) (hj : j < 2) : ∀ a, (![64 * i, 512 * j] : Fin 2 → Nat) a + S64x512.size a ≤ S1024x1024.size a := by
  interval_cases i <;> interval_cases j <;> decide

/-- rows `64 i` to `64 i + 63` of the input block, of the landing buffer, and of one half of the columns of the result -/
abbrev xR (i : ℕ) (hi : i < 16) : Rect S1x1024x512 := Rect.unit (s := S1x1024x512) ![0, 64 * i, 0] S1x64x512.size (hxin i hi)
abbrev rR (i : ℕ) (hi : i < 16) : Rect S1024x512 := Rect.unit (s := S1024x512) ![64 * i, 0] S64x512.size (hrin i hi)
abbrev oR (i : ℕ) (hi : i < 16) (j : ℕ) (hj : j < 2) : Rect S1024x1024 := Rect.unit (s := S1024x1024) ![64 * i, 512 * j] S64x512.size (hoin i hi j hj)

abbrev xP (i : ℕ) (hi : i < 16) : Memref sig .tc .vmem S64x512 .f32 :=
  (xM.slice (xR i hi) (fun _ => rfl)).squeeze S64x512 squeezes_S1x64x512_S64x512
abbrev rP (i : ℕ) (hi : i < 16) : Memref sig .tc .vmem S64x512 .f32 := rM.slice (rR i hi) (fun _ => rfl)
abbrev oP (i : ℕ) (hi : i < 16) (j : ℕ) (hj : j < 2) : Memref sig .tc .vmem S64x512 .f32 := oM.slice (oR i hi j hj) (fun _ => rfl)

/-! ## What the buffers hold -/

/-- Device `c`'s input staging buffer: its block of the argument. -/
def xstg (c : Dev nD) : (cc0_stg0_0 : Ref sig .tc).ty.Contents (Elt F) :=
  (win0_0.blk (0 : Fin 1)).view.read (Elt F) (m ((c : Thread nD τ).loc main_arg0))

/-- Contents nobody reads: what a written chunk is laid over. -/
def junkR : (cc0_scratch0 : Ref sig .tc).ty.Contents (Elt F) := Classical.arbitrary _
def junkO : (cc0_stg1_0 : Ref sig .tc).ty.Contents (Elt F) := Classical.arbitrary _

/-- The landing buffer of device `c` once every chunk has arrived: row `r` holds row `r` of the first-axis
    neighbour's block, chunk by chunk as the transfers wrote it. -/
def rAt (c : Dev nD) : (cc0_scratch0 : Ref sig .tc).ty.Contents (Elt F) := fun j =>
  have hj : (j 0).val < 1024 := (j 0).isLt
  have hi : (j 0).val / 64 < 16 := by omega
  (rP ((j 0).val / 64) hi).view.write (Elt F) (junkR (F := F)) ((xP ((j 0).val / 64) hi).view.read (Elt F) (xstg m (xp c))) Finset.univ j

/-- Chunk `i` of the sum device `c` computes: its own rows plus the rows that landed. -/
def ownVal (c : Dev nD) (i : ℕ) (hi : i < 16) : FVec F S64x512 .f32 :=
  k0_pay1 (xM.view.readAt (Elt F) (xR i hi).toLoadRect (xstg m c)) (rM.view.readAt (Elt F) (rR i hi).toLoadRect (rAt m c))

/-- The result buffer of `c` with chunk `i` of its own half of the columns stored. -/
def ownW (c : Dev nD) (i : ℕ) (hi : i < 16) : (cc0_stg1_0 : Ref sig .tc).ty.Contents (Elt F) :=
  (oM.access (oR i hi (col c) (col_lt c))).write (Elt F) (junkO (F := F)) (ownVal m c i hi) Finset.univ

/-- The result buffer of device `c` at the end: in its own half of the columns the sums it stored, in the other
    half the sums its second-axis neighbour stored and sent. -/
def outAt (c : Dev nD) : (cc0_stg1_0 : Ref sig .tc).ty.Contents (Elt F) := fun j =>
  have hj : (j 0).val < 1024 := (j 0).isLt
  have hi : (j 0).val / 64 < 16 := by omega
  if (j 1).val / 512 = col c then ownW m c ((j 0).val / 64) hi j
  else (oP ((j 0).val / 64) hi (col (yp c)) (col_lt _)).view.write (Elt F) (junkO (F := F))
        ((oP ((j 0).val / 64) hi (col (yp c)) (col_lt _)).view.read (Elt F) (ownW m (yp c) ((j 0).val / 64) hi)) Finset.univ j

/-! ## The chunks as assertions -/

def xPc (c : Dev nD) (i : ℕ) (hi : i < 16) (q : PosShare TreeShare) : sProp 𝕄 :=
  (xP i hi).view.loc (c : Thread nD τ) ↦[(xP i hi).view.set]{q} xstg m c
def rPc (c : Dev nD) (i : ℕ) (hi : i < 16) (f : (cc0_scratch0 : Ref sig .tc).ty.Contents (Elt F)) : sProp 𝕄 :=
  (rP i hi).view.loc (c : Thread nD τ) ↦[(rP i hi).view.set]{fullShare} f
def oPc (c : Dev nD) (i : ℕ) (hi : i < 16) (j : ℕ) (hj : j < 2) (f : (cc0_stg1_0 : Ref sig .tc).ty.Contents (Elt F)) : sProp 𝕄 :=
  (oP i hi j hj).view.loc (c : Thread nD τ) ↦[(oP i hi j hj).view.set]{fullShare} f

/-! ## The schedule: one round a cell

A barrier cell has two duties of one unit: `false`, paid by the first-axis neighbour, which hands over its
landing buffer chunk by chunk; `true`, paid by the second-axis neighbour, which hands over the chunks of its
result buffer that lie in the receiver's half of the columns (the receiver will write them).  A DMA cell has the
one duty `false` of a chunk's credit: a send cell gets the source chunk back, a receive cell gets the written
chunk. -/

def barPayX (c : Dev nD) : sProp 𝕄 := bigSep (Finset.univ : Finset (Fin 16)) fun i => iprop(∃ f, rPc (xp c) i.val i.isLt f)
def barPayY (c : Dev nD) : sProp 𝕄 := bigSep (Finset.univ : Finset (Fin 16)) fun i => iprop(∃ f, oPc (yp c) i.val i.isLt (col c) (col_lt c) f)
def sxPay (c : Dev nD) (i : ℕ) (hi : i < 16) : sProp 𝕄 := xPc m c i hi fullShare.left
def rxPay (c : Dev nD) (i : ℕ) (hi : i < 16) : sProp 𝕄 := rPc c i hi (rAt m c)
def syPay (c : Dev nD) (i : ℕ) (hi : i < 16) : sProp 𝕄 := oPc c i hi (col c) (col_lt c) (outAt m c)
def ryPay (c : Dev nD) (i : ℕ) (hi : i < 16) : sProp 𝕄 := oPc c i hi (col (yp c)) (col_lt _) (outAt m c)

def isScr : SemLoc sig → Prop
  | .dma q => 2 ≤ q.val
  | .reg _ => False
instance : DecidablePred (isScr) := fun s => by cases s <;> unfold isScr <;> infer_instance

def Rd : Rounds.Schedule (GSem nD τ sig) Bool 𝕄 where
  duties g r := if r = 0 ∧ g.1.2 = .tc ∧ g.2 = .reg barS then Finset.univ else if r = 0 ∧ g.1.2 = .tc ∧ isScr g.2 then {false} else ∅
  unitless _ := False
  amount g _ _ := if g.2 = .reg barS then 1 else 4096
  payload g _ d := match g.2 with
    | .reg _ => if d then barPayY g.1.1 else barPayX g.1.1
    | .dma q => if famOf q = 0 then sxPay m g.1.1 (chunkOf q) (chunkOf_lt q) else if famOf q = 1 then rxPay m g.1.1 (chunkOf q) (chunkOf_lt q)
        else if famOf q = 2 then syPay m g.1.1 (chunkOf q) (chunkOf_lt q) else ryPay m g.1.1 (chunkOf q) (chunkOf_lt q)
  amount_pos g _ _ _ := by
    by_cases h : g.2 = .reg barS
    · rw [if_pos h]; exact Nat.one_pos
    · rw [if_neg h]; decide

end Cert.Kernel.Proto

end
-- ==== Proof.Kernel.Tables.lean ====
/-
  The tables of the schedule: which duties each cell has, what each is worth, what a round expects, and what each
  duty hands over.
-/
import proofs.«900315_g7700000000000316_dist_rsx_agy_m1024_n512_v7x_xy2x2_f32_1_alg».proof.Proof.Kernel.Proto

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance Rd_payload_storable (g : GSem nD τ sig) (r : ℕ) (d : Bool) :
    BI.Storable (upEmb : UEmb _ 𝕄) ((Rd (F := F) m).payload g r d) := by
  show BI.Storable upEmb (match g.2 with
    | .reg _ => if d then barPayY g.1.1 else barPayX g.1.1
    | .dma q => if famOf q = 0 then sxPay m g.1.1 (chunkOf q) (chunkOf_lt q) else if famOf q = 1 then rxPay m g.1.1 (chunkOf q) (chunkOf_lt q)
        else if famOf q = 2 then syPay m g.1.1 (chunkOf q) (chunkOf_lt q) else ryPay m g.1.1 (chunkOf q) (chunkOf_lt q))
  unfold barPayX barPayY sxPay rxPay syPay ryPay xPc rPc oPc
  (repeat' split) <;> infer_instance

section Tables
variable (c : Dev nD)

theorem dma_ne_bar (q : DmaSem sig) : (SemLoc.dma q : SemLoc sig) ≠ .reg barS := fun h => by cases h

theorem duties_bar : (Rd (F := F) m).duties (barC c) 0 = Finset.univ := by dsimp only [Rd]; exact if_pos ⟨rfl, rfl, rfl⟩
theorem duties_dma (q : DmaSem sig) (hq : 2 ≤ q.val) : (Rd (F := F) m).duties (dmaC c q) 0 = {false} := by
  dsimp only [Rd]; rw [if_neg (fun h => dma_ne_bar q h.2.2)]; exact if_pos ⟨rfl, rfl, hq⟩
theorem duties_later (g : GSem nD τ sig) : ∀ r, 1 ≤ r → (Rd (F := F) m).duties g r = ∅ :=
  fun r hr => by dsimp only [Rd]; rw [if_neg fun h => by omega, if_neg fun h => by omega]

theorem amount_bar (d : Bool) : (Rd (F := F) m).amount (barC c) 0 d = 1 := by dsimp only [Rd]; exact if_pos rfl
theorem amount_dma (q : DmaSem sig) (d : Bool) : (Rd (F := F) m).amount (dmaC c q) 0 d = 4096 := by dsimp only [Rd]; exact if_neg (dma_ne_bar q)

theorem expect_bar : (Rd (F := F) m).expect (barC c) 0 = 2 := by
  unfold Schedule.expect Schedule.amountOf
  rw [duties_bar, Finset.sum_congr rfl fun d _ => amount_bar m c d, Finset.sum_const, Finset.card_univ, Fintype.card_bool, smul_eq_mul]
theorem expect_dma (q : DmaSem sig) (hq : 2 ≤ q.val) : (Rd (F := F) m).expect (dmaC c q) 0 = 4096 := by
  unfold Schedule.expect Schedule.amountOf; rw [duties_dma m c q hq, Finset.sum_singleton, amount_dma]

theorem payload_bar_true : (Rd (F := F) m).payload (barC c) 0 true = barPayY c := by dsimp only [Rd]; rw [if_pos rfl]
theorem payload_bar_false : (Rd (F := F) m).payload (barC c) 0 false = barPayX c := by
  dsimp only [Rd]; exact if_neg Bool.false_ne_true

theorem fam_sx (i : ℕ) (hi : i < 16) : famOf (sxS i hi) = 0 ∧ chunkOf (sxS i hi) = i := by
  unfold famOf chunkOf; rw [sxS_val]; omega
theorem fam_rx (i : ℕ) (hi : i < 16) : famOf (rxS i hi) = 1 ∧ chunkOf (rxS i hi) = i := by
  unfold famOf chunkOf; rw [rxS_val]; omega
theorem fam_sy (i : ℕ) (hi : i < 16) : famOf (syS i hi) = 2 ∧ chunkOf (syS i hi) = i := by
  unfold famOf chunkOf; rw [syS_val]; omega
theorem fam_ry (i : ℕ) (hi : i < 16) : famOf (ryS i hi) = 3 ∧ chunkOf (ryS i hi) = i := by
  unfold famOf chunkOf; rw [ryS_val]; omega

theorem scr_sx (i : ℕ) (hi : i < 16) : 2 ≤ (sxS i hi).val := by rw [sxS_val]; omega
theorem scr_rx (i : ℕ) (hi : i < 16) : 2 ≤ (rxS i hi).val := by rw [rxS_val]; omega
theorem scr_sy (i : ℕ) (hi : i < 16) : 2 ≤ (syS i hi).val := by rw [syS_val]; omega
theorem scr_ry (i : ℕ) (hi : i < 16) : 2 ≤ (ryS i hi).val := by rw [ryS_val]; omega

theorem sxPay_congr {i i' : ℕ} (e : i = i') (hi : i < 16) (hi' : i' < 16) : sxPay m c i hi = sxPay m c i' hi' := by subst e; rfl
theorem rxPay_congr {i i' : ℕ} (e : i = i') (hi : i < 16) (hi' : i' < 16) : rxPay m c i hi = rxPay m c i' hi' := by subst e; rfl
theorem syPay_congr {i i' : ℕ} (e : i = i') (hi : i < 16) (hi' : i' < 16) : syPay m c i hi = syPay m c i' hi' := by subst e; rfl
theorem ryPay_congr {i i' : ℕ} (e : i = i') (hi : i < 16) (hi' : i' < 16) : ryPay m c i hi = ryPay m c i' hi' := by subst e; rfl

theorem payload_sx (i : ℕ) (hi : i < 16) (d : Bool) : (Rd (F := F) m).payload (dmaC c (sxS i hi)) 0 d = sxPay m c i hi := by
  dsimp only [Rd]; rw [if_pos (fam_sx i hi).1]; exact sxPay_congr m c (fam_sx i hi).2 _ _
theorem payload_rx (i : ℕ) (hi : i < 16) (d : Bool) : (Rd (F := F) m).payload (dmaC c (rxS i hi)) 0 d = rxPay m c i hi := by
  dsimp only [Rd]; rw [if_neg (by rw [(fam_rx i hi).1]; decide), if_pos (fam_rx i hi).1]; exact rxPay_congr m c (fam_rx i hi).2 _ _
theorem payload_sy (i : ℕ) (hi : i < 16) (d : Bool) : (Rd (F := F) m).payload (dmaC c (syS i hi)) 0 d = syPay m c i hi := by
  dsimp only [Rd]; rw [if_neg (by rw [(fam_sy i hi).1]; decide), if_neg (by rw [(fam_sy i hi).1]; decide), if_pos (fam_sy i hi).1]
  exact syPay_congr m c (fam_sy i hi).2 _ _
theorem payload_ry (i : ℕ) (hi : i < 16) (d : Bool) : (Rd (F := F) m).payload (dmaC c (ryS i hi)) 0 d = ryPay m c i hi := by
  dsimp only [Rd]; rw [if_neg (by rw [(fam_ry i hi).1]; decide), if_neg (by rw [(fam_ry i hi).1]; decide), if_neg (by rw [(fam_ry i hi).1]; decide)]
  exact ryPay_congr m c (fam_ry i hi).2 _ _

/-- The whole of the barrier cell's round: both neighbours' buffers. -/
theorem rest_bar : bigSep ((Rd (F := F) m).duties (barC c) 0 \ ∅) (fun d => (Rd (F := F) m).payload (barC c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_dma (q : DmaSem sig) (hq : 2 ≤ q.val) :
    bigSep ((Rd (F := F) m).duties (dmaC c q) 0 \ ∅) (fun d => (Rd (F := F) m).payload (dmaC c q) 0 d) = (Rd (F := F) m).payload (dmaC c q) 0 false := by
  rw [Finset.sdiff_empty, duties_dma m c q hq, bigSep_singleton]

end Tables

end Cert.Kernel.Proto

end
-- ==== Proof.Kernel.Program.lean ====
/-
  The body of the kernel, restated as four runs of sixteen like steps after the entry handshake: the sixteen
  first-axis transfers; sixteen times "wait for chunk i to land, add it to the own rows, store the sum, forward it
  along the second axis"; the sixteen waits for the forwarded chunks of the neighbour; the thirty-two waits for
  the departures.  The printed body is this program, by unfolding.
-/
import proofs.«900315_g7700000000000316_dist_rsx_agy_m1024_n512_v7x_xy2x2_f32_1_alg».proof.Proof.Kernel.Tables

set_option maxRecDepth 65536

noncomputable section

namespace Cert.Kernel.Proto

open Cert.Kernel Cert.Kernel.Gen
open Idealize.ShloMosaic
open Idealize.ShloMosaic.TcCoe
open Idealize.SL.Sem

variable {F : FTy → Type} [FloatOps F]

/-- The device each of the sixteen first-axis transfers addresses, as printed. -/
def devB (d0 : Dev nD) : ℕ → Dev nD
  | 0 => ⟨k0_dev3 d0, k0_dev3_lt d0⟩ | 1 => ⟨k0_dev4 d0, k0_dev4_lt d0⟩ | 2 => ⟨k0_dev5 d0, k0_dev5_lt d0⟩ | 3 => ⟨k0_dev6 d0, k0_dev6_lt d0⟩
  | 4 => ⟨k0_dev7 d0, k0_dev7_lt d0⟩ | 5 => ⟨k0_dev8 d0, k0_dev8_lt d0⟩ | 6 => ⟨k0_dev9 d0, k0_dev9_lt d0⟩ | 7 => ⟨k0_dev10 d0, k0_dev10_lt d0⟩
  | 8 => ⟨k0_dev11 d0, k0_dev11_lt d0⟩ | 9 => ⟨k0_dev12 d0, k0_dev12_lt d0⟩ | 10 => ⟨k0_dev13 d0, k0_dev13_lt d0⟩ | 11 => ⟨k0_dev14 d0, k0_dev14_lt d0⟩
  | 12 => ⟨k0_dev15 d0, k0_dev15_lt d0⟩ | 13 => ⟨k0_dev16 d0, k0_dev16_lt d0⟩ | 14 => ⟨k0_dev17 d0, k0_dev17_lt d0⟩ | 15 => ⟨k0_dev18 d0, k0_dev18_lt d0⟩
  | _ => d0
/-- The device each of the sixteen second-axis transfers addresses, as printed. -/
def devC (d0 : Dev nD) : ℕ → Dev nD
  | 0 => ⟨k0_dev19 d0, k0_dev19_lt d0⟩ | 1 => ⟨k0_dev20 d0, k0_dev20_lt d0⟩ | 2 => ⟨k0_dev21 d0, k0_dev21_lt d0⟩ | 3 => ⟨k0_dev22 d0, k0_dev22_lt d0⟩
  | 4 => ⟨k0_dev23 d0, k0_dev23_lt d0⟩ | 5 => ⟨k0_dev24 d0, k0_dev24_lt d0⟩ | 6 => ⟨k0_dev25 d0, k0_dev25_lt d0⟩ | 7 => ⟨k0_dev26 d0, k0_dev26_lt d0⟩
  | 8 => ⟨k0_dev27 d0, k0_dev27_lt d0⟩ | 9 => ⟨k0_dev28 d0, k0_dev28_lt d0⟩ | 10 => ⟨k0_dev29 d0, k0_dev29_lt d0⟩ | 11 => ⟨k0_dev30 d0, k0_dev30_lt d0⟩
  | 12 => ⟨k0_dev31 d0, k0_dev31_lt d0⟩ | 13 => ⟨k0_dev32 d0, k0_dev32_lt d0⟩ | 14 => ⟨k0_dev33 d0, k0_dev33_lt d0⟩ | 15 => ⟨k0_dev34 d0, k0_dev34_lt d0⟩
  | _ => d0

abbrev Off2 : Type := {off : Fin 2 → ℕ // ∀ a, off a + S64x512.size a ≤ S1024x1024.size a}
/-- The offsets of chunk `i` of the device's own half of the result's columns: as the store spells them, -/
def offA (d0 : Dev nD) : ℕ → Off2
  | 0 => ⟨k0_off1 d0, k0_off1_inb d0⟩ | 1 => ⟨k0_off3 d0, k0_off3_inb d0⟩ | 2 => ⟨k0_off5 d0, k0_off5_inb d0⟩ | 3 => ⟨k0_off7 d0, k0_off7_inb d0⟩
  | 4 => ⟨k0_off9 d0, k0_off9_inb d0⟩ | 5 => ⟨k0_off11 d0, k0_off11_inb d0⟩ | 6 => ⟨k0_off13 d0, k0_off13_inb d0⟩ | 7 => ⟨k0_off15 d0, k0_off15_inb d0⟩
  | 8 => ⟨k0_off17 d0, k0_off17_inb d0⟩ | 9 => ⟨k0_off19 d0, k0_off19_inb d0⟩ | 10 => ⟨k0_off21 d0, k0_off21_inb d0⟩ | 11 => ⟨k0_off23 d0, k0_off23_inb d0⟩
  | 12 => ⟨k0_off25 d0, k0_off25_inb d0⟩ | 13 => ⟨k0_off27 d0, k0_off27_inb d0⟩ | 14 => ⟨k0_off29 d0, k0_off29_inb d0⟩ | 15 => ⟨k0_off31 d0, k0_off31_inb d0⟩
  | _ => ⟨k0_off1 d0, k0_off1_inb d0⟩
/-- and as the transfer and its waits spell them. -/
def offB (d0 : Dev nD) : ℕ → Off2
  | 0 => ⟨k0_off2 d0, k0_off2_inb d0⟩ | 1 => ⟨k0_off4 d0, k0_off4_inb d0⟩ | 2 => ⟨k0_off6 d0, k0_off6_inb d0⟩ | 3 => ⟨k0_off8 d0, k0_off8_inb d0⟩
  | 4 => ⟨k0_off10 d0, k0_off10_inb d0⟩ | 5 => ⟨k0_off12 d0, k0_off12_inb d0⟩ | 6 => ⟨k0_off14 d0, k0_off14_inb d0⟩ | 7 => ⟨k0_off16 d0, k0_off16_inb d0⟩
  | 8 => ⟨k0_off18 d0, k0_off18_inb d0⟩ | 9 => ⟨k0_off20 d0, k0_off20_inb d0⟩ | 10 => ⟨k0_off22 d0, k0_off22_inb d0⟩ | 11 => ⟨k0_off24 d0, k0_off24_inb d0⟩
  | 12 => ⟨k0_off26 d0, k0_off26_inb d0⟩ | 13 => ⟨k0_off28 d0, k0_off28_inb d0⟩ | 14 => ⟨k0_off30 d0, k0_off30_inb d0⟩ | 15 => ⟨k0_off32 d0, k0_off32_inb d0⟩
  | _ => ⟨k0_off2 d0, k0_off2_inb d0⟩

abbrev oRA (d0 : Dev nD) (i : ℕ) : Rect S1024x1024 := Rect.unit (s := S1024x1024) (offA d0 i).1 S64x512.size (offA d0 i).2
abbrev oQ (d0 : Dev nD) (i : ℕ) : Memref sig .tc .vmem S64x512 .f32 :=
  oM.slice (Rect.unit (s := S1024x1024) (offB d0 i).1 S64x512.size (offB d0 i).2) (fun _ => rfl)

abbrev PU (F : FTy → Type) [FloatOps F] : Type 1 := Prog (TpuEff nD τ sig (Elt F) Λ₀ .tc) PUnit

/-- One first-axis transfer: the own rows of chunk `i` into the neighbour's landing buffer. -/
def stepB (d0 : Dev nD) (i : ℕ) (hi : i < 16) (k : PU F) : PU F :=
  Prog.op (.enqueueDma (xP i hi) (.remote (Dev.tc (devB d0 i)) (rP i hi) (.dma (sxS i hi))) (.dma (rxS i hi))
      ((View.wordExact_bits rfl).reshape _ _) (View.wordExact_bits rfl) ⟨⟨rfl, Or.inl rfl⟩, trivial⟩) fun _ => k

/-- Chunk `i` has landed: add, store, forward. -/
def stepC (d0 : Dev nD) (i : ℕ) (hi : i < 16) (k : PU F) : PU F :=
  Prog.op (.waitDma2 (rxS i hi) (xP i hi) (rP i hi) ((View.wordExact_bits rfl).reshape _ _) (View.wordExact_bits rfl)) fun _ =>
  Prog.op (.load xM (xR i hi).toLoadRect (View.loadsAt_vmem h_S1x64x512)) fun v1 =>
  Prog.op (.load rM (rR i hi).toLoadRect (View.loadsAt_vmem h_S64x512)) fun v2 =>
  Prog.op (.load oM (oRA d0 i).toLoadRect (View.loadsAt_vmem h_S64x512)) fun _ =>
  Prog.op (.store oM (oRA d0 i) (k0_pay1 v1 v2) Finset.univ (View.stores_vmem_bits_univ h_S64x512 rfl) (.inl rfl)) fun _ =>
  Prog.op (.enqueueDma (oQ d0 i) (.remote (Dev.tc (devC d0 i)) (oQ d0 i) (.dma (syS i hi))) (.dma (ryS i hi))
      (View.wordExact_bits rfl) (View.wordExact_bits rfl) ⟨⟨rfl, Or.inl rfl⟩, trivial⟩) fun _ => k

/-- The neighbour's chunk `i` of the other half of the columns has landed. -/
def stepD (d0 : Dev nD) (i : ℕ) (hi : i < 16) (k : PU F) : PU F :=
  Prog.op (.waitDma2 (ryS i hi) (oQ d0 i) (oQ d0 i) (View.wordExact_bits rfl) (View.wordExact_bits rfl)) fun _ => k

/-- Both departures of chunk `i` are complete. -/
def stepE (d0 : Dev nD) (i : ℕ) (hi : i < 16) (k : PU F) : PU F :=
  Prog.op (.waitDma2 (sxS i hi) (rP i hi) (xP i hi) (View.wordExact_bits rfl) ((View.wordExact_bits rfl).reshape _ _)) fun _ =>
  Prog.op (.waitDma2 (syS i hi) (oQ d0 i) (oQ d0 i) (View.wordExact_bits rfl) (View.wordExact_bits rfl)) fun _ => k

/-- `n` steps, chunks `16 - n` to `15`, then the rest. -/
def run (step : (i : ℕ) → i < 16 → PU F → PU F) (rest : PU F) : (n : ℕ) → n ≤ 16 → PU F
  | 0, _ => rest
  | n + 1, h => step (16 - (n + 1)) (by omega) (run step rest n (by omega))

/-- The whole body from the device id on. -/
def bodyFrom (d0 : Dev nD) : PU F :=
  Prog.op (.semSignal ((⟨k0_dev1 d0, k0_dev1_lt d0⟩ : Dev nD), .tc) barS 1) fun _ =>
  Prog.op (.semSignal ((⟨k0_dev2 d0, k0_dev2_lt d0⟩ : Dev nD), .tc) barS 1) fun _ =>
  Prog.op (.semWait barS 2) fun _ =>
  run (stepB d0) (run (stepC d0) (run (stepD d0) (run (stepE d0) (Prog.ret ⟨⟩) 16 le_rfl) 16 le_rfl) 16 le_rfl) 16 le_rfl

set_option maxHeartbeats 4000000 in
/-- The printed body is that program. -/
theorem body_eq : cc0_body (F := F) xM (Memref.isWhole_whole _) oM (Memref.isWhole_whole _) rM (Memref.isWhole_whole _)
      cc0_scratch1 cc0_scratch2 cc0_scratch3 cc0_scratch4 = Prog.op .deviceId (fun d0 => bodyFrom (F := F) d0) := rfl

end Cert.Kernel.Proto

end
-- ==== Proof.Kernel.State.lean ====
/-
  What a device owes its neighbours at each moment, the levels that order the waits (a barrier cell below a
  first-axis receive cell below a second-axis receive cell; everything else at the bottom), and the evidence each
  wait presents: whatever the waiting device still owes lies strictly above the cell it waits on.
-/
import proofs.«900315_g7700000000000316_dist_rsx_agy_m1024_n512_v7x_xy2x2_f32_1_alg».proof.Proof.Kernel.Program

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What is owed -/

/-- chunk `k`'s credit on the first-axis neighbour's receive cell, on the second-axis neighbour's -/
def tRx (c : Dev nD) (k : ℕ) : CellTallies nD τ sig Unit := if hk : k < 16 then tallyAt (dmaC (xp c) (rxS k hk)) () 4096 else 0
def tRy (c : Dev nD) (k : ℕ) : CellTallies nD τ sig Unit := if hk : k < 16 then tallyAt (dmaC (yp c) (ryS k hk)) () 4096 else 0
/-- the chunks from `i` on -/
def oweX (c : Dev nD) (i : ℕ) : CellTallies nD τ sig Unit := ∑ k ∈ Finset.Ico i 16, tRx c k
def oweY (c : Dev nD) (i : ℕ) : CellTallies nD τ sig Unit := ∑ k ∈ Finset.Ico i 16, tRy c k
/-- after the handshake's two signals; at launch (the first signal, to the first-axis neighbour, peels the last summand) -/
def O₁ (c : Dev nD) : CellTallies nD τ sig Unit := oweX c 0 + oweY c 0
def O₀ (c : Dev nD) : CellTallies nD τ sig Unit := (O₁ c + tallyAt (barC (yp c)) () 1) + tallyAt (barC (xp c)) () 1

theorem oweX_step (c : Dev nD) (i : ℕ) (hi : i < 16) : oweX c i = oweX c (i + 1) + tallyAt (dmaC (xp c) (rxS i hi)) () 4096 := by
  unfold oweX; rw [Ring.sum_Ico_succ hi, add_comm]; unfold tRx; rw [dif_pos hi]
theorem oweY_step (c : Dev nD) (i : ℕ) (hi : i < 16) : oweY c i = oweY c (i + 1) + tallyAt (dmaC (yp c) (ryS i hi)) () 4096 := by
  unfold oweY; rw [Ring.sum_Ico_succ hi, add_comm]; unfold tRy; rw [dif_pos hi]
theorem oweX_end (c : Dev nD) : oweX c 16 = 0 := by unfold oweX; rw [Finset.Ico_self, Finset.sum_empty]
theorem oweY_end (c : Dev nD) : oweY c 16 = 0 := by unfold oweY; rw [Finset.Ico_self, Finset.sum_empty]

theorem tRx_pos {c : Dev nD} {k : ℕ} {g : GSem nD τ sig} {u : Unit} (h : 0 < tRx c k g u) : ∃ hk : k < 16, g = dmaC (xp c) (rxS k hk) := by
  unfold tRx at h
  by_cases hk : k < 16
  · rw [dif_pos hk, tallyAt_apply] at h
    by_cases hg : g = dmaC (xp c) (rxS k hk) ∧ u = ()
    · exact ⟨hk, hg.1⟩
    · rw [if_neg hg] at h; exact absurd h (Nat.lt_irrefl 0)
  · rw [dif_neg hk] at h; exact absurd h (Nat.lt_irrefl 0)
theorem tRy_pos {c : Dev nD} {k : ℕ} {g : GSem nD τ sig} {u : Unit} (h : 0 < tRy c k g u) : ∃ hk : k < 16, g = dmaC (yp c) (ryS k hk) := by
  unfold tRy at h
  by_cases hk : k < 16
  · rw [dif_pos hk, tallyAt_apply] at h
    by_cases hg : g = dmaC (yp c) (ryS k hk) ∧ u = ()
    · exact ⟨hk, hg.1⟩
    · rw [if_neg hg] at h; exact absurd h (Nat.lt_irrefl 0)
  · rw [dif_neg hk] at h; exact absurd h (Nat.lt_irrefl 0)
theorem oweX_pos {c : Dev nD} {i : ℕ} {g : GSem nD τ sig} {u : Unit} (h : 0 < oweX c i g u) : ∃ k, ∃ hk : k < 16, g = dmaC (xp c) (rxS k hk) := by
  obtain ⟨k, -, hk⟩ := Pipeline.sum_pos_exists h; exact ⟨k, tRx_pos hk⟩
theorem oweY_pos {c : Dev nD} {i : ℕ} {g : GSem nD τ sig} {u : Unit} (h : 0 < oweY c i g u) : ∃ k, ∃ hk : k < 16, g = dmaC (yp c) (ryS k hk) := by
  obtain ⟨k, -, hk⟩ := Pipeline.sum_pos_exists h; exact ⟨k, tRy_pos hk⟩

/-! ## The levels -/

def L (g : GSem nD τ sig) : Finset Unit := if g.1.2 = .tc then {()} else ∅
def lv (g : GSem nD τ sig) (_ : Unit) : ℕ := match g.2 with
  | .reg _ => 1
  | .dma q => if 2 ≤ q.val ∧ famOf q = 1 then 2 else if famOf q = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := rfl
theorem lv_rx (c : Dev nD) (i : ℕ) (hi : i < 16) : lv (dmaC c (rxS i hi)) () = 2 := by
  show (if 2 ≤ (rxS i hi).val ∧ famOf (rxS i hi) = 1 then 2 else if famOf (rxS i hi) = 3 then 3 else 0) = 2
  rw [if_pos ⟨scr_rx i hi, (fam_rx i hi).1⟩]
theorem lv_ry (c : Dev nD) (i : ℕ) (hi : i < 16) : lv (dmaC c (ryS i hi)) () = 3 := by
  show (if 2 ≤ (ryS i hi).val ∧ famOf (ryS i hi) = 1 then 2 else if famOf (ryS i hi) = 3 then 3 else 0) = 3
  rw [if_neg (by rw [(fam_ry i hi).1]; omega), if_pos (fam_ry i hi).1]
theorem lv_stage (c : Dev nD) (q : DmaSem sig) (hq : q.val < 2) : lv (dmaC c q) () = 0 := by
  show (if 2 ≤ q.val ∧ famOf q = 1 then 2 else if famOf q = 3 then 3 else 0) = 0
  rw [if_neg (by omega), if_neg (by unfold famOf; omega)]

/-- What a device owes from the handshake on sits on receive cells, above its barrier cell. -/
theorem O₁_pos {c : Dev nD} {g : GSem nD τ sig} {u : Unit} (h : 0 < O₁ c g u) : u ∈ L g ∧ 2 ≤ lv g u := by
  rcases Pipeline.add_pos_cases h with h | h
  · obtain ⟨k, hk, rfl⟩ := oweX_pos h; exact ⟨by rw [L_tc]; exact Finset.mem_singleton_self _, by rw [lv_rx]⟩
  · obtain ⟨k, hk, rfl⟩ := oweY_pos h; exact ⟨by rw [L_tc]; exact Finset.mem_singleton_self _, by rw [lv_ry]; decide⟩
theorem O₀_pos {c : Dev nD} {g : GSem nD τ sig} {u : Unit} (h : 0 < O₀ c g u) : u ∈ L g ∧ 1 ≤ lv g u := by
  rcases Pipeline.add_pos_cases h with h | h
  · rcases Pipeline.add_pos_cases h with h | h
    · exact ⟨(O₁_pos h).1, by have := (O₁_pos h).2; omega⟩
    · rw [tallyAt_apply] at h
      by_cases hg : g = barC (yp c) ∧ u = ()
      · rw [hg.1]; exact ⟨by rw [L_tc]; exact Finset.mem_singleton_self _, by rw [lv_bar]⟩
      · rw [if_neg hg] at h; exact absurd h (Nat.lt_irrefl 0)
  · rw [tallyAt_apply] at h
    by_cases hg : g = barC (xp c) ∧ u = ()
    · rw [hg.1]; exact ⟨by rw [L_tc]; exact Finset.mem_singleton_self _, by rw [lv_bar]⟩
    · rw [if_neg hg] at h; exact absurd h (Nat.lt_irrefl 0)

/-- The barrier wait: everything still owed is a receive credit. -/
theorem mayWait_bar (c : Dev nD) : (levAts L lv : sProp 𝕄) ⊢ MayWait (c : Thread nD τ) (.reg barS) () (O₁ c) :=
  Pipeline.mayWait_of_levAts (by rw [L_tc]; exact Finset.mem_singleton_self _)
    fun g u hg => ⟨(O₁_pos hg).1, by show lv (barC c) () < lv g u; rw [lv_bar]; have := (O₁_pos hg).2; omega⟩
/-- The wait for a landed chunk: what is still owed are second-axis receive credits. -/
theorem mayWait_rx (c : Dev nD) (i : ℕ) (hi : i < 16) (i' : ℕ) :
    (levAts L lv : sProp 𝕄) ⊢ MayWait (c : Thread nD τ) (.dma (rxS i hi)) () (oweY c i') :=
  Pipeline.mayWait_of_levAts (by rw [L_tc]; exact Finset.mem_singleton_self _)
    fun g u hg => by
      obtain ⟨k, hk, rfl⟩ := oweY_pos hg
      exact ⟨by rw [L_tc]; exact Finset.mem_singleton_self _, by show lv (dmaC c (rxS i hi)) () < _; rw [lv_rx, lv_ry]; decide⟩
/-- The pipeline's own waits, on the staging cells at the bottom. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · exact Pipeline.mayWait_of_levAts (by rw [L_tc]; exact Finset.mem_singleton_self _)
      fun g u hg => ⟨(O₀_pos hg).1, by show lv (dmaC c q) () < lv g u; rw [lv_stage c q hq]; have := (O₀_pos hg).2; omega⟩
  · rw [MayWait_zero]; iintro -; iempintro

end Cert.Kernel.Proto

end
-- ==== Proof.Kernel.Landing.lean ====
/-
  What lands where.  A chunk written through its view agrees, on the chunk's own elements, with the closed
  description of the buffer (`rAt`, `outAt`), whatever lay underneath; so each transfer's landing is the payload
  the schedule promises, and each store's result is the chunk the second-axis transfer carries.
-/
import proofs.«900315_g7700000000000316_dist_rsx_agy_m1024_n512_v7x_xy2x2_f32_1_alg».proof.Proof.Kernel.State

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The printed devices and offsets, in closed form -/

theorem devB_eq (c : Dev nD) (i : ℕ) (hi : i < 16) : devB c i = xp c := by
  interval_cases i <;> first
    | exact devX_of c (k0_dev3_eq c) | exact devX_of c (k0_dev4_eq c) | exact devX_of c (k0_dev5_eq c) | exact devX_of c (k0_dev6_eq c)
    | exact devX_of c (k0_dev7_eq c) | exact devX_of c (k0_dev8_eq c) | exact devX_of c (k0_dev9_eq c) | exact devX_of c (k0_dev10_eq c)
    | exact devX_of c (k0_dev11_eq c) | exact devX_of c (k0_dev12_eq c) | exact devX_of c (k0_dev13_eq c) | exact devX_of c (k0_dev14_eq c)
    | exact devX_of c (k0_dev15_eq c) | exact devX_of c (k0_dev16_eq c) | exact devX_of c (k0_dev17_eq c) | exact devX_of c (k0_dev18_eq c)
theorem devC_eq (c : Dev nD) (i : ℕ) (hi : i < 16) : devC c i = yp c := by
  interval_cases i <;> first
    | exact devY_of c (k0_dev19_eq c) | exact devY_of c (k0_dev20_eq c) | exact devY_of c (k0_dev21_eq c) | exact devY_of c (k0_dev22_eq c)
    | exact devY_of c (k0_dev23_eq c) | exact devY_of c (k0_dev24_eq c) | exact devY_of c (k0_dev25_eq c) | exact devY_of c (k0_dev26_eq c)
    | exact devY_of c (k0_dev27_eq c) | exact devY_of c (k0_dev28_eq c) | exact devY_of c (k0_dev29_eq c) | exact devY_of c (k0_dev30_eq c)
    | exact devY_of c (k0_dev31_eq c) | exact devY_of c (k0_dev32_eq c) | exact devY_of c (k0_dev33_eq c) | exact devY_of c (k0_dev34_eq c)
theorem dev1_eq (c : Dev nD) : (⟨k0_dev1 c, k0_dev1_lt c⟩ : Dev nD) = xp c := devX_of c (k0_dev1_eq c)
theorem dev2_eq (c : Dev nD) : (⟨k0_dev2 c, k0_dev2_lt c⟩ : Dev nD) = yp c := devY_of c (k0_dev2_eq c)

theorem offA_eq (c : Dev nD) (i : ℕ) (hi : i < 16) : offA c i = ⟨![64 * i, 512 * col c], hoin i hi (col c) (col_lt c)⟩ := by
  interval_cases i <;> first
    | exact Subtype.ext (k0_off1_eq c) | exact Subtype.ext (k0_off3_eq c) | exact Subtype.ext (k0_off5_eq c) | exact Subtype.ext (k0_off7_eq c)
    | exact Subtype.ext (k0_off9_eq c) | exact Subtype.ext (k0_off11_eq c) | exact Subtype.ext (k0_off13_eq c) | exact Subtype.ext (k0_off15_eq c)
    | exact Subtype.ext (k0_off17_eq c) | exact Subtype.ext (k0_off19_eq c) | exact Subtype.ext (k0_off21_eq c) | exact Subtype.ext (k0_off23_eq c)
    | exact Subtype.ext (k0_off25_eq c) | exact Subtype.ext (k0_off27_eq c) | exact Subtype.ext (k0_off29_eq c) | exact Subtype.ext (k0_off31_eq c)
theorem offB_eq (c : Dev nD) (i : ℕ) (hi : i < 16) : offB c i = ⟨![64 * i, 512 * col c], hoin i hi (col c) (col_lt c)⟩ := by
  interval_cases i <;> first
    | exact Subtype.ext (k0_off2_eq c) | exact Subtype.ext (k0_off4_eq c) | exact Subtype.ext (k0_off6_eq c) | exact Subtype.ext (k0_off8_eq c)
    | exact Subtype.ext (k0_off10_eq c) | exact Subtype.ext (k0_off12_eq c) | exact Subtype.ext (k0_off14_eq c) | exact Subtype.ext (k0_off16_eq c)
    | exact Subtype.ext (k0_off18_eq c) | exact Subtype.ext (k0_off20_eq c) | exact Subtype.ext (k0_off22_eq c) | exact Subtype.ext (k0_off24_eq c)
    | exact Subtype.ext (k0_off26_eq c) | exact Subtype.ext (k0_off28_eq c) | exact Subtype.ext (k0_off30_eq c) | exact Subtype.ext (k0_off32_eq c)

theorem oRA_eq (c : Dev nD) (i : ℕ) (hi : i < 16) : oRA c i = oR i hi (col c) (col_lt c) := by
  have h : ∀ o o' : Off2, o = o' → Rect.unit (s := S1024x1024) o.1 S64x512.size o.2 = Rect.unit (s := S1024x1024) o'.1 S64x512.size o'.2 := by
    rintro o _ rfl; rfl
  exact h _ _ (offA_eq c i hi)
theorem oQ_eq (c : Dev nD) (i : ℕ) (hi : i < 16) : oQ c i = oP i hi (col c) (col_lt c) := by
  have h : ∀ o o' : Off2, o = o' → oM.slice (Rect.unit (s := S1024x1024) o.1 S64x512.size o.2) (fun _ => rfl)
      = oM.slice (Rect.unit (s := S1024x1024) o'.1 S64x512.size o'.2) (fun _ => rfl) := by
    rintro o _ rfl; rfl
  exact h _ _ (offB_eq c i hi)

/-! ## Which chunk an element belongs to -/

theorem row_of_mem_rP {i : ℕ} {hi : i < 16} {j : S1024x512.Idx} (h : j ∈ (rP i hi).view.set) : (j 0).val / 64 = i := by
  have h' : j ∈ (rR i hi).set := (View.set_slice_whole cc0_scratch0 (rR i hi)) ▸ h
  have h0 : 64 * i ≤ (j 0).val ∧ (j 0).val < 64 * i + 64 := Rect.mem_set_unit.mp h' 0
  omega
theorem rowcol_of_mem_oP {i : ℕ} {hi : i < 16} {b : ℕ} {hb : b < 2} {j : S1024x1024.Idx} (h : j ∈ (oP i hi b hb).view.set) :
    (j 0).val / 64 = i ∧ (j 1).val / 512 = b := by
  have h' : j ∈ (oR i hi b hb).set := (View.set_slice_whole cc0_stg1_0 (oR i hi b hb)) ▸ h
  have h0 : 64 * i ≤ (j 0).val ∧ (j 0).val < 64 * i + 64 := Rect.mem_set_unit.mp h' 0
  have h1 : 512 * b ≤ (j 1).val ∧ (j 1).val < 512 * b + 512 := Rect.mem_set_unit.mp h' 1
  omega

theorem rAt_of_row (c : Dev nD) (i : ℕ) (hi : i < 16) (j : S1024x512.Idx) (h : (j 0).val / 64 = i) :
    rAt m c j = (rP i hi).view.write (Elt F) (junkR (F := F)) ((xP i hi).view.read (Elt F) (xstg m (xp c))) Finset.univ j := by
  subst h; rfl
theorem outAt_own (c : Dev nD) (i : ℕ) (hi : i < 16) (j : S1024x1024.Idx) (h0 : (j 0).val / 64 = i) (h1 : (j 1).val / 512 = col c) :
    outAt m c j = ownW m c i hi j := by
  subst h0; unfold outAt; exact if_pos h1
theorem outAt_other (c d : Dev nD) (hd : yp c = d) (b : ℕ) (hb : b < 2) (hbd : col d = b) (i : ℕ) (hi : i < 16) (j : S1024x1024.Idx)
    (h0 : (j 0).val / 64 = i) (h1 : (j 1).val / 512 ≠ col c) :
    outAt m c j = (oP i hi b hb).view.write (Elt F) (junkO (F := F)) ((oP i hi b hb).view.read (Elt F) (ownW m d i hi)) Finset.univ j := by
  subst h0; subst hd; subst hbd; unfold outAt; exact if_neg h1

/-! ## The landings -/

/-- The first-axis transfer of chunk `i` from `c` lands as the receive cell's payload promises. -/
theorem landX (c : Dev nD) (i : ℕ) (hi : i < 16) (fd : (cc0_scratch0 : Ref sig .tc).ty.Contents (Elt F)) :
    ((rP i hi).view.loc (xp c : Thread nD τ) ↦[(rP i hi).view.set]{fullShare}
        (rP i hi).view.write (Elt F) fd ((xP i hi).view.read (Elt F) (xstg m c)) Finset.univ : sProp 𝕄)
      = rPc (xp c) i hi (rAt m (xp c)) := by
  unfold rPc
  refine pointsTo_congr fun j hj => ?_
  rw [rAt_of_row m (xp c) i hi j (row_of_mem_rP hj), xp_xp]
  exact View.write_congr (fun _ _ _ => rfl) (fun hn => absurd (by rw [View.setOn_univ]; exact hj) hn)

/-- The stored chunk is the chunk of the closed description: what the send cell of the second axis gets back. -/
theorem storedY (c : Dev nD) (i : ℕ) (hi : i < 16) (f0 : (cc0_stg1_0 : Ref sig .tc).ty.Contents (Elt F)) :
    ((oP i hi (col c) (col_lt c)).view.loc (c : Thread nD τ) ↦[(oP i hi (col c) (col_lt c)).view.set]{fullShare}
        (oM.access (oR i hi (col c) (col_lt c))).write (Elt F) f0 (ownVal m c i hi) Finset.univ : sProp 𝕄)
      = oPc c i hi (col c) (col_lt c) (outAt m c) := by
  unfold oPc
  refine pointsTo_congr fun j hj => ?_
  rw [outAt_own m c i hi j (rowcol_of_mem_oP hj).1 (rowcol_of_mem_oP hj).2]
  exact View.write_congr (fun _ _ _ => rfl) (fun hn => absurd (by rw [View.setOn_univ]; exact hj) hn)

theorem oPc_congr (c : Dev nD) (i : ℕ) (hi : i < 16) {b b' : ℕ} (e : b = b') (hb : b < 2) (hb' : b' < 2) (f : (cc0_stg1_0 : Ref sig .tc).ty.Contents (Elt F)) :
    (oPc c i hi b hb f : sProp 𝕄) = oPc c i hi b' hb' f := by subst e; rfl

/-- The second-axis transfer of chunk `i` from `c` lands as its neighbour's receive cell promises. -/
theorem landY (c : Dev nD) (i : ℕ) (hi : i < 16) (f0 fd : (cc0_stg1_0 : Ref sig .tc).ty.Contents (Elt F)) :
    ((oP i hi (col c) (col_lt c)).view.loc (yp c : Thread nD τ) ↦[(oP i hi (col c) (col_lt c)).view.set]{fullShare}
        (oP i hi (col c) (col_lt c)).view.write (Elt F) fd ((oP i hi (col c) (col_lt c)).view.read (Elt F)
          ((oM.access (oR i hi (col c) (col_lt c))).write (Elt F) f0 (ownVal m c i hi) Finset.univ)) Finset.univ : sProp 𝕄)
      = oPc (yp c) i hi (col (yp (yp c))) (col_lt _) (outAt m (yp c)) := by
  rw [oPc_congr (yp c) i hi (congrArg col (yp_yp c)) (col_lt _) (col_lt c)]
  unfold oPc
  refine pointsTo_congr fun j hj => ?_
  have hne : (j 1).val / 512 ≠ col (yp c) := by
    rw [(rowcol_of_mem_oP hj).2, col_yp]; have := col_lt c; omega
  rw [outAt_other m (yp c) c (yp_yp c) (col c) (col_lt c) rfl i hi j (rowcol_of_mem_oP hj).1 hne]
  refine View.write_congr (fun x _ _ => ?_) (fun hn => absurd (by rw [View.setOn_univ]; exact hj) hn)
  refine congrFun (View.read_congr fun k hk => ?_) x
  exact View.write_congr (fun _ _ _ => rfl) (fun hn => absurd (by rw [View.setOn_univ]; exact hk) hn)

end Cert.Kernel.Proto

end
-- ==== Proof.Kernel.Regions.lean ====
/-
  Each of the three buffers a device works on is the disjoint union of its sixteen chunks of 64 rows (the result
  buffer: of sixteen chunks in each half of its columns): holding a buffer is holding its chunks.
-/
import proofs.«900315_g7700000000000316_dist_rsx_agy_m1024_n512_v7x_xy2x2_f32_1_alg».proof.Proof.Kernel.Landing

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The landing buffer -/

theorem mem_rP_iff {i : ℕ} {hi : i < 16} {j : S1024x512.Idx} : j ∈ (rP i hi).view.set ↔ (j 0).val / 64 = i := by
  refine ⟨row_of_mem_rP, fun h => ?_⟩
  have h' : j ∈ (rR i hi).set := Rect.mem_set_unit.mpr fun a => by
    match a with
    | ⟨0, _⟩ => exact (show 64 * i ≤ (j 0).val ∧ (j 0).val < 64 * i + 64 from by omega)
    | ⟨1, _⟩ => exact (show 0 ≤ (j 1).val ∧ (j 1).val < 0 + 512 from ⟨Nat.zero_le _, by have h1 : (j 1).val < 512 := (j 1).isLt; omega⟩)
  exact (View.set_slice_whole cc0_scratch0 (rR i hi)).symm ▸ h'

theorem scr_chunks (c : Dev nD) (f : (cc0_scratch0 : Ref sig .tc).ty.Contents (Elt F)) :
    (((c : Thread nD τ).loc cc0_scratch0) ↦{fullShare} f : sProp 𝕄) = bigSep (Finset.univ : Finset (Fin 16)) fun i => rPc c i.val i.isLt f := by
  unfold rPc
  have hcov : (Finset.univ : Finset (Fin 16)).biUnion (fun i => (rP i.val i.isLt).view.set) = Finset.univ :=
    Finset.eq_univ_iff_forall.mpr fun (j : S1024x512.Idx) => Finset.mem_biUnion.mpr
      ⟨⟨(j 0).val / 64, by have h0 : (j 0).val < 1024 := (j 0).isLt; omega⟩, Finset.mem_univ _, mem_rP_iff.mpr rfl⟩
  have h := pointsTo_biUnion (Ix := Unit) (Name := ℕ) (U := UU) (Lvl := ℕ) (ℓ := (c : Thread nD τ).loc cc0_scratch0) (q := fullShare) (f := f) Finset.univ (fun i : Fin 16 => (rP i.val i.isLt).view.set)
    (fun i _ i' _ hne => Finset.disjoint_left.mpr fun j hj hj' => hne (Fin.ext ((mem_rP_iff.mp hj).symm.trans (mem_rP_iff.mp hj'))))
  rw [hcov] at h
  exact h

/-! ## The result buffer -/

theorem mem_oP_iff {i : ℕ} {hi : i < 16} {b : ℕ} {hb : b < 2} {j : S1024x1024.Idx} :
    j ∈ (oP i hi b hb).view.set ↔ ((j 0).val / 64 = i ∧ (j 1).val / 512 = b) := by
  refine ⟨rowcol_of_mem_oP, fun h => ?_⟩
  have h' : j ∈ (oR i hi b hb).set := Rect.mem_set_unit.mpr fun a => by
    match a with
    | ⟨0, _⟩ => exact (show 64 * i ≤ (j 0).val ∧ (j 0).val < 64 * i + 64 from by omega)
    | ⟨1, _⟩ => exact (show 512 * b ≤ (j 1).val ∧ (j 1).val < 512 * b + 512 from by omega)
  exact (View.set_slice_whole cc0_stg1_0 (oR i hi b hb)).symm ▸ h'

theorem out_chunks (c : Dev nD) (f : (cc0_stg1_0 : Ref sig .tc).ty.Contents (Elt F)) :
    (((c : Thread nD τ).loc cc0_stg1_0) ↦{fullShare} f : sProp 𝕄)
      = bigSep (Finset.univ : Finset (Fin 16 × Fin 2)) fun ib => oPc c ib.1.val ib.1.isLt ib.2.val ib.2.isLt f := by
  unfold oPc
  have hcov : (Finset.univ : Finset (Fin 16 × Fin 2)).biUnion (fun ib => (oP ib.1.val ib.1.isLt ib.2.val ib.2.isLt).view.set) = Finset.univ :=
    Finset.eq_univ_iff_forall.mpr fun (j : S1024x1024.Idx) => Finset.mem_biUnion.mpr
      ⟨(⟨(j 0).val / 64, by have h0 : (j 0).val < 1024 := (j 0).isLt; omega⟩, ⟨(j 1).val / 512, by have h1 : (j 1).val < 1024 := (j 1).isLt; omega⟩),
        Finset.mem_univ _, mem_oP_iff.mpr ⟨rfl, rfl⟩⟩
  have h := pointsTo_biUnion (Ix := Unit) (Name := ℕ) (U := UU) (Lvl := ℕ) (ℓ := (c : Thread nD τ).loc cc0_stg1_0) (q := fullShare) (f := f) Finset.univ
    (fun ib : Fin 16 × Fin 2 => (oP ib.1.val ib.1.isLt ib.2.val ib.2.isLt).view.set)
    (fun ib _ ib' _ hne => Finset.disjoint_left.mpr fun j hj hj' => hne (Prod.ext
      (Fin.ext ((mem_oP_iff.mp hj).1.symm.trans (mem_oP_iff.mp hj').1)) (Fin.ext ((mem_oP_iff.mp hj).2.symm.trans (mem_oP_iff.mp hj').2))))
  rw [hcov] at h
  exact h

set_option maxHeartbeats 1000000 in
/-- The result buffer as the chunks of the device's own half of the columns and those of the other half. -/
theorem out_halves (c : Dev nD) (f : (cc0_stg1_0 : Ref sig .tc).ty.Contents (Elt F)) :
    (((c : Thread nD τ).loc cc0_stg1_0) ↦{fullShare} f : sProp 𝕄)
      ⊣⊢ iprop((bigSep (Finset.univ : Finset (Fin 16)) fun i => oPc c i.val i.isLt (col c) (col_lt c) f)
          ∗ bigSep (Finset.univ : Finset (Fin 16)) fun i => oPc c i.val i.isLt (col (yp c)) (col_lt _) f) := by
  have e1 : (((c : Thread nD τ).loc cc0_stg1_0) ↦{fullShare} f : sProp 𝕄)
      = iprop((bigSep (Finset.univ : Finset (Fin 16)) fun i => oPc c i.val i.isLt 0 (by decide) f)
          ∗ bigSep (Finset.univ : Finset (Fin 16)) fun i => oPc c i.val i.isLt 1 (by decide) f) := by
    rw [out_chunks, bigSep_univ_prod, ← bigSep_sep']
    exact bigSep_congr fun i _ => bigSep_univ_two _
  rw [e1]
  have hc : col c = 0 ∨ col c = 1 := by have := col_lt c; omega
  rcases hc with h | h
  · have h' : col (yp c) = 1 := by rw [col_yp, h]
    have ea : (bigSep (Finset.univ : Finset (Fin 16)) fun i => (oPc c i.val i.isLt (col c) (col_lt c) f : sProp 𝕄))
        = bigSep (Finset.univ : Finset (Fin 16)) fun i => oPc c i.val i.isLt 0 (by decide) f :=
      bigSep_congr fun i _ => oPc_congr c i.val i.isLt h (col_lt c) (by decide) f
    have eb : (bigSep (Finset.univ : Finset (Fin 16)) fun i => (oPc c i.val i.isLt (col (yp c)) (col_lt _) f : sProp 𝕄))
        = bigSep (Finset.univ : Finset (Fin 16)) fun i => oPc c i.val i.isLt 1 (by decide) f :=
      bigSep_congr fun i _ => oPc_congr c i.val i.isLt h' (col_lt _) (by decide) f
    rw [ea, eb]
  · have h' : col (yp c) = 0 := by rw [col_yp, h]
    have ea : (bigSep (Finset.univ : Finset (Fin 16)) fun i => (oPc c i.val i.isLt (col c) (col_lt c) f : sProp 𝕄))
        = bigSep (Finset.univ : Finset (Fin 16)) fun i => oPc c i.val i.isLt 1 (by decide) f :=
      bigSep_congr fun i _ => oPc_congr c i.val i.isLt h (col_lt c) (by decide) f
    have eb : (bigSep (Finset.univ : Finset (Fin 16)) fun i => (oPc c i.val i.isLt (col (yp c)) (col_lt _) f : sProp 𝕄))
        = bigSep (Finset.univ : Finset (Fin 16)) fun i => oPc c i.val i.isLt 0 (by decide) f :=
      bigSep_congr fun i _ => oPc_congr c i.val i.isLt h' (col_lt _) (by decide) f
    rw [ea, eb]
    exact ⟨sep_comm.1, sep_comm.1⟩

/-! ## The input staging buffer -/

theorem xP_set (i : ℕ) (hi : i < 16) : (xP i hi).view.set = (xR i hi).set :=
  (View.set_reshape _ _).trans (View.set_slice_whole cc0_stg0_0 (xR i hi))

theorem mem_xP_iff {i : ℕ} {hi : i < 16} {j : S1x1024x512.Idx} : j ∈ (xP i hi).view.set ↔ (j 1).val / 64 = i := by
  rw [xP_set]
  constructor
  · intro h
    have h1 : 64 * i ≤ (j 1).val ∧ (j 1).val < 64 * i + 64 := Rect.mem_set_unit.mp h 1
    omega
  · intro h
    exact Rect.mem_set_unit.mpr fun a => by
      match a with
      | ⟨0, _⟩ => exact (show 0 ≤ (j 0).val ∧ (j 0).val < 0 + 1 from ⟨Nat.zero_le _, by have h0 : (j 0).val < 1 := (j 0).isLt; omega⟩)
      | ⟨1, _⟩ => exact (show 64 * i ≤ (j 1).val ∧ (j 1).val < 64 * i + 64 from by omega)
      | ⟨2, _⟩ => exact (show 0 ≤ (j 2).val ∧ (j 2).val < 0 + 512 from ⟨Nat.zero_le _, by have h2 : (j 2).val < 512 := (j 2).isLt; omega⟩)

theorem x_chunks (c : Dev nD) (q : PosShare TreeShare) :
    (((c : Thread nD τ).loc cc0_stg0_0) ↦{q} xstg m c : sProp 𝕄) = bigSep (Finset.univ : Finset (Fin 16)) fun i => xPc m c i.val i.isLt q := by
  unfold xPc
  have hcov : (Finset.univ : Finset (Fin 16)).biUnion (fun i => (xP i.val i.isLt).view.set) = Finset.univ :=
    Finset.eq_univ_iff_forall.mpr fun (j : S1x1024x512.Idx) => Finset.mem_biUnion.mpr
      ⟨⟨(j 1).val / 64, by have h1 : (j 1).val < 1024 := (j 1).isLt; omega⟩, Finset.mem_univ _, mem_xP_iff.mpr rfl⟩
  have h := pointsTo_biUnion (Ix := Unit) (Name := ℕ) (U := UU) (Lvl := ℕ) (ℓ := (c : Thread nD τ).loc cc0_stg0_0) (q := q) (f := xstg m c) Finset.univ (fun i : Fin 16 => (xP i.val i.isLt).view.set)
    (fun i _ i' _ hne => Finset.disjoint_left.mpr fun j hj hj' => hne (Fin.ext ((mem_xP_iff.mp hj).symm.trans (mem_xP_iff.mp hj'))))
  rw [hcov] at h
  exact h

end Cert.Kernel.Proto

end
-- ==== Proof.Kernel.Ghost.lean ====
/-
  The ghost state of the protocol as each device holds it: the invariants of all the cells (their names dealt at
  launch) and that each has reached its one round; and, chunk by chunk, the families of tokens, credits, positions
  and buffer chunks the four runs of the body consume and produce.
-/
import proofs.«900315_g7700000000000316_dist_rsx_agy_m1024_n512_v7x_xy2x2_f32_1_alg».proof.Proof.Kernel.Regions

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells, by key -/

/-- A device's cells: its barrier cell, and family `k` (first-axis send, first-axis receive, second-axis send,
    second-axis receive) chunk `i`. -/
abbrev CK : Type := Unit ⊕ (Fin 4 × Fin 16)
def dsem (k : Fin 4) (i : Fin 16) : DmaSem sig := match k with
  | 0 => sxS i.val i.isLt | 1 => rxS i.val i.isLt | 2 => syS i.val i.isLt | 3 => ryS i.val i.isLt
def csem : CK → SemLoc sig
  | .inl _ => .reg barS
  | .inr (k, i) => .dma (dsem k i)
abbrev kcell (ck : Dev nD × CK) : GSem nD τ sig := ((ck.1 : Thread nD τ), csem ck.2)

/-- The invariants of all cells under the names `K`, and that every cell is at its round. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

theorem inv_at' (K : Dev nD × CK → ℕ) (ck : Dev nD × CK) :
    (bigSep Finset.univ fun ck : Dev nD × CK => (cellInv ER (Rd m) (K ck) (kcell ck) : sProp 𝕄)) ⊢ cellInv ER (Rd m) (K ck) (kcell ck) :=
  bigSep_elim (Finset.mem_univ ck)
theorem reached_at' (ck : Dev nD × CK) :
    (bigSep Finset.univ fun ck : Dev nD × CK => (reached ER (kcell ck) 0 : sProp 𝕄)) ⊢ reached ER (kcell ck) 0 :=
  bigSep_elim (Finset.mem_univ ck)
theorem inv_at (K : Dev nD × CK → ℕ) (ck : Dev nD × CK) : records m K ⊢ cellInv ER (Rd m) (K ck) (kcell ck) := by
  unfold records; iintro ⟨H, -⟩; iapply (inv_at' m K ck); iexact H
theorem reached_at (K : Dev nD × CK → ℕ) (ck : Dev nD × CK) : records m K ⊢ reached ER (kcell ck) 0 := by
  unfold records; iintro ⟨-, H⟩; iapply (reached_at' (F := F) ck); iexact H

/-- the keys of the four families -/
abbrev kBar : CK := .inl ()
abbrev kSx (i : ℕ) (hi : i < 16) : CK := .inr (0, ⟨i, hi⟩)
abbrev kRx (i : ℕ) (hi : i < 16) : CK := .inr (1, ⟨i, hi⟩)
abbrev kSy (i : ℕ) (hi : i < 16) : CK := .inr (2, ⟨i, hi⟩)
abbrev kRy (i : ℕ) (hi : i < 16) : CK := .inr (3, ⟨i, hi⟩)

/-! ## The families, chunk by chunk -/

/-- a family of semaphores: one of `sxS`, `rxS`, `syS`, `ryS` -/
abbrev Fam : Type := (k : ℕ) → k < 16 → DmaSem sig

def fTok (d : Dev nD) (S : Fam) (k : ℕ) : sProp 𝕄 := if hk : k < 16 then dutyTok ER (dmaC d (S k hk)) 0 false else iprop(emp)
def fCred (c : Dev nD) (S : Fam) (k : ℕ) : sProp 𝕄 := if hk : k < 16 then cred (tallyAt (dmaC c (S k hk)) () 4096) else iprop(emp)
def fPos (c : Dev nD) (S : Fam) (R : ℕ) (k : ℕ) : sProp 𝕄 := if hk : k < 16 then atPos ER (dmaC c (S k hk)) R ∅ 0 else iprop(emp)
/-- the own rows of chunk `k` at a share -/
def fX (c : Dev nD) (q : PosShare TreeShare) (k : ℕ) : sProp 𝕄 := if hk : k < 16 then xPc m c k hk q else iprop(emp)
/-- chunk `k` of device `d`'s landing buffer at some contents; at its final contents -/
def fRany (d : Dev nD) (k : ℕ) : sProp 𝕄 := if hk : k < 16 then iprop(∃ f, rPc d k hk f) else iprop(emp)
def fRat (c : Dev nD) (k : ℕ) : sProp 𝕄 := if hk : k < 16 then rPc c k hk (rAt m c) else iprop(emp)
/-- chunk `k` of half `b` of the columns of device `d`'s result buffer at some contents; at its final contents -/
def fOany (d : Dev nD) (b : ℕ) (hb : b < 2) (k : ℕ) : sProp 𝕄 := if hk : k < 16 then iprop(∃ f, oPc d k hk b hb f) else iprop(emp)
def fOat (c : Dev nD) (b : ℕ) (hb : b < 2) (k : ℕ) : sProp 𝕄 := if hk : k < 16 then oPc c k hk b hb (outAt m c) else iprop(emp)

/-- A family over the sixteen chunks as a run over the numbers below sixteen. -/
theorem fin_eq_range (D : Fin 16 → sProp 𝕄) (Ψ : ℕ → sProp 𝕄) (h : ∀ (t : ℕ) (ht : t < 16), Ψ t = D ⟨t, ht⟩) :
    bigSep Finset.univ D = bigSep (Finset.range 16) Ψ := Ring.bigSep_fin_eq_range 16 D Ψ h

end Cert.Kernel.Proto

end
-- ==== Proof.Kernel.StepB.lean ====
/-
  The sixteen first-axis transfers.  Chunk `i`: the device lends the left half of its share of its own rows to its
  send cell, writes its first-axis neighbour's landing chunk (which that neighbour handed over at the handshake),
  and pays that neighbour's receive cell the chunk's credit.
-/
import proofs.«900315_g7700000000000316_dist_rsx_agy_m1024_n512_v7x_xy2x2_f32_1_alg».proof.Proof.Kernel.Ghost

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section StepB
variable (K : Dev nD × CK → ℕ)

/-- One transfer, addressed to `n = xp c`. -/
theorem wp_sendX (c n : Dev nD) (hn : n = xp c) (i : ℕ) (hi : i < 16)
    {hsc : ((rP i hi) : Memref sig (Dev.tc n : Thread nD τ).2.kind .vmem S64x512 .f32).view.ref.isScScratch = false}
    {hsrc : (xP i hi).view.WordExact} {hdst : (rP i hi).view.WordExact}
    {hsem : DmaTarget.Typed .vmem (.dma (rxS i hi)) (.remote (Dev.tc n : Thread nD τ) (rP i hi) (.dma (sxS i hi)) hsc)}
    {α : Type} {Q : α → sProp 𝕄} {k : PUnit → Prog (TpuEff nD τ sig (Elt F) Λ₀ .tc) α}
    (fd : (cc0_scratch0 : Ref sig .tc).ty.Contents (Elt F)) (O : CellTallies nD τ sig Unit) (W : Waits sig Unit) :
    iprop(records m K ∗ xPc m c i hi fullShare.left ∗ rPc (xp c) i hi fd
        ∗ owes (c : Thread nD τ) (O + tallyAt (dmaC (xp c) (rxS i hi)) () 4096) W
        ∗ dutyTok ER (dmaC c (sxS i hi)) 0 false ∗ dutyTok ER (dmaC (xp c) (rxS i hi)) 0 false)
      ⊢ iprop(((cred (tallyAt (dmaC c (sxS i hi)) () 4096) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xP i hi) (.remote (Dev.tc n : Thread nD τ) (rP i hi) (.dma (sxS i hi)) hsc) (.dma (rxS i hi)) hsrc hdst hsem) k) Q) := by
  subst hn
  iintro ⟨#HR, Hx, Hr, HO, Ht1, Ht2⟩
  unfold xPc rPc
  iapply (Rounds.wp_send_pointsTo 𝒱₀ ER (Rd m) (c : Thread nD τ) none (src := xP i hi) (dst := rP i hi) (c' := (xp c : Thread nD τ))
    (q := fullShare.left) (fs := xstg m c) (κ₁ := K (c, kSx i hi)) (κ₂ := K (xp c, kRx i hi))
    (r₁ := 0) (r₂ := 0) (d₁ := false) (d₂ := false) (fd := fd)
    (by rw [duties_dma m c _ (scr_sx i hi)]; exact Finset.mem_singleton_self _)
    (by rw [duties_dma m (xp c) _ (scr_rx i hi)]; exact Finset.mem_singleton_self _)
    () () 4096 rfl (amount_dma m c _ false) (amount_dma m (xp c) _ false) O rfl (W := W)
    (by rw [payload_sx]; all_goals exact BI.Entails.refl _)
    (by rw [payload_rx]; unfold rxPay; rw [landX]; all_goals exact BI.Entails.refl _))
  isplitr; · iapply (inv_at m K (c, kSx i hi)); iexact HR
  isplitr; · iapply (inv_at m K (xp c, kRx i hi)); iexact HR
  isplitl [Hx]; · iexact Hx
  isplitl [Hr]; · iexact Hr
  isplitl [HO]; · iexact HO
  isplitl [Ht1]; · iexact Ht1
  isplitr; · iapply (reached_at m K (c, kSx i hi)); iexact HR
  isplitl [Ht2]; · iexact Ht2
  iapply (reached_at m K (xp c, kRx i hi)); iexact HR

/-- What the transfers of the chunks from `i` on need, and what those before `i` have left. -/
def needB (c : Dev nD) (i : ℕ) : sProp 𝕄 :=
  bigSep (Finset.Ico i 16) fun k => iprop(fX m c fullShare.left k ∗ fRany (xp c) k ∗ fTok c sxS k ∗ fTok (xp c) rxS k)
def doneB (c : Dev nD) (i : ℕ) : sProp 𝕄 := bigSep (Finset.range i) (fCred c sxS)

theorem run_B (c : Dev nD) (O : CellTallies nD τ sig Unit) (W : Waits sig Unit) (rest : PU F) (Q : PUnit → sProp 𝕄) :
    ∀ (n i : ℕ) (h : n ≤ 16), i + n = 16 →
    iprop(records m K ∗ needB m c i ∗ doneB c i ∗ owes (c : Thread nD τ) (oweX c i + O) W)
      ⊢ iprop(((doneB c 16 ∗ owes (c : Thread nD τ) O W) -∗ wp frame (wpE (defs₀ (F := F)) 𝒱₀ (c : Thread nD τ) none) Set.univ rest Q)
          -∗ wp frame (wpE (defs₀ (F := F)) 𝒱₀ (c : Thread nD τ) none) Set.univ (run (stepB c) rest n h) Q) := by
  intro n
  induction n with
  | zero =>
    intro i h hin
    have hi : i = 16 := by omega
    subst hi
    rw [oweX_end, zero_add]
    show _ ⊢ iprop(_ -∗ wp frame _ Set.univ rest Q)
    iintro ⟨-, -, HD, HO⟩ Hk
    iapply Hk
    isplitl [HD] <;> iassumption
  | succ n ih =>
    intro i h hin
    have hi : i < 16 := by omega
    have hi' : 16 - (n + 1) = i := by omega
    have hstep : ∀ (j : ℕ) (hj : j < 16), j = i → stepB (F := F) c j hj (run (stepB c) rest n (by omega)) = stepB c i hi (run (stepB c) rest n (by omega)) := by
      intro j hj e; subst e; rfl
    have hprog : run (stepB (F := F) c) rest (n + 1) h = stepB c i hi (run (stepB c) rest n (by omega)) := hstep (16 - (n + 1)) (by omega) hi'
    rw [hprog, oweX_step c i hi, add_right_comm]
    unfold stepB needB
    rw [Ring.bigSep_Ico_succ hi]
    unfold fX fRany fTok
    rw [dif_pos hi, dif_pos hi, dif_pos hi, dif_pos hi]
    iintro ⟨#HR, HN, HD, HO⟩ Hk
    icases HN with ⟨⟨Hx, Hr, Ht1, Ht2⟩, HN⟩
    icases Hr with ⟨%fd, Hr⟩
    iapply (wp_sendX m K c (devB c i) (devB_eq c i hi) i hi fd (oweX c (i + 1) + O) W) $$ [Hx Hr HO Ht1 Ht2]
    · isplitr; · iexact HR
      isplitl [Hx]; · iexact Hx
      isplitl [Hr]; · iexact Hr
      isplitl [HO]; · iexact HO
      isplitl [Ht1] <;> iassumption
    iintro ⟨Hc, HO⟩
    iapply (ih (i + 1) (by omega) (by omega)) $$ [HN HD Hc HO]
    · isplitr; · iexact HR
      isplitl [HN]; · unfold needB; iexact HN
      isplitl [HD Hc]
      · unfold doneB; rw [Ring.bigSep_range_succ]; unfold fCred; rw [dif_pos hi]
        isplitl [Hc] <;> iassumption
      iexact HO
    iexact Hk

end StepB

end Cert.Kernel.Proto

end
-- ==== Proof.Kernel.StepC.lean ====
/-
  The sixteen rounds of the middle of the body.  Round `i`: wait until the first-axis neighbour's chunk `i` has
  landed (what is still owed then are second-axis receive credits only, which sit above); read the own rows and
  the landed rows; store their sum into the own half of the result's columns; send the stored chunk to the
  second-axis neighbour, into the chunk of its result buffer it handed over at the handshake.
-/
import proofs.«900315_g7700000000000316_dist_rsx_agy_m1024_n512_v7x_xy2x2_f32_1_alg».proof.Proof.Kernel.StepB

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Round `i` over a device `n` and offsets `oA` (the store's) and `oB` (the transfer's) as the body prints them. -/
def stepCg (n : Dev nD) (oA oB : Off2) (i : ℕ) (hi : i < 16) (k : PU F) : PU F :=
  Prog.op (.waitDma2 (rxS i hi) (xP i hi) (rP i hi) ((View.wordExact_bits rfl).reshape _ _) (View.wordExact_bits rfl)) fun _ =>
  Prog.op (.load xM (xR i hi).toLoadRect (View.loadsAt_vmem h_S1x64x512)) fun v1 =>
  Prog.op (.load rM (rR i hi).toLoadRect (View.loadsAt_vmem h_S64x512)) fun v2 =>
  Prog.op (.load oM (Rect.unit (s := S1024x1024) oA.1 S64x512.size oA.2).toLoadRect (View.loadsAt_vmem h_S64x512)) fun _ =>
  Prog.op (.store oM (Rect.unit (s := S1024x1024) oA.1 S64x512.size oA.2) (k0_pay1 v1 v2) Finset.univ (View.stores_vmem_bits_univ h_S64x512 rfl) (.inl rfl)) fun _ =>
  Prog.op (.enqueueDma (oM.slice (Rect.unit (s := S1024x1024) oB.1 S64x512.size oB.2) (fun _ => rfl))
      (.remote (Dev.tc n) (oM.slice (Rect.unit (s := S1024x1024) oB.1 S64x512.size oB.2) (fun _ => rfl)) (.dma (syS i hi))) (.dma (ryS i hi))
      (View.wordExact_bits rfl) (View.wordExact_bits rfl) ⟨⟨rfl, Or.inl rfl⟩, trivial⟩) fun _ => k

theorem stepC_eq (c : Dev nD) (i : ℕ) (hi : i < 16) (k : PU F) : stepC c i hi k = stepCg (devC c i) (offA c i) (offB c i) i hi k := rfl

theorem credit_chunk_r (i : ℕ) (hi : i < 16) : (rP i hi).view.dmaCredit = 4096 := rfl
theorem credit_chunk_x (i : ℕ) (hi : i < 16) : (xP i hi).view.dmaCredit = 4096 := rfl
theorem credit_chunk_o (i : ℕ) (hi : i < 16) (b : ℕ) (hb : b < 2) : (oP i hi b hb).view.dmaCredit = 4096 := rfl

section StepC
variable (K : Dev nD × CK → ℕ)

set_option maxHeartbeats 1600000 in
theorem wp_stepCg (c n : Dev nD) (hn : n = yp c) (i : ℕ) (hi : i < 16) (oA oB : Off2)
    (hA : oA = ⟨![64 * i, 512 * col c], hoin i hi (col c) (col_lt c)⟩) (hB : oB = ⟨![64 * i, 512 * col c], hoin i hi (col c) (col_lt c)⟩)
    (k : PU F) (Q : PUnit → sProp 𝕄) (W : Waits sig Unit)
    (f0 fd : (cc0_stg1_0 : Ref sig .tc).ty.Contents (Elt F)) :
    iprop(records m K ∗ levAts L lv
        ∗ cred (tallyAt (dmaC c (rxS i hi)) () 4096) ∗ atPos ER (dmaC c (rxS i hi)) 0 ∅ 0
        ∗ owes (c : Thread nD τ) (oweY c i) W
        ∗ xPc m c i hi fullShare.right ∗ oPc c i hi (col c) (col_lt c) f0 ∗ oPc (yp c) i hi (col c) (col_lt c) fd
        ∗ dutyTok ER (dmaC c (syS i hi)) 0 false ∗ dutyTok ER (dmaC (yp c) (ryS i hi)) 0 false)
      ⊢ iprop(((∃ W', cred (tallyAt (dmaC c (syS i hi)) () 4096) ∗ atPos ER (dmaC c (rxS i hi)) 1 ∅ 0 ∗ owes (c : Thread nD τ) (oweY c (i + 1)) W'
                ∗ xPc m c i hi fullShare.right ∗ rPc c i hi (rAt m c))
            -∗ wp frame (wpE (defs₀ (F := F)) 𝒱₀ (c : Thread nD τ) none) Set.univ k Q)
          -∗ wp frame (wpE (defs₀ (F := F)) 𝒱₀ (c : Thread nD τ) none) Set.univ (stepCg n oA oB i hi k) Q) := by
  subst hn; subst hA; subst hB
  unfold stepCg
  iintro ⟨#HR, #Hlev, Hc, Hat, HO, Hx, Ho, Hd, Ht1, Ht2⟩ Hk
  -- the wait for the landing
  iapply (Rounds.wp_wait_rest_token 𝒱₀ ER (Rd m) (c : Thread nD τ) none (κ := K (c, kRx i hi))
      (wpE_waitDma2_eq 𝒱₀ (c : Thread nD τ) none Set.univ) (Set.mem_univ _) () (O := oweY c i) (W := W) (R := 0) (m := 0) (T := ∅)
      (by rw [Nat.zero_add, expect_dma m c _ (scr_rx i hi)]; rfl)) $$ [Hc HO Hat]
  · isplitr; · iapply (inv_at m K (c, kRx i hi)); iexact HR
    isplitl [Hc]; · iexact Hc
    isplitl [HO]; · iexact HO
    isplitr; · iapply (mayWait_rx c i hi i); iexact Hlev
    iexact Hat
  iintro ⟨HO, Hat, -, Hpay⟩
  ihave Hr := (Entails.of_eq ((rest_dma m c _ (scr_rx i hi)).trans (payload_rx m c i hi false))) $$ Hpay
  unfold rxPay xPc rPc oPc
  -- the three loads and the store
  iapply (wp_load 𝒱₀ (c : Thread nD τ) none Set.univ (m := xM)
    (Memref.setOn_subset_of_access_subset (c : Thread nD τ) (m := xM) (r := xR i hi) (by rw [xP_set]; exact (View.set_slice_whole cc0_stg0_0 (xR i hi)).le))) $$ Hx; iintro Hx
  iapply (wp_load 𝒱₀ (c : Thread nD τ) none Set.univ (m := rM) (Memref.setOn_subset_of_access_subset (c : Thread nD τ) (m := rM) (r := rR i hi) subset_rfl)) $$ Hr; iintro Hr
  iapply (wp_load 𝒱₀ (c : Thread nD τ) none Set.univ (m := oM) (Memref.setOn_subset_of_access_subset (c : Thread nD τ) (m := oM) (r := oR i hi (col c) (col_lt c)) subset_rfl)) $$ Ho; iintro Ho
  iapply (wp_store 𝒱₀ (c : Thread nD τ) none Set.univ (m := oM) (r := oR i hi (col c) (col_lt c)) (Mk := Finset.univ)
    (S := (oM.access (oR i hi (col c) (col_lt c))).set) (f := f0) (by rw [View.setOn_univ])) $$ Ho; iintro Ho
  -- the transfer of the stored chunk
  iapply (Rounds.wp_send_pointsTo 𝒱₀ ER (Rd m) (c : Thread nD τ) none (src := oP i hi (col c) (col_lt c)) (dst := oP i hi (col c) (col_lt c))
    (c' := (yp c : Thread nD τ)) (q := fullShare)
    (fs := (oM.access (oR i hi (col c) (col_lt c))).write (Elt F) f0 (ownVal m c i hi) Finset.univ)
    (κ₁ := K (c, kSy i hi)) (κ₂ := K (yp c, kRy i hi)) (r₁ := 0) (r₂ := 0) (d₁ := false) (d₂ := false) (fd := fd)
    (by rw [duties_dma m c _ (scr_sy i hi)]; exact Finset.mem_singleton_self _)
    (by rw [duties_dma m (yp c) _ (scr_ry i hi)]; exact Finset.mem_singleton_self _)
    () () 4096 rfl (amount_dma m c _ false) (amount_dma m (yp c) _ false) (oweY c (i + 1)) (oweY_step c i hi)
    (W := insert (SemLoc.dma (rxS i hi), ()) W)
    (by rw [payload_sy]; unfold syPay; rw [storedY]; all_goals exact BI.Entails.refl _)
    (by rw [payload_ry]; unfold ryPay; rw [landY]; all_goals exact BI.Entails.refl _)) $$ [Ho Hd HO Ht1 Ht2]
  · isplitr; · iapply (inv_at m K (c, kSy i hi)); iexact HR
    isplitr; · iapply (inv_at m K (yp c, kRy i hi)); iexact HR
    isplitl [Ho]; · iexact Ho
    isplitl [Hd]; · iexact Hd
    isplitl [HO]; · iexact HO
    isplitl [Ht1]; · iexact Ht1
    isplitr; · iapply (reached_at m K (c, kSy i hi)); iexact HR
    isplitl [Ht2]; · iexact Ht2
    iapply (reached_at m K (yp c, kRy i hi)); iexact HR
  iintro ⟨Hcs, HO⟩
  iapply Hk
  iexists _
  isplitl [Hcs]; · iexact Hcs
  isplitl [Hat]; · iexact Hat
  isplitl [HO]; · iexact HO
  isplitl [Hx]; · iexact Hx
  iexact Hr

def needC (c : Dev nD) (i : ℕ) : sProp 𝕄 :=
  bigSep (Finset.Ico i 16) fun k => iprop(fCred c rxS k ∗ fPos c rxS 0 k ∗ fX m c fullShare.right k ∗ fOany c (col c) (col_lt c) k
    ∗ fOany (yp c) (col c) (col_lt c) k ∗ fTok c syS k ∗ fTok (yp c) ryS k)
def doneC (c : Dev nD) (i : ℕ) : sProp 𝕄 :=
  bigSep (Finset.range i) fun k => iprop(fCred c syS k ∗ fPos c rxS 1 k ∗ fX m c fullShare.right k ∗ fRat m c k)

theorem run_C (c : Dev nD) (rest : PU F) (Q : PUnit → sProp 𝕄) :
    ∀ (n i : ℕ) (h : n ≤ 16), i + n = 16 →
    iprop(records m K ∗ levAts L lv ∗ needC m c i ∗ doneC m c i ∗ (∃ W, owes (c : Thread nD τ) (oweY c i) W))
      ⊢ iprop(((doneC m c 16 ∗ ∃ W, owes (c : Thread nD τ) 0 W) -∗ wp frame (wpE (defs₀ (F := F)) 𝒱₀ (c : Thread nD τ) none) Set.univ rest Q)
          -∗ wp frame (wpE (defs₀ (F := F)) 𝒱₀ (c : Thread nD τ) none) Set.univ (run (stepC c) rest n h) Q) := by
  intro n
  induction n with
  | zero =>
    intro i h hin
    have hi : i = 16 := by omega
    subst hi
    rw [oweY_end]
    show _ ⊢ iprop(_ -∗ wp frame _ Set.univ rest Q)
    iintro ⟨-, -, -, HD, HO⟩ Hk
    iapply Hk
    isplitl [HD] <;> iassumption
  | succ n ih =>
    intro i h hin
    have hi : i < 16 := by omega
    have hi' : 16 - (n + 1) = i := by omega
    have hstep : ∀ (j : ℕ) (hj : j < 16), j = i → stepC (F := F) c j hj (run (stepC c) rest n (by omega)) = stepC c i hi (run (stepC c) rest n (by omega)) := by
      intro j hj e; subst e; rfl
    have hprog : run (stepC (F := F) c) rest (n + 1) h = stepC c i hi (run (stepC c) rest n (by omega)) := hstep (16 - (n + 1)) (by omega) hi'
    rw [hprog, stepC_eq]
    unfold needC
    rw [Ring.bigSep_Ico_succ hi]
    unfold fCred fPos fX fOany fTok
    rw [dif_pos hi, dif_pos hi, dif_pos hi, dif_pos hi, dif_pos hi, dif_pos hi, dif_pos hi]
    iintro ⟨#HR, #Hlev, HN, HD, ⟨%W, HO⟩⟩ Hk
    icases HN with ⟨⟨Hc, Hat, Hx, Ho, Hd, Ht1, Ht2⟩, HN⟩
    icases Ho with ⟨%f0, Ho⟩
    icases Hd with ⟨%fd, Hd⟩
    iapply (wp_stepCg m K c (devC c i) (devC_eq c i hi) i hi (offA c i) (offB c i) (offA_eq c i hi) (offB_eq c i hi) _ Q W f0 fd) $$ [Hc Hat HO Hx Ho Hd Ht1 Ht2]
    · isplitr; · iexact HR
      isplitr; · iexact Hlev
      isplitl [Hc]; · iexact Hc
      isplitl [Hat]; · iexact Hat
      isplitl [HO]; · iexact HO
      isplitl [Hx]; · iexact Hx
      isplitl [Ho]; · iexact Ho
      isplitl [Hd]; · iexact Hd
      isplitl [Ht1] <;> iassumption
    iintro ⟨%W', Hcs, Hat, HO, Hx, Hr⟩
    iapply (ih (i + 1) _ (by omega)) $$ [HN HD Hcs Hat HO Hx Hr]
    · isplitr; · iexact HR
      isplitr; · iexact Hlev
      isplitl [HN]; · unfold needC; iexact HN
      isplitl [HD Hcs Hat Hx Hr]
      · unfold doneC; rw [Ring.bigSep_range_succ]; unfold fCred fPos fX fRat; rw [dif_pos hi, dif_pos hi, dif_pos hi, dif_pos hi]
        isplitl [Hcs Hat Hx Hr]
        · isplitl [Hcs]; · iexact Hcs
          isplitl [Hat]; · iexact Hat
          isplitl [Hx] <;> iassumption
        iexact HD
      iexists W'; iexact HO
    iexact Hk

end StepC

end Cert.Kernel.Proto

end
-- ==== Proof.Kernel.StepDE.lean ====
/-
  The end of the body: the sixteen waits for the second-axis neighbour's chunks, which fill the other half of the
  result's columns, and the thirty-two waits for the departures, which return the lent halves of the own rows and
  the stored chunks.  The device owes nothing by then.
-/
import proofs.«900315_g7700000000000316_dist_rsx_agy_m1024_n512_v7x_xy2x2_f32_1_alg».proof.Proof.Kernel.StepC

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def stepDg (oB : Off2) (i : ℕ) (hi : i < 16) (k : PU F) : PU F :=
  Prog.op (.waitDma2 (ryS i hi) (oM.slice (Rect.unit (s := S1024x1024) oB.1 S64x512.size oB.2) (fun _ => rfl))
    (oM.slice (Rect.unit (s := S1024x1024) oB.1 S64x512.size oB.2) (fun _ => rfl)) (View.wordExact_bits rfl) (View.wordExact_bits rfl)) fun _ => k
def stepEg (oB : Off2) (i : ℕ) (hi : i < 16) (k : PU F) : PU F :=
  Prog.op (.waitDma2 (sxS i hi) (rP i hi) (xP i hi) (View.wordExact_bits rfl) ((View.wordExact_bits rfl).reshape _ _)) fun _ =>
  Prog.op (.waitDma2 (syS i hi) (oM.slice (Rect.unit (s := S1024x1024) oB.1 S64x512.size oB.2) (fun _ => rfl))
    (oM.slice (Rect.unit (s := S1024x1024) oB.1 S64x512.size oB.2) (fun _ => rfl)) (View.wordExact_bits rfl) (View.wordExact_bits rfl)) fun _ => k

theorem stepD_eq (c : Dev nD) (i : ℕ) (hi : i < 16) (k : PU F) : stepD c i hi k = stepDg (offB c i) i hi k := rfl
theorem stepE_eq (c : Dev nD) (i : ℕ) (hi : i < 16) (k : PU F) : stepE c i hi k = stepEg (offB c i) i hi k := rfl

section StepDE
variable (K : Dev nD × CK → ℕ)

theorem wp_stepDg (c : Dev nD) (i : ℕ) (hi : i < 16) (oB : Off2) (hB : oB = ⟨![64 * i, 512 * col c], hoin i hi (col c) (col_lt c)⟩)
    (k : PU F) (Q : PUnit → sProp 𝕄) (W : Waits sig Unit) :
    iprop(records m K ∗ cred (tallyAt (dmaC c (ryS i hi)) () 4096) ∗ atPos ER (dmaC c (ryS i hi)) 0 ∅ 0 ∗ owes (c : Thread nD τ) 0 W)
      ⊢ iprop(((∃ W', atPos ER (dmaC c (ryS i hi)) 1 ∅ 0 ∗ oPc c i hi (col (yp c)) (col_lt _) (outAt m c) ∗ owes (c : Thread nD τ) 0 W')
            -∗ wp frame (wpE (defs₀ (F := F)) 𝒱₀ (c : Thread nD τ) none) Set.univ k Q)
          -∗ wp frame (wpE (defs₀ (F := F)) 𝒱₀ (c : Thread nD τ) none) Set.univ (stepDg oB i hi k) Q) := by
  subst hB
  unfold stepDg
  iintro ⟨#HR, Hc, Hat, HO⟩ Hk
  iapply (Rounds.wp_wait_rest_token 𝒱₀ ER (Rd m) (c : Thread nD τ) none (κ := K (c, kRy i hi))
      (wpE_waitDma2_eq 𝒱₀ (c : Thread nD τ) none Set.univ) (Set.mem_univ _) () (O := 0) (W := W) (R := 0) (m := 0) (T := ∅)
      (by rw [Nat.zero_add, expect_dma m c _ (scr_ry i hi)]; exact credit_chunk_o i hi (col c) (col_lt c))) $$ [Hc HO Hat]
  · isplitr; · iapply (inv_at m K (c, kRy i hi)); iexact HR
    isplitl [Hc]
    · iapply (Entails.of_eq (show (cred (tallyAt (dmaC c (ryS i hi)) () 4096) : sProp 𝕄)
        = cred (tallyAt (dmaC c (ryS i hi)) () (oP i hi (col c) (col_lt c)).view.dmaCredit) from by rw [credit_chunk_o])); iexact Hc
    isplitl [HO]; · iexact HO
    isplitr; · rw [MayWait_zero]; iempintro
    iexact Hat
  iintro ⟨HO, Hat, -, Hpay⟩
  ihave Ho := (Entails.of_eq ((rest_dma m c _ (scr_ry i hi)).trans (payload_ry m c i hi false))) $$ Hpay
  unfold ryPay
  iapply Hk
  iexists _
  isplitl [Hat]; · iexact Hat
  isplitl [Ho] <;> iassumption

def needD (c : Dev nD) (i : ℕ) : sProp 𝕄 := bigSep (Finset.Ico i 16) fun k => iprop(fCred c ryS k ∗ fPos c ryS 0 k)
def doneD (c : Dev nD) (i : ℕ) : sProp 𝕄 := bigSep (Finset.range i) fun k => iprop(fPos c ryS 1 k ∗ fOat m c (col (yp c)) (col_lt _) k)

theorem run_D (c : Dev nD) (rest : PU F) (Q : PUnit → sProp 𝕄) :
    ∀ (n i : ℕ) (h : n ≤ 16), i + n = 16 →
    iprop(records m K ∗ needD c i ∗ doneD m c i ∗ (∃ W, owes (c : Thread nD τ) 0 W))
      ⊢ iprop(((doneD m c 16 ∗ ∃ W, owes (c : Thread nD τ) 0 W) -∗ wp frame (wpE (defs₀ (F := F)) 𝒱₀ (c : Thread nD τ) none) Set.univ rest Q)
          -∗ wp frame (wpE (defs₀ (F := F)) 𝒱₀ (c : Thread nD τ) none) Set.univ (run (stepD c) rest n h) Q) := by
  intro n
  induction n with
  | zero =>
    intro i h hin
    have hi : i = 16 := by omega
    subst hi
    show _ ⊢ iprop(_ -∗ wp frame _ Set.univ rest Q)
    iintro ⟨-, -, HD, HO⟩ Hk
    iapply Hk
    isplitl [HD] <;> iassumption
  | succ n ih =>
    intro i h hin
    have hi : i < 16 := by omega
    have hi' : 16 - (n + 1) = i := by omega
    have hstep : ∀ (j : ℕ) (hj : j < 16), j = i → stepD (F := F) c j hj (run (stepD c) rest n (by omega)) = stepD c i hi (run (stepD c) rest n (by omega)) := by
      intro j hj e; subst e; rfl
    have hprog : run (stepD (F := F) c) rest (n + 1) h = stepD c i hi (run (stepD c) rest n (by omega)) := hstep (16 - (n + 1)) (by omega) hi'
    rw [hprog, stepD_eq]
    unfold needD
    rw [Ring.bigSep_Ico_succ hi]
    unfold fCred fPos
    rw [dif_pos hi, dif_pos hi]
    iintro ⟨#HR, HN, HD, ⟨%W, HO⟩⟩ Hk
    icases HN with ⟨⟨Hc, Hat⟩, HN⟩
    iapply (wp_stepDg m K c i hi (offB c i) (offB_eq c i hi) _ Q W) $$ [Hc Hat HO]
    · isplitr; · iexact HR
      isplitl [Hc]; · iexact Hc
      isplitl [Hat] <;> iassumption
    iintro ⟨%W', Hat, Ho, HO⟩
    iapply (ih (i + 1) _ (by omega)) $$ [HN HD Hat Ho HO]
    · isplitr; · iexact HR
      isplitl [HN]; · unfold needD; iexact HN
      isplitl [HD Hat Ho]
      · unfold doneD; rw [Ring.bigSep_range_succ]; unfold fPos fOat; rw [dif_pos hi, dif_pos hi]
        isplitl [Hat Ho]
        · isplitl [Hat] <;> iassumption
        iexact HD
      iexists W'; iexact HO
    iexact Hk

theorem wp_stepEg (c : Dev nD) (i : ℕ) (hi : i < 16) (oB : Off2) (hB : oB = ⟨![64 * i, 512 * col c], hoin i hi (col c) (col_lt c)⟩)
    (k : PU F) (Q : PUnit → sProp 𝕄) (W : Waits sig Unit) :
    iprop(records m K ∗ cred (tallyAt (dmaC c (sxS i hi)) () 4096) ∗ atPos ER (dmaC c (sxS i hi)) 0 ∅ 0
        ∗ cred (tallyAt (dmaC c (syS i hi)) () 4096) ∗ atPos ER (dmaC c (syS i hi)) 0 ∅ 0 ∗ owes (c : Thread nD τ) 0 W)
      ⊢ iprop(((∃ W', atPos ER (dmaC c (sxS i hi)) 1 ∅ 0 ∗ xPc m c i hi fullShare.left
                ∗ atPos ER (dmaC c (syS i hi)) 1 ∅ 0 ∗ oPc c i hi (col c) (col_lt c) (outAt m c) ∗ owes (c : Thread nD τ) 0 W')
            -∗ wp frame (wpE (defs₀ (F := F)) 𝒱₀ (c : Thread nD τ) none) Set.univ k Q)
          -∗ wp frame (wpE (defs₀ (F := F)) 𝒱₀ (c : Thread nD τ) none) Set.univ (stepEg oB i hi k) Q) := by
  subst hB
  unfold stepEg
  iintro ⟨#HR, Hc1, Hat1, Hc2, Hat2, HO⟩ Hk
  iapply (Rounds.wp_wait_rest_token 𝒱₀ ER (Rd m) (c : Thread nD τ) none (κ := K (c, kSx i hi))
      (wpE_waitDma2_eq 𝒱₀ (c : Thread nD τ) none Set.univ) (Set.mem_univ _) () (O := 0) (W := W) (R := 0) (m := 0) (T := ∅)
      (by rw [Nat.zero_add, expect_dma m c _ (scr_sx i hi)]; exact credit_chunk_x i hi)) $$ [Hc1 HO Hat1]
  · isplitr; · iapply (inv_at m K (c, kSx i hi)); iexact HR
    isplitl [Hc1]
    · iapply (Entails.of_eq (show (cred (tallyAt (dmaC c (sxS i hi)) () 4096) : sProp 𝕄)
        = cred (tallyAt (dmaC c (sxS i hi)) () (xP i hi).view.dmaCredit) from by rw [credit_chunk_x])); iexact Hc1
    isplitl [HO]; · iexact HO
    isplitr; · rw [MayWait_zero]; iempintro
    iexact Hat1
  iintro ⟨HO, Hat1, -, Hpay⟩
  ihave Hx := (Entails.of_eq ((rest_dma m c _ (scr_sx i hi)).trans (payload_sx m c i hi false))) $$ Hpay
  iapply (Rounds.wp_wait_rest_token 𝒱₀ ER (Rd m) (c : Thread nD τ) none (κ := K (c, kSy i hi))
      (wpE_waitDma2_eq 𝒱₀ (c : Thread nD τ) none Set.univ) (Set.mem_univ _) () (O := 0) (W := insert (SemLoc.dma (sxS i hi), ()) W) (R := 0) (m := 0) (T := ∅)
      (by rw [Nat.zero_add, expect_dma m c _ (scr_sy i hi)]; exact credit_chunk_o i hi (col c) (col_lt c))) $$ [Hc2 HO Hat2]
  · isplitr; · iapply (inv_at m K (c, kSy i hi)); iexact HR
    isplitl [Hc2]
    · iapply (Entails.of_eq (show (cred (tallyAt (dmaC c (syS i hi)) () 4096) : sProp 𝕄)
        = cred (tallyAt (dmaC c (syS i hi)) () (oP i hi (col c) (col_lt c)).view.dmaCredit) from by rw [credit_chunk_o])); iexact Hc2
    isplitl [HO]; · iexact HO
    isplitr; · rw [MayWait_zero]; iempintro
    iexact Hat2
  iintro ⟨HO, Hat2, -, Hpay⟩
  ihave Ho := (Entails.of_eq ((rest_dma m c _ (scr_sy i hi)).trans (payload_sy m c i hi false))) $$ Hpay
  unfold sxPay syPay
  iapply Hk
  iexists _
  isplitl [Hat1]; · iexact Hat1
  isplitl [Hx]; · iexact Hx
  isplitl [Hat2]; · iexact Hat2
  isplitl [Ho] <;> iassumption

def needE (c : Dev nD) (i : ℕ) : sProp 𝕄 :=
  bigSep (Finset.Ico i 16) fun k => iprop(fCred c sxS k ∗ fPos c sxS 0 k ∗ fCred c syS k ∗ fPos c syS 0 k)
def doneE (c : Dev nD) (i : ℕ) : sProp 𝕄 :=
  bigSep (Finset.range i) fun k => iprop(fPos c sxS 1 k ∗ fX m c fullShare.left k ∗ fPos c syS 1 k ∗ fOat m c (col c) (col_lt c) k)

theorem run_E (c : Dev nD) (rest : PU F) (Q : PUnit → sProp 𝕄) :
    ∀ (n i : ℕ) (h : n ≤ 16), i + n = 16 →
    iprop(records m K ∗ needE c i ∗ doneE m c i ∗ (∃ W, owes (c : Thread nD τ) 0 W))
      ⊢ iprop(((doneE m c 16 ∗ ∃ W, owes (c : Thread nD τ) 0 W) -∗ wp frame (wpE (defs₀ (F := F)) 𝒱₀ (c : Thread nD τ) none) Set.univ rest Q)
          -∗ wp frame (wpE (defs₀ (F := F)) 𝒱₀ (c : Thread nD τ) none) Set.univ (run (stepE c) rest n h) Q) := by
  intro n
  induction n with
  | zero =>
    intro i h hin
    have hi : i = 16 := by omega
    subst hi
    show _ ⊢ iprop(_ -∗ wp frame _ Set.univ rest Q)
    iintro ⟨-, -, HD, HO⟩ Hk
    iapply Hk
    isplitl [HD] <;> iassumption
  | succ n ih =>
    intro i h hin
    have hi : i < 16 := by omega
    have hi' : 16 - (n + 1) = i := by omega
    have hstep : ∀ (j : ℕ) (hj : j < 16), j = i → stepE (F := F) c j hj (run (stepE c) rest n (by omega)) = stepE c i hi (run (stepE c) rest n (by omega)) := by
      intro j hj e; subst e; rfl
    have hprog : run (stepE (F := F) c) rest (n + 1) h = stepE c i hi (run (stepE c) rest n (by omega)) := hstep (16 - (n + 1)) (by omega) hi'
    rw [hprog, stepE_eq]
    unfold needE
    rw [Ring.bigSep_Ico_succ hi]
    unfold fCred fPos
    rw [dif_pos hi, dif_pos hi, dif_pos hi, dif_pos hi]
    iintro ⟨#HR, HN, HD, ⟨%W, HO⟩⟩ Hk
    icases HN with ⟨⟨Hc1, Hat1, Hc2, Hat2⟩, HN⟩
    iapply (wp_stepEg m K c i hi (offB c i) (offB_eq c i hi) _ Q W) $$ [Hc1 Hat1 Hc2 Hat2 HO]
    · isplitr; · iexact HR
      isplitl [Hc1]; · iexact Hc1
      isplitl [Hat1]; · iexact Hat1
      isplitl [Hc2]; · iexact Hc2
      isplitl [Hat2] <;> iassumption
    iintro ⟨%W', Hat1, Hx, Hat2, Ho, HO⟩
    iapply (ih (i + 1) _ (by omega)) $$ [HN HD Hat1 Hx Hat2 Ho HO]
    · isplitr; · iexact HR
      isplitl [HN]; · unfold needE; iexact HN
      isplitl [HD Hat1 Hx Hat2 Ho]
      · unfold doneE; rw [Ring.bigSep_range_succ]; unfold fPos fX fOat; rw [dif_pos hi, dif_pos hi, dif_pos hi, dif_pos hi]
        isplitl [Hat1 Hx Hat2 Ho]
        · isplitl [Hat1]; · iexact Hat1
          isplitl [Hx]; · iexact Hx
          isplitl [Hat2] <;> iassumption
        iexact HD
      iexists W'; iexact HO
    iexact Hk

end StepDE

end Cert.Kernel.Proto

end
-- ==== Proof.Kernel.BodyDefs.lean ====
/-
  One device's body, from what the launch hands it to what it hands back.  In: the ghost state of the protocol, the
  credit for the units its cells will receive, the three buffers.  The buffers are cut into chunks; the landing
  buffer and the other half of the result's columns go to the two neighbours with the handshake's signals, and
  theirs arrive with the wait; the four runs follow; at the end every cell of the device's own is closed at zero
  and the chunks are put together again: the input as it was, the landing buffer full of the neighbour's rows, the
  result buffer holding the sums.
-/
import proofs.«900315_g7700000000000316_dist_rsx_agy_m1024_n512_v7x_xy2x2_f32_1_alg».proof.Proof.Kernel.StepDE

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- a family over the numbers below sixteen -/
abbrev R16 (A : ℕ → sProp 𝕄) : sProp 𝕄 := bigSep (Finset.range 16) A

def fZero (c : Dev nD) (S : Fam) (k : ℕ) : sProp 𝕄 := if hk : k < 16 then semVal (dmaC c (S k hk)) 0 else iprop(emp)

/-! ## What a device starts from and ends with -/

def ghost (K : Dev nD × CK → ℕ) (c : Dev nD) : sProp 𝕄 :=
  iprop(records m K
    ∗ atPos ER (barC c) 0 ∅ 0
    ∗ R16 (fun k => iprop(fPos c sxS 0 k ∗ fPos c rxS 0 k ∗ fPos c syS 0 k ∗ fPos c ryS 0 k))
    ∗ dutyTok ER (barC (xp c)) 0 false ∗ dutyTok ER (barC (yp c)) 0 true
    ∗ R16 (fun k => iprop(fTok c sxS k ∗ fTok (xp c) rxS k ∗ fTok c syS k ∗ fTok (yp c) ryS k)))

def start (c : Dev nD) : sProp 𝕄 :=
  iprop((∃ K, ghost m K c) ∗ cred (tallyAt (barC c) () 2) ∗ R16 (fun k => iprop(fCred c rxS k ∗ fCred c ryS k)) ∗ levAts L lv)

def scrPts (c : Dev nD) (f : (cc0_scratch0 : Ref sig .tc).ty.Contents (Elt F)) : sProp 𝕄 := ((c : Thread nD τ).loc cc0_scratch0) ↦{fullShare} f

def Φ₀ (c : Dev nD) : sProp 𝕄 := iprop(start m c ∗ ∃ f, scrPts c f)
def zeros (c : Dev nD) : sProp 𝕄 := iprop(R16 (fZero c sxS) ∗ R16 (fZero c rxS) ∗ R16 (fZero c syS) ∗ R16 (fZero c ryS))
def Φ₁ (c : Dev nD) : sProp 𝕄 := iprop(scrPts c (rAt m c) ∗ zeros c)

variable (ρ : Dev nD → PrngReg)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
theorem fetch_0 (t : Fin cfg0.N) : (cfg0.win (0 : Fin 2)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Families over the chunks, both ways of counting them -/

theorem fin16_fX (c : Dev nD) (q : PosShare TreeShare) :
    (bigSep (Finset.univ : Finset (Fin 16)) fun i => xPc m c i.val i.isLt q) = R16 (fX m c q) :=
  fin_eq_range _ _ fun t ht => by unfold fX; rw [dif_pos ht]
theorem fin16_fRany (d : Dev nD) :
    (bigSep (Finset.univ : Finset (Fin 16)) fun i => (iprop(∃ f, rPc d i.val i.isLt f) : sProp 𝕄)) = R16 (fRany d) :=
  fin_eq_range _ _ fun t ht => by unfold fRany; rw [dif_pos ht]
theorem fin16_fRat (c : Dev nD) :
    (bigSep (Finset.univ : Finset (Fin 16)) fun i => rPc c i.val i.isLt (rAt m c)) = R16 (fRat m c) :=
  fin_eq_range _ _ fun t ht => by unfold fRat; rw [dif_pos ht]
theorem fin16_fOany (d : Dev nD) (b : ℕ) (hb : b < 2) :
    (bigSep (Finset.univ : Finset (Fin 16)) fun i => (iprop(∃ f, oPc d i.val i.isLt b hb f) : sProp 𝕄)) = R16 (fOany d b hb) :=
  fin_eq_range _ _ fun t ht => by unfold fOany; rw [dif_pos ht]
theorem fin16_fOat (c : Dev nD) (b : ℕ) (hb : b < 2) :
    (bigSep (Finset.univ : Finset (Fin 16)) fun i => oPc c i.val i.isLt b hb (outAt m c)) = R16 (fOat m c b hb) :=
  fin_eq_range _ _ fun t ht => by unfold fOat; rw [dif_pos ht]

theorem some_chunks_r (d : Dev nD) (f : (cc0_scratch0 : Ref sig .tc).ty.Contents (Elt F)) :
    (bigSep (Finset.univ : Finset (Fin 16)) fun i => rPc d i.val i.isLt f) ⊢ (R16 (fRany d) : sProp 𝕄) := by
  rw [← fin16_fRany]
  exact bigSep_mono fun i _ => show (rPc d i.val i.isLt f : sProp 𝕄) ⊢ iprop(∃ f, rPc d i.val i.isLt f) from by iintro H; iexists f; iexact H
theorem some_chunks_o (d : Dev nD) (b : ℕ) (hb : b < 2) (f : (cc0_stg1_0 : Ref sig .tc).ty.Contents (Elt F)) :
    (bigSep (Finset.univ : Finset (Fin 16)) fun i => oPc d i.val i.isLt b hb f) ⊢ (R16 (fOany d b hb) : sProp 𝕄) := by
  rw [← fin16_fOany]
  exact bigSep_mono fun i _ => show (oPc d i.val i.isLt b hb f : sProp 𝕄) ⊢ iprop(∃ f, oPc d i.val i.isLt b hb f) from by iintro H; iexists f; iexact H

/-- The handshake's payloads are the neighbours' chunks. -/
theorem barPayX_eq (c : Dev nD) : (barPayX c : sProp 𝕄) = R16 (fRany (xp c)) := by unfold barPayX; exact fin16_fRany (xp c)
theorem barPayY_eq (c : Dev nD) : (barPayY c : sProp 𝕄) = R16 (fOany (yp c) (col c) (col_lt c)) := by unfold barPayY; exact fin16_fOany (yp c) (col c) (col_lt c)
theorem fOany_congr (d : Dev nD) {b b' : ℕ} (e : b = b') (hb : b < 2) (hb' : b' < 2) : (fOany (F := F) d b hb) = fOany d b' hb' := by subst e; rfl

/-! ## Closing a family of cells -/

section Close
variable (K : Dev nD × CK → ℕ)

theorem close_fam (c : Dev nD) (S : Fam) (κ : (k : ℕ) → k < 16 → ℕ) (hS : ∀ k hk, 2 ≤ (S k hk).val)
    (hinv : ∀ k hk, records m K ⊢ cellInv ER (Rd m) (κ k hk) (dmaC c (S k hk))) :
    iprop(records m K ∗ R16 (fPos c S 1)) ⊢ (|={Set.univ}=> R16 (fZero c S) : sProp 𝕄) := by
  refine (bigSep_with_persistent (R := records m K) (Ψ := fun k => iprop(|={Set.univ}=> fZero c S k)) fun k _ => ?_).trans (bigSep_fupd _ _)
  unfold fPos fZero
  by_cases hk : k < 16
  · rw [dif_pos hk, dif_pos hk]
    iintro ⟨#HR, Hat⟩
    iapply (Rounds.cell_close ER (Rd m) (Set.mem_univ (κ k hk)) (fun h => h) (R := 0 + 1) (duties_later m (dmaC c (S k hk))))
    isplitr; · iapply (hinv k hk); iexact HR
    iexact Hat
  · rw [dif_neg hk, dif_neg hk]
    iintro ⟨-, H⟩; imodintro; iexact H

end Close

end Cert.Kernel.Proto

end
-- ==== Proof.Kernel.Body.lean ====
/-
  The body of one device, whole: the handshake, the four runs, the cells closed, the buffers put together again.
-/
import proofs.«900315_g7700000000000316_dist_rsx_agy_m1024_n512_v7x_xy2x2_f32_1_alg».proof.Proof.Kernel.BodyDefs

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body
variable (K : Dev nD × CK → ℕ)

def bodyPre (c : Dev nD) : sProp 𝕄 :=
  iprop((ghost m K c ∗ cred (tallyAt (barC c) () 2) ∗ R16 (fun k => iprop(fCred c rxS k ∗ fCred c ryS k)) ∗ levAts L lv ∗ ∃ f, scrPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outAt m c))

set_option maxHeartbeats 4000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body xM (Memref.isWhole_whole _) oM (Memref.isWhole_whole _) rM (Memref.isWhole_whole _) cc0_scratch1 cc0_scratch2 cc0_scratch3 cc0_scratch4) Kt := by
  rw [body_eq]
  simp only [wp_deviceId]
  show _ ⊢ wp frame _ Set.univ (bodyFrom c) Kt
  unfold bodyFrom
  rw [dev1_eq c, dev2_eq c]
  unfold bodyPre ghost
  simp only [bigSep_sep']
  iintro ⟨⟨⟨⟨#HR, HatB, ⟨HpSx, HpRx, HpSy, HpRy⟩, HtX, HtY, ⟨HtSx, HtRx, HtSy, HtRy⟩⟩, HcB, ⟨HcRx, HcRy⟩, #Hlev, ⟨%fs, Hscr⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  -- the buffers, chunk by chunk
  unfold scrPts
  ihave Hscr := (Entails.of_eq (scr_chunks c fs)) $$ Hscr
  ihave Hscr := (some_chunks_r c fs) $$ Hscr
  ihave Hout := (out_halves c g1).1 $$ Hout
  icases Hout with ⟨HoutM, HoutO⟩
  ihave HoutM := (some_chunks_o c (col c) (col_lt c) g1) $$ HoutM
  ihave HoutO := (some_chunks_o c (col (yp c)) (col_lt _) g1) $$ HoutO
  ihave Hx := (pointsTo_share (PosShare.mem_left_op_right fullShare)).1 $$ Hx
  icases Hx with ⟨HxL, HxR⟩
  ihave HxL := (Entails.of_eq ((x_chunks m c fullShare.left).trans (fin16_fX m c fullShare.left))) $$ HxL
  ihave HxR := (Entails.of_eq ((x_chunks m c fullShare.right).trans (fin16_fX m c fullShare.right))) $$ HxR
  -- the first signal, to the first-axis neighbour: the landing buffer goes with it
  unfold O₀
  iapply (Rounds.wp_signal 𝒱₀ ER (Rd m) (c : Thread nD τ) none (dst := (xp c : Thread nD τ)) (κ := K (xp c, kBar))
      (d := false) (by rw [duties_bar]; exact Finset.mem_univ _) (amount_bar m (xp c) false) () (O₁ c + tallyAt (barC (yp c)) () 1) rfl)
    $$ [HO HtX Hscr]
  · isplitr; · iapply (inv_at m K (xp c, kBar)); iexact HR
    isplitl [HO]; · iexact HO
    isplitl [HtX]; · iexact HtX
    isplitl [Hscr]; · rw [payload_bar_false, barPayX_eq, xp_xp]; iexact Hscr
    iapply (reached_at m K (xp c, kBar)); iexact HR
  iintro HO
  -- the second, to the second-axis neighbour: the other half of the result's columns goes with it
  iapply (Rounds.wp_signal 𝒱₀ ER (Rd m) (c : Thread nD τ) none (dst := (yp c : Thread nD τ)) (κ := K (yp c, kBar))
      (d := true) (by rw [duties_bar]; exact Finset.mem_univ _) (amount_bar m (yp c) true) () (O₁ c) rfl)
    $$ [HO HtY HoutO]
  · isplitr; · iapply (inv_at m K (yp c, kBar)); iexact HR
    isplitl [HO]; · iexact HO
    isplitl [HtY]; · iexact HtY
    isplitl [HoutO]; · rw [payload_bar_true, barPayY_eq, yp_yp]; iexact HoutO
    iapply (reached_at m K (yp c, kBar)); iexact HR
  iintro HO
  -- the wait for both neighbours: their buffers come with it
  iapply (Rounds.wp_wait_rest_token 𝒱₀ ER (Rd m) (c : Thread nD τ) none (κ := K (c, kBar))
      (wpE_semWait_eq 𝒱₀ (c : Thread nD τ) none Set.univ) (Set.mem_univ _) () (O := O₁ c) (W := W) (R := 0) (m := 0) (T := ∅)
      (by rw [expect_bar])) $$ [HcB HO HatB]
  · isplitr; · iapply (inv_at m K (c, kBar)); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  rw [barPayX_eq, barPayY_eq]
  icases Hp with ⟨HrN, HoN⟩
  -- the sixteen first-axis transfers
  unfold O₁
  iapply (run_B m K c (oweY c 0) _ _ _ 16 0 le_rfl rfl) $$ [HxL HrN HtSx HtRx HO]
  · unfold needB doneB
    rw [← Finset.range_eq_Ico, Finset.range_zero, bigSep_empty]
    simp only [bigSep_sep']
    isplitr; · iexact HR
    isplitl [HxL HrN HtSx HtRx]
    · isplitl [HxL]; · iexact HxL
      isplitl [HrN]; · iexact HrN
      isplitl [HtSx] <;> iassumption
    isplitr; · iempintro
    iexact HO
  iintro ⟨HcSx, HO⟩
  -- the sixteen rounds of wait, add, store, forward
  iapply (run_C m K c _ _ 16 0 le_rfl rfl) $$ [HcRx HpRx HxR HoutM HoN HtSy HtRy HO]
  · unfold needC doneC
    rw [← Finset.range_eq_Ico, Finset.range_zero, bigSep_empty]
    simp only [bigSep_sep']
    isplitr; · iexact HR
    isplitr; · iexact Hlev
    isplitl [HcRx HpRx HxR HoutM HoN HtSy HtRy]
    · isplitl [HcRx]; · iexact HcRx
      isplitl [HpRx]; · iexact HpRx
      isplitl [HxR]; · iexact HxR
      isplitl [HoutM]; · iexact HoutM
      isplitl [HoN]; · iexact HoN
      isplitl [HtSy] <;> iassumption
    isplitr; · iempintro
    iexists _; iexact HO
  unfold doneC
  simp only [bigSep_sep']
  iintro ⟨⟨HcSy, HpRx1, HxR, HrAt⟩, ⟨%W2, HO⟩⟩
  -- the sixteen waits for the neighbour's chunks
  iapply (run_D m K c _ _ 16 0 le_rfl rfl) $$ [HcRy HpRy HO]
  · unfold needD doneD
    rw [← Finset.range_eq_Ico, Finset.range_zero, bigSep_empty]
    simp only [bigSep_sep']
    isplitr; · iexact HR
    isplitl [HcRy HpRy]
    · isplitl [HcRy] <;> iassumption
    isplitr; · iempintro
    iexists _; iexact HO
  unfold doneD
  simp only [bigSep_sep']
  iintro ⟨⟨HpRy1, HoY⟩, ⟨%W3, HO⟩⟩
  -- the thirty-two waits for the departures
  unfold doneB
  iapply (run_E m K c _ _ 16 0 le_rfl rfl) $$ [HcSx HpSx HcSy HpSy HO]
  · unfold needE doneE
    rw [← Finset.range_eq_Ico, Finset.range_zero, bigSep_empty]
    simp only [bigSep_sep']
    isplitr; · iexact HR
    isplitl [HcSx HpSx HcSy HpSy]
    · isplitl [HcSx]; · iexact HcSx
      isplitl [HpSx]; · iexact HpSx
      isplitl [HcSy] <;> iassumption
    isplitr; · iempintro
    iexists _; iexact HO
  unfold doneE
  simp only [bigSep_sep']
  iintro ⟨⟨HpSx1, HxL, HpSy1, HoS⟩, ⟨%W4, HO⟩⟩
  -- every own cell closes at zero
  imod (close_fam m K c sxS (fun k hk => K (c, kSx k hk)) scr_sx (fun k hk => inv_at m K (c, kSx k hk))) $$ [HpSx1] with HzSx
  · isplitr; · iexact HR
    iexact HpSx1
  imod (close_fam m K c rxS (fun k hk => K (c, kRx k hk)) scr_rx (fun k hk => inv_at m K (c, kRx k hk))) $$ [HpRx1] with HzRx
  · isplitr; · iexact HR
    iexact HpRx1
  imod (close_fam m K c syS (fun k hk => K (c, kSy k hk)) scr_sy (fun k hk => inv_at m K (c, kSy k hk))) $$ [HpSy1] with HzSy
  · isplitr; · iexact HR
    iexact HpSy1
  imod (close_fam m K c ryS (fun k hk => K (c, kRy k hk)) scr_ry (fun k hk => inv_at m K (c, kRy k hk))) $$ [HpRy1] with HzRy
  · isplitr; · iexact HR
    iexact HpRy1
  rw [wp_ret]; imodintro
  iapply Hk
  unfold bodyPost Φ₁ zeros scrPts Dat.owesAt Pipeline.owesWithin
  rw [show (dats m 0 c).owed t₀.succ = 0 from rfl]
  isplitl [HrAt HzSx HzRx HzSy HzRy]
  · isplitl [HrAt]
    · iapply (Entails.of_eq ((scr_chunks c (rAt m c)).trans (fin16_fRat m c)).symm); iexact HrAt
    isplitl [HzSx]; · iexact HzSx
    isplitl [HzRx]; · iexact HzRx
    isplitl [HzSy] <;> iassumption
  isplitl [HO]
  · iexists W4
    isplitr; · ipureintro; exact fun _ _ => Or.inl trivial
    iexact HO
  isplitl [HxL HxR]
  · iexists _; isplitr; · (ipureintro; rfl)
    iapply (pointsTo_share (PosShare.mem_left_op_right fullShare)).2
    isplitl [HxL]
    · iapply (Entails.of_eq ((x_chunks m c fullShare.left).trans (fin16_fX m c fullShare.left)).symm); iexact HxL
    · iapply (Entails.of_eq ((x_chunks m c fullShare.right).trans (fin16_fX m c fullShare.right)).symm); iexact HxR
  iexists _; isplitr; · (ipureintro; rfl)
  iapply (out_halves c (outAt m c)).2
  isplitl [HoS]
  · iapply (Entails.of_eq (fin16_fOat m c (col c) (col_lt c)).symm); iexact HoS
  · iapply (Entails.of_eq (fin16_fOat m c (col (yp c)) (col_lt _)).symm); iexact HoY

set_option maxRecDepth 65536 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body xM (Memref.isWhole_whole _) oM (Memref.isWhole_whole _) rM (Memref.isWhole_whole _) cc0_scratch1 cc0_scratch2 cc0_scratch3 cc0_scratch4)
    (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.Kernel.Proto

end
-- ==== Proof.Kernel.Launch1.lean ====
/-
  The launch.  All devices' cells are funded under one update (the barrier semaphore is the runtime's, shared by the
  three devices that touch it), their invariants allocated and named, the duty tokens dealt to the devices that
  pay them (a barrier's `false` token and a first-axis receive token to the first-axis neighbour, a barrier's
  `true` token and a second-axis receive token to the second-axis neighbour, the send tokens to the device
  itself), and the launch credit read off what every device owes.  Then every fair execution of all four devices
  terminates with each result buffer holding the sums and the argument unchanged.
-/
import proofs.«900315_g7700000000000316_dist_rsx_agy_m1024_n512_v7x_xy2x2_f32_1_alg».proof.Proof.Kernel.Body

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

def s₀ : MemSt nD τ sig (Elt F) := ⟨m, fun _ => 0, ρ⟩

/-! ## The cells and tokens, enumerated -/

theorem dsem_val : ∀ (k : Fin 4) (i : Fin 16), (dsem k i).val = 2 + 16 * k.val + i.val := by decide

theorem csem_injective : Function.Injective csem := by
  rintro (_ | ⟨k, i⟩) (_ | ⟨k', i'⟩) h
  · rfl
  · exact absurd h (fun h' => by cases h')
  · exact absurd h (fun h' => by cases h')
  · have h1 : dsem k i = dsem k' i' := by injection h
    have h2 := congrArg Fin.val h1
    rw [dsem_val, dsem_val] at h2
    have hk : k = k' := Fin.ext (by have := i.isLt; have := i'.isLt; omega)
    have hi : i = i' := Fin.ext (by have := i.isLt; have := i'.isLt; subst hk; omega)
    rw [hk, hi]

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def allCells : Finset (GSem nD τ sig) := Finset.univ.map ⟨kcell, kcell_injective⟩

/-- the duties of a device's cells: its barrier's two, each DMA cell's one -/
abbrev TK : Type := Bool ⊕ (Fin 4 × Fin 16)
def tokOf (ct : Dev nD × TK) : GSem nD τ sig × ℕ × Bool := match ct.2 with
  | .inl d => (barC ct.1, 0, d)
  | .inr (k, i) => (dmaC ct.1 (dsem k i), 0, false)
theorem tokOf_injective : Function.Injective (tokOf : Dev nD × TK → GSem nD τ sig × ℕ × Bool) := by
  rintro ⟨c, t⟩ ⟨c', t'⟩ h
  have h1 : c = c' := by
    have := congrArg (fun x : GSem nD τ sig × ℕ × Bool => x.1.1.1) h
    rcases t with d | ⟨k, i⟩ <;> rcases t' with d' | ⟨k', i'⟩ <;> exact this
  subst h1
  rcases t with d | ⟨k, i⟩ <;> rcases t' with d' | ⟨k', i'⟩
  · have : d = d' := congrArg (fun x : GSem nD τ sig × ℕ × Bool => x.2.2) h
    rw [this]
  · exact absurd (congrArg (fun x : GSem nD τ sig × ℕ × Bool => x.1.2) h) (fun h' => by cases h')
  · exact absurd (congrArg (fun x : GSem nD τ sig × ℕ × Bool => x.1.2) h) (fun h' => by cases h')
  · have h2 : csem (.inr (k, i)) = csem (.inr (k', i')) := congrArg (fun x : GSem nD τ sig × ℕ × Bool => x.1.2) h
    have e2 : (k, i) = (k', i') := Sum.inr.inj (csem_injective h2)
    rw [e2]
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of device `c`'s own cells, as minted. -/
def toks (c : Dev nD) : sProp 𝕄 := bigSep Finset.univ fun t : TK => dutyTok ER (tokOf (c, t)).1 (tokOf (c, t)).2.1 (tokOf (c, t)).2.2

/-- What the launch element deals device `c`; what the global step makes of it. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)
def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores the launch hands over -/

/-- The kernel's own (scoped) semaphores, as the launch theorem indexes them. -/
abbrev osem : Fin 4 × Fin 16 → SemLoc sig := fun p => .dma (dsem p.1 p.2)

theorem ownSemFacts : Pipeline.OwnSemFacts cfg0.spec osem := by decide

theorem share_eq (c : Dev nD) (w : Fin cfg0.W) : (dats m 0 c).share w = fullShare := by unfold Dat.share; split <;> rfl

theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  have e : (bigSep Finset.univ fun k : CK => semVal (kcell (c, k)) 0 : sProp 𝕄)
      = iprop(semVal (barC c) 0 ∗ bigSep Finset.univ fun p : Fin 4 × Fin 16 => semVal (((c : Dev nD).tc : Thread nD τ), osem p) 0) := by
    rw [bigSep_univ_sum, bigSep_univ_of_subsingleton ()]; rfl
  rw [unscopedSems0_eq, e]
  unfold Pipeline.ownSems0
  iintro ⟨HS, HB⟩
  isplitl [HB]
  · iexact HB
  · iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

end Cert.Kernel.Proto

end
-- ==== Proof.Kernel.Launch2.lean ====
/-
  The launch, continued: the tokens dealt to their payers, the names chosen, the launch credit, the run.
-/
import proofs.«900315_g7700000000000316_dist_rsx_agy_m1024_n512_v7x_xy2x2_f32_1_alg».proof.Proof.Kernel.Launch1

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## Four families of sixteen -/

theorem fam_split (Φ : Fin 4 × Fin 16 → sProp 𝕄) (A B C D : ℕ → sProp 𝕄)
    (hA : ∀ (t : ℕ) (ht : t < 16), A t = Φ (0, ⟨t, ht⟩)) (hB : ∀ (t : ℕ) (ht : t < 16), B t = Φ (1, ⟨t, ht⟩))
    (hC : ∀ (t : ℕ) (ht : t < 16), C t = Φ (2, ⟨t, ht⟩)) (hD : ∀ (t : ℕ) (ht : t < 16), D t = Φ (3, ⟨t, ht⟩)) :
    bigSep Finset.univ Φ = R16 (fun k => iprop(A k ∗ B k ∗ C k ∗ D k)) := by
  rw [bigSep_univ_prod, bigSep_univ_eq_bigSepL [(0 : Fin 4), 1, 2, 3] (by decide) (by decide), bigSepL_cons, bigSepL_cons, bigSepL_cons_cons, bigSepL_singleton,
    fin_eq_range (fun i : Fin 16 => Φ (0, i)) A hA, fin_eq_range (fun i : Fin 16 => Φ (1, i)) B hB,
    fin_eq_range (fun i : Fin 16 => Φ (2, i)) C hC, fin_eq_range (fun i : Fin 16 => Φ (3, i)) D hD]
  unfold R16
  rw [bigSep_sep', bigSep_sep', bigSep_sep']
  rfl

theorem pos_eq (c : Dev nD) :
    (bigSep Finset.univ fun k : CK => (atPos ER (kcell (c, k)) 0 ∅ 0 : sProp 𝕄))
      = iprop(atPos ER (barC c) 0 ∅ 0 ∗ R16 (fun k => iprop(fPos c sxS 0 k ∗ fPos c rxS 0 k ∗ fPos c syS 0 k ∗ fPos c ryS 0 k))) := by
  rw [bigSep_univ_sum, bigSep_univ_of_subsingleton (),
    fam_split (fun p : Fin 4 × Fin 16 => (atPos ER (kcell (c, Sum.inr p)) 0 ∅ 0 : sProp 𝕄)) (fPos c sxS 0) (fPos c rxS 0) (fPos c syS 0) (fPos c ryS 0)
      (fun t ht => by unfold fPos; rw [dif_pos ht]; rfl) (fun t ht => by unfold fPos; rw [dif_pos ht]; rfl)
      (fun t ht => by unfold fPos; rw [dif_pos ht]; rfl) (fun t ht => by unfold fPos; rw [dif_pos ht]; rfl)]
  rfl

theorem toks_eq (c : Dev nD) :
    (toks c : sProp 𝕄) = iprop((dutyTok ER (barC c) 0 false ∗ dutyTok ER (barC c) 0 true)
      ∗ R16 (fun k => iprop(fTok c sxS k ∗ fTok c rxS k ∗ fTok c syS k ∗ fTok c ryS k))) := by
  unfold toks
  rw [bigSep_univ_sum, bigSep_univ_eq_bigSepL [false, true] (by decide) (by decide), bigSepL_cons_cons, bigSepL_singleton,
    fam_split (fun p : Fin 4 × Fin 16 => (dutyTok ER (tokOf (c, Sum.inr p)).1 (tokOf (c, Sum.inr p)).2.1 (tokOf (c, Sum.inr p)).2.2 : sProp 𝕄))
      (fTok c sxS) (fTok c rxS) (fTok c syS) (fTok c ryS)
      (fun t ht => by unfold fTok; rw [dif_pos ht]; rfl) (fun t ht => by unfold fTok; rw [dif_pos ht]; rfl)
      (fun t ht => by unfold fTok; rw [dif_pos ht]; rfl) (fun t ht => by unfold fTok; rw [dif_pos ht]; rfl)]
  rfl

/-! ## The tokens go to their payers -/

def payToks (c : Dev nD) : sProp 𝕄 :=
  iprop((dutyTok ER (barC (xp c)) 0 false ∗ dutyTok ER (barC (yp c)) 0 true)
    ∗ R16 (fun k => iprop(fTok c sxS k ∗ fTok (xp c) rxS k ∗ fTok c syS k ∗ fTok (yp c) ryS k)))

theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks R16
  simp only [bigSep_sep']
  rw [bigSep_univ_equiv xswap (fun c : Dev nD => (dutyTok ER (barC c) 0 false : sProp 𝕄)),
    bigSep_univ_equiv yswap (fun c : Dev nD => (dutyTok ER (barC c) 0 true : sProp 𝕄)),
    bigSep_univ_equiv xswap (fun c : Dev nD => (bigSep (Finset.range 16) (fTok c rxS) : sProp 𝕄)),
    bigSep_univ_equiv yswap (fun c : Dev nD => (bigSep (Finset.range 16) (fTok c ryS) : sProp 𝕄))]
  exact BI.Entails.refl _

/-! ## The names; the ghost state of each device -/

def linear (c : Dev nD) : sProp 𝕄 :=
  iprop((atPos ER (barC c) 0 ∅ 0 ∗ R16 (fun k => iprop(fPos c sxS 0 k ∗ fPos c rxS 0 k ∗ fPos c syS 0 k ∗ fPos c ryS 0 k))) ∗ payToks c)

theorem ghost_intro (K : Dev nD × CK → ℕ) (c : Dev nD) : iprop(records m K ∗ linear c) ⊢ G' m c := by
  unfold linear payToks G' ghost
  iintro ⟨#HR, ⟨HaB, Hpos⟩, ⟨HtX, HtY⟩, Htok⟩
  iexists K
  isplitr; · iexact HR
  isplitl [HaB]; · iexact HaB
  isplitl [Hpos]; · iexact Hpos
  isplitl [HtX]; · iexact HtX
  isplitl [HtY] <;> iassumption

theorem regroup :
    (bigSep Finset.univ fun c : Dev nD => iprop((bigSep Finset.univ fun k => iprop(∃ κ : ℕ, cellInv ER (Rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HRe⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HRe
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq (by unfold linear; rw [pos_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.Kernel.Proto

end
-- ==== Proof.Kernel.Launch3.lean ====
/-
  The launch, concluded: the credit each device starts with, what the launch hands the body and takes back, and
  the run of all four devices.
-/
import proofs.«900315_g7700000000000316_dist_rsx_agy_m1024_n512_v7x_xy2x2_f32_1_alg».proof.Proof.Kernel.Launch2

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The launch credit -/

theorem cred_fam_x (c : Dev nD) :
    (Pipeline.launchCred (fun d => oweX d 0) c : sProp 𝕄) ⊢ R16 (fCred c rxS) := by
  unfold oweX R16
  rw [Pipeline.launchCred_sum (Finset.Ico 0 16) (fun k d => tRx d k) c, ← Finset.range_eq_Ico]
  refine bigSep_mono fun k _ => ?_
  unfold tRx fCred
  by_cases hk : k < 16
  · simp only [dif_pos hk]
    exact Pipeline.launchCred_tallyAt (.dma (rxS k hk)) xp xp xp_xp xp_xp () 4096 c
  · simp only [dif_neg hk]
    rw [Pipeline.launchCred_zero]
    exact BI.Entails.refl _
theorem cred_fam_y (c : Dev nD) :
    (Pipeline.launchCred (fun d => oweY d 0) c : sProp 𝕄) ⊢ R16 (fCred c ryS) := by
  unfold oweY R16
  rw [Pipeline.launchCred_sum (Finset.Ico 0 16) (fun k d => tRy d k) c, ← Finset.range_eq_Ico]
  refine bigSep_mono fun k _ => ?_
  unfold tRy fCred
  by_cases hk : k < 16
  · simp only [dif_pos hk]
    exact Pipeline.launchCred_tallyAt (.dma (ryS k hk)) yp yp yp_yp yp_yp () 4096 c
  · simp only [dif_neg hk]
    rw [Pipeline.launchCred_zero]
    exact BI.Entails.refl _

theorem creds (c : Dev nD) :
    (Pipeline.launchCred O₀ c : sProp 𝕄) ⊢ iprop(cred (tallyAt (barC c) () 2) ∗ R16 (fun k => iprop(fCred c rxS k ∗ fCred c ryS k))) := by
  have e : (O₀ : Dev nD → CellTallies nD τ sig Unit)
      = fun d => ((oweX d 0 + oweY d 0) + tallyAt (barC (yp d)) () 1) + tallyAt (barC (xp d)) () 1 := rfl
  rw [e, Pipeline.launchCred_add (fun d => (oweX d 0 + oweY d 0) + tallyAt (barC (yp d)) () 1) (fun d => tallyAt (barC (xp d)) () 1),
    Pipeline.launchCred_add (fun d => oweX d 0 + oweY d 0) (fun d => tallyAt (barC (yp d)) () 1),
    Pipeline.launchCred_add (fun d => oweX d 0) (fun d => oweY d 0)]
  iintro ⟨⟨⟨HX, HY⟩, HbY⟩, HbX⟩
  ihave H1 := (Pipeline.launchCred_tallyAt (SemLoc.reg barS) xp xp xp_xp xp_xp () 1 c) $$ HbX
  ihave H2 := (Pipeline.launchCred_tallyAt (SemLoc.reg barS) yp yp yp_yp yp_yp () 1 c) $$ HbY
  ihave HX' := (cred_fam_x (F := F) c) $$ HX
  ihave HY' := (cred_fam_y (F := F) c) $$ HY
  isplitl [H1 H2]
  · rw [← tallyAt_add (barC c) () 1 1]
    iapply (cred_add _ _).2
    isplitl [H1] <;> iassumption
  · unfold R16; rw [bigSep_sep']
    isplitl [HX'] <;> iassumption

/-! ## What the launch hands the body, and takes back -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrPts
  iintro ⟨Hs, -, ⟨%f, Hr⟩⟩
  isplitl [Hs]; · iexact Hs
  iexists f; iexact Hr

theorem ownSems0_eq (c : Dev nD) :
    (Pipeline.ownSems0 (Ix := Unit) (Name := ℕ) (U := UU) (Lvl := ℕ) (Val := Elt F) (τ := τ) osem c : sProp 𝕄) = zeros c := by
  unfold Pipeline.ownSems0 zeros
  rw [fam_split (fun p : Fin 4 × Fin 16 => (semVal (((c : Dev nD).tc : Thread nD τ), osem p) 0 : sProp 𝕄)) (fZero c sxS) (fZero c rxS) (fZero c syS) (fZero c ryS)
      (fun t ht => by unfold fZero; rw [dif_pos ht]; rfl) (fun t ht => by unfold fZero; rw [dif_pos ht]; rfl)
      (fun t ht => by unfold fZero; rw [dif_pos ht]; rfl) (fun t ht => by unfold fZero; rw [dif_pos ht]; rfl)]
  unfold R16
  rw [bigSep_sep', bigSep_sep', bigSep_sep']

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁ scrPts
  iintro ⟨Hr, Hz⟩
  isplitr; · iempintro
  isplitl [Hz]; · iexact Hz
  iexists (rAt m c); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 32000 in
/-- On the mesh of four devices, at any float instance, from any memory with zero counters: every weakly fair
    execution of @main terminates, and every final state has each device's result array at the contents the proof
    data names and its argument array unchanged. -/
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The argument array after the run holds what it held; the result array holds the sums. -/
theorem finalA_x (c : Dev nD) : finalA m c (0 : Fin 2) = m (win0_0.arr.view.loc (c : Thread nD τ)) :=
  (dats (F := F) m 0 c).arrAt_in (0 : Fin 2) rfl _

end Cert.Kernel.Proto

end
-- ==== Proof.Kernel.Final.lean ====
/-
  The arrays after the run: the result array of each device is what its body left in the result's staging buffer,
  the argument array is untouched.
-/
import proofs.«900315_g7700000000000316_dist_rsx_agy_m1024_n512_v7x_xy2x2_f32_1_alg».proof.Proof.Kernel.Launch3
import Idealize.ShloMosaic.Lib.Pipeline.Value

set_option maxRecDepth 16384

noncomputable section

namespace Cert.Kernel.Proto

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem hz2 : (![0, 0] : Fin 2 → Nat) = fun _ => 0 := funext fun a => by fin_cases a <;> rfl

/-- The one block of the result window is the whole result array. -/
theorem final_out (c : Dev nD) : finalA m c (1 : Fin 2) = outAt m c := by
  unfold finalA
  refine (dats m 0 c).arrAt_eq_of_cover (1 : Fin 2) (outAt m c) (fun t _ => ?_) (fun i => ⟨t₀, flush0_1 t₀, ?_⟩)
  · rw [fin_N t]
    show outAt m c = ((View.whole main_v1).slice (win0_1.rect t₀)).read (Elt F) (outAt m c)
    exact (Memref.read_access_unit_zero (Elt F) main_v1 (funext fun a => by fin_cases a <;> rfl) _ (outAt m c)).symm
  · show i ∈ ((View.whole main_v1).slice (win0_1.rect t₀)).set
    rw [View.set_slice_whole]
    exact View.mem_set_unit_zero (funext fun a => by fin_cases a <;> rfl) _ i

/-- Every weakly fair execution of the four devices terminates with each result array holding the sums and each
    argument array unchanged. -/
theorem run_all (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = outAt m c
      ∧ r.2.mem ((c.tc : Thread nD τ).loc main_arg0) = m ((c.tc : Thread nD τ).loc main_arg0) :=
  (θ_run defs _ _).mono (fun _ h c => ⟨(h c 1).trans (final_out m c), (h c 0).trans (finalA_x m c)⟩) (run_main m ρ)

end Cert.Kernel.Proto

end
-- ==== Proof.KernelIdeal.Proto.lean ====
/-
  The protocol of the 2 × 2 all-reduce: every device first tells both its mesh neighbours that it is inside the
  kernel (one unit each on their barrier semaphore) and waits for their two units; then it sends its block, sixteen
  chunks of 64 rows, to the neighbour along the first mesh axis, adds what that neighbour sent chunk by chunk into
  its own half of the columns of the result, and forwards each finished chunk to the neighbour along the second
  axis, which writes the other half of the columns.  Stated here: the neighbours, the semaphores and their cells,
  the sixteen row chunks of each buffer, what each buffer holds at the end, and the rounds schedule (one round per
  cell) with its tables.
-/
import proofs.«900315_g7700000000000316_dist_rsx_agy_m1024_n512_v7x_xy2x2_f32_1_alg».proof.Proof.Gen.KernelIdeal
import proofs.«900315_g7700000000000316_dist_rsx_agy_m1024_n512_v7x_xy2x2_f32_1_alg».proof.Proof.Gen.KernelIdeal.Skeleton
import proofs.«900315_g7700000000000316_dist_rsx_agy_m1024_n512_v7x_xy2x2_f32_1_alg».proof.Proof.Gen.KernelIdeal.Launch
import proofs.«900315_g7700000000000316_dist_rsx_agy_m1024_n512_v7x_xy2x2_f32_1_alg».proof.Proof.Gen.KernelIdeal.Points
import proofs.«900315_g7700000000000316_dist_rsx_agy_m1024_n512_v7x_xy2x2_f32_1_alg».proof.Proof.Gen.KernelIdeal.Frame
import Idealize.ShloMosaic.Lib.Pipeline.Launch
import Idealize.ShloMosaic.Lib.Pipeline.Kit
import Idealize.ShloMosaic.Lib.Tactic
import Mathlib.Tactic.IntervalCases

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline's own copy (one duty a round) beside the protocol's (duties `Bool`) -/

abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The two neighbours of a device

Device `c` sits at row `c / 2`, column `c % 2` of the mesh. Its neighbour along the first axis is in the other
row and the same column, its neighbour along the second axis in the same row and the other column; both maps are
involutions. -/

def xp (c : Dev nD) : Dev nD := ⟨(c.val + 2) % 4, Nat.mod_lt _ (by decide)⟩
def yp (c : Dev nD) : Dev nD := ⟨c.val + 1 - 2 * (c.val % 2), by have h : c.val < 4 := c.isLt; show c.val + 1 - 2 * (c.val % 2) < 4; omega⟩

theorem xp_xp (c : Dev nD) : xp (xp c) = c := by revert c; decide
theorem yp_yp (c : Dev nD) : yp (yp c) = c := by revert c; decide
theorem xp_ne_yp (c : Dev nD) : xp c ≠ yp c := by revert c; decide
theorem xp_ne (c : Dev nD) : xp c ≠ c := by revert c; decide
theorem yp_ne (c : Dev nD) : yp c ≠ c := by revert c; decide
/-- the column of a device, and that the second-axis neighbour has the other one -/
def col (c : Dev nD) : ℕ := c.val % 2
theorem col_lt (c : Dev nD) : col c < 2 := Nat.mod_lt _ (by decide)
theorem col_xp (c : Dev nD) : col (xp c) = col c := by revert c; decide
theorem col_yp (c : Dev nD) : col (yp c) = 1 - col c := by revert c; decide

def xswap : Dev nD ≃ Dev nD := ⟨xp, xp, xp_xp, xp_xp⟩
def yswap : Dev nD ≃ Dev nD := ⟨yp, yp, yp_yp, yp_yp⟩

/-- What the kernel's printed device computations address: the two signals and the sixteen first-axis transfers name
    `xp c` (the first signal and the chains 3 to 18) and `yp c` (the second signal and the chains 19 to 34). -/
theorem devX_of {k : ℕ} {h : k < nD} (c : Dev nD) (e : k = ((c.val % 2) + 2) - 2 * (c.val / 2)) : (⟨k, h⟩ : Dev nD) = xp c := by
  subst e; revert c; decide
theorem devY_of {k : ℕ} {h : k < nD} (c : Dev nD) (e : k = (2 * (c.val / 2) + 1) - (c.val % 2)) : (⟨k, h⟩ : Dev nD) = yp c := by
  subst e; revert c; decide

/-! ## The semaphores and their cells -/

/-- The runtime's barrier semaphore of collective id 0. -/
abbrev barS : Sem sig := (SemArray.scalar (sig.barrier 0 rfl) : Sems sig S_).sem

theorem h16 (i : ℕ) (hi : i < 16) : ∀ a, (![i] : Fin 1 → Nat) a + S1.size a ≤ S16.size a := by
  interval_cases i <;> decide

/-- Semaphore `i` of one of the kernel's four arrays of sixteen DMA semaphores, as the body spells it. -/
def semAt (A : DmaSems sig S16) (i : ℕ) (hi : i < 16) : DmaSem sig :=
  ((A.slice (Rect.unit (s := S16) ![i] S1.size (h16 i hi))).squeeze S_ squeezes_S1_S_).sem

/-- first-axis send, first-axis receive, second-axis send, second-axis receive -/
abbrev sxS (i : ℕ) (hi : i < 16) : DmaSem sig := semAt cc0_scratch1 i hi
abbrev rxS (i : ℕ) (hi : i < 16) : DmaSem sig := semAt cc0_scratch2 i hi
abbrev syS (i : ℕ) (hi : i < 16) : DmaSem sig := semAt cc0_scratch3 i hi
abbrev ryS (i : ℕ) (hi : i < 16) : DmaSem sig := semAt cc0_scratch4 i hi

theorem sxS_valF : ∀ i : Fin 16, (sxS i.val i.isLt).val = 2 + i.val := by decide
theorem sxS_val (i : ℕ) (hi : i < 16) : (sxS i hi).val = 2 + i := sxS_valF ⟨i, hi⟩
theorem rxS_valF : ∀ i : Fin 16, (rxS i.val i.isLt).val = 18 + i.val := by decide
theorem rxS_val (i : ℕ) (hi : i < 16) : (rxS i hi).val = 18 + i := rxS_valF ⟨i, hi⟩
theorem syS_valF : ∀ i : Fin 16, (syS i.val i.isLt).val = 34 + i.val := by decide
theorem syS_val (i : ℕ) (hi : i < 16) : (syS i hi).val = 34 + i := syS_valF ⟨i, hi⟩
theorem ryS_valF : ∀ i : Fin 16, (ryS i.val i.isLt).val = 50 + i.val := by decide
theorem ryS_val (i : ℕ) (hi : i < 16) : (ryS i hi).val = 50 + i := ryS_valF ⟨i, hi⟩

abbrev barC (c : Dev nD) : GSem nD τ sig := ((c : Thread nD τ), .reg barS)
abbrev dmaC (c : Dev nD) (q : DmaSem sig) : GSem nD τ sig := ((c : Thread nD τ), .dma q)

/-- Which of the four families a scratch DMA semaphore (index 2 to 65) belongs to, and which chunk it serves. -/
def famOf (q : DmaSem sig) : ℕ := (q.val - 2) / 16
def chunkOf (q : DmaSem sig) : ℕ := (q.val - 2) % 16
theorem chunkOf_lt (q : DmaSem sig) : chunkOf q < 16 := Nat.mod_lt _ (by decide)

/-! ## The buffers and their sixteen chunks of 64 rows -/

abbrev xM : Memref sig .tc .vmem S1x1024x512 .f32 := Memref.whole cc0_stg0_0
abbrev oM : Memref sig .tc .vmem S1024x1024 .f32 := Memref.whole cc0_stg1_0
abbrev rM : Memref sig .tc .vmem S1024x512 .f32 := Memref.whole cc0_scratch0

theorem hxin (i : ℕ) (hi : i < 16) : ∀ a, (![0, 64 * i, 0] : Fin 3 → Nat) a + S1x64x512.size a ≤ S1x1024x512.size a := by
  interval_cases i <;> decide
theorem hrin (i : ℕ) (hi : i < 16) : ∀ a, (![64 * i, 0] : Fin 2 → Nat) a + S64x512.size a ≤ S1024x512.size a := by
  interval_cases i <;> decide
theorem hoin (i : ℕ) (hi : i < 16) (j : ℕ) (hj : j < 2) : ∀ a, (![64 * i, 512 * j] : Fin 2 → Nat) a + S64x512.size a ≤ S1024x1024.size a := by
  interval_cases i <;> interval_cases j <;> decide

/-- rows `64 i` to `64 i + 63` of the input block, of the landing buffer, and of one half of the columns of the result -/
abbrev xR (i : ℕ) (hi : i < 16) : Rect S1x1024x512 := Rect.unit (s := S1x1024x512) ![0, 64 * i, 0] S1x64x512.size (hxin i hi)
abbrev rR (i : ℕ) (hi : i < 16) : Rect S1024x512 := Rect.unit (s := S1024x512) ![64 * i, 0] S64x512.size (hrin i hi)
abbrev oR (i : ℕ) (hi : i < 16) (j : ℕ) (hj : j < 2) : Rect S1024x1024 := Rect.unit (s := S1024x1024) ![64 * i, 512 * j] S64x512.size (hoin i hi j hj)

abbrev xP (i : ℕ) (hi : i < 16) : Memref sig .tc .vmem S64x512 .f32 :=
  (xM.slice (xR i hi) (fun _ => rfl)).squeeze S64x512 squeezes_S1x64x512_S64x512
abbrev rP (i : ℕ) (hi : i < 16) : Memref sig .tc .vmem S64x512 .f32 := rM.slice (rR i hi) (fun _ => rfl)
abbrev oP (i : ℕ) (hi : i < 16) (j : ℕ) (hj : j < 2) : Memref sig .tc .vmem S64x512 .f32 := oM.slice (oR i hi j hj) (fun _ => rfl)

/-! ## What the buffers hold -/

/-- Device `c`'s input staging buffer: its block of the argument. -/
def xstg (c : Dev nD) : (cc0_stg0_0 : Ref sig .tc).ty.Contents (Elt F) :=
  (win0_0.blk (0 : Fin 1)).view.read (Elt F) (m ((c : Thread nD τ).loc main_arg0))

/-- Contents nobody reads: what a written chunk is laid over. -/
def junkR : (cc0_scratch0 : Ref sig .tc).ty.Contents (Elt F) := Classical.arbitrary _
def junkO : (cc0_stg1_0 : Ref sig .tc).ty.Contents (Elt F) := Classical.arbitrary _

/-- The landing buffer of device `c` once every chunk has arrived: row `r` holds row `r` of the first-axis
    neighbour's block, chunk by chunk as the transfers wrote it. -/
def rAt (c : Dev nD) : (cc0_scratch0 : Ref sig .tc).ty.Contents (Elt F) := fun j =>
  have hj : (j 0).val < 1024 := (j 0).isLt
  have hi : (j 0).val / 64 < 16 := by omega
  (rP ((j 0).val / 64) hi).view.write (Elt F) (junkR (F := F)) ((xP ((j 0).val / 64) hi).view.read (Elt F) (xstg m (xp c))) Finset.univ j

/-- Chunk `i` of the sum device `c` computes: its own rows plus the rows that landed. -/
def ownVal (c : Dev nD) (i : ℕ) (hi : i < 16) : FVec F S64x512 .f32 :=
  k0_pay1 (xM.view.readAt (Elt F) (xR i hi).toLoadRect (xstg m c)) (rM.view.readAt (Elt F) (rR i hi).toLoadRect (rAt m c))

/-- The result buffer of `c` with chunk `i` of its own half of the columns stored. -/
def ownW (c : Dev nD) (i : ℕ) (hi : i < 16) : (cc0_stg1_0 : Ref sig .tc).ty.Contents (Elt F) :=
  (oM.access (oR i hi (col c) (col_lt c))).write (Elt F) (junkO (F := F)) (ownVal m c i hi) Finset.univ

/-- The result buffer of device `c` at the end: in its own half of the columns the sums it stored, in the other
    half the sums its second-axis neighbour stored and sent. -/
def outAt (c : Dev nD) : (cc0_stg1_0 : Ref sig .tc).ty.Contents (Elt F) := fun j =>
  have hj : (j 0).val < 1024 := (j 0).isLt
  have hi : (j 0).val / 64 < 16 := by omega
  if (j 1).val / 512 = col c then ownW m c ((j 0).val / 64) hi j
  else (oP ((j 0).val / 64) hi (col (yp c)) (col_lt _)).view.write (Elt F) (junkO (F := F))
        ((oP ((j 0).val / 64) hi (col (yp c)) (col_lt _)).view.read (Elt F) (ownW m (yp c) ((j 0).val / 64) hi)) Finset.univ j

/-! ## The chunks as assertions -/

def xPc (c : Dev nD) (i : ℕ) (hi : i < 16) (q : PosShare TreeShare) : sProp 𝕄 :=
  (xP i hi).view.loc (c : Thread nD τ) ↦[(xP i hi).view.set]{q} xstg m c
def rPc (c : Dev nD) (i : ℕ) (hi : i < 16) (f : (cc0_scratch0 : Ref sig .tc).ty.Contents (Elt F)) : sProp 𝕄 :=
  (rP i hi).view.loc (c : Thread nD τ) ↦[(rP i hi).view.set]{fullShare} f
def oPc (c : Dev nD) (i : ℕ) (hi : i < 16) (j : ℕ) (hj : j < 2) (f : (cc0_stg1_0 : Ref sig .tc).ty.Contents (Elt F)) : sProp 𝕄 :=
  (oP i hi j hj).view.loc (c : Thread nD τ) ↦[(oP i hi j hj).view.set]{fullShare} f

/-! ## The schedule: one round a cell

A barrier cell has two duties of one unit: `false`, paid by the first-axis neighbour, which hands over its
landing buffer chunk by chunk; `true`, paid by the second-axis neighbour, which hands over the chunks of its
result buffer that lie in the receiver's half of the columns (the receiver will write them).  A DMA cell has the
one duty `false` of a chunk's credit: a send cell gets the source chunk back, a receive cell gets the written
chunk. -/

def barPayX (c : Dev nD) : sProp 𝕄 := bigSep (Finset.univ : Finset (Fin 16)) fun i => iprop(∃ f, rPc (xp c) i.val i.isLt f)
def barPayY (c : Dev nD) : sProp 𝕄 := bigSep (Finset.univ : Finset (Fin 16)) fun i => iprop(∃ f, oPc (yp c) i.val i.isLt (col c) (col_lt c) f)
def sxPay (c : Dev nD) (i : ℕ) (hi : i < 16) : sProp 𝕄 := xPc m c i hi fullShare.left
def rxPay (c : Dev nD) (i : ℕ) (hi : i < 16) : sProp 𝕄 := rPc c i hi (rAt m c)
def syPay (c : Dev nD) (i : ℕ) (hi : i < 16) : sProp 𝕄 := oPc c i hi (col c) (col_lt c) (outAt m c)
def ryPay (c : Dev nD) (i : ℕ) (hi : i < 16) : sProp 𝕄 := oPc c i hi (col (yp c)) (col_lt _) (outAt m c)

def isScr : SemLoc sig → Prop
  | .dma q => 2 ≤ q.val
  | .reg _ => False
instance : DecidablePred (isScr) := fun s => by cases s <;> unfold isScr <;> infer_instance

def Rd : Rounds.Schedule (GSem nD τ sig) Bool 𝕄 where
  duties g r := if r = 0 ∧ g.1.2 = .tc ∧ g.2 = .reg barS then Finset.univ else if r = 0 ∧ g.1.2 = .tc ∧ isScr g.2 then {false} else ∅
  unitless _ := False
  amount g _ _ := if g.2 = .reg barS then 1 else 4096
  payload g _ d := match g.2 with
    | .reg _ => if d then barPayY g.1.1 else barPayX g.1.1
    | .dma q => if famOf q = 0 then sxPay m g.1.1 (chunkOf q) (chunkOf_lt q) else if famOf q = 1 then rxPay m g.1.1 (chunkOf q) (chunkOf_lt q)
        else if famOf q = 2 then syPay m g.1.1 (chunkOf q) (chunkOf_lt q) else ryPay m g.1.1 (chunkOf q) (chunkOf_lt q)
  amount_pos g _ _ _ := by
    by_cases h : g.2 = .reg barS
    · rw [if_pos h]; exact Nat.one_pos
    · rw [if_neg h]; decide

end Cert.KernelIdeal.Proto

end
-- ==== Proof.KernelIdeal.Tables.lean ====
/-
  The tables of the schedule: which duties each cell has, what each is worth, what a round expects, and what each
  duty hands over.
-/
import proofs.«900315_g7700000000000316_dist_rsx_agy_m1024_n512_v7x_xy2x2_f32_1_alg».proof.Proof.KernelIdeal.Proto

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

instance Rd_payload_storable (g : GSem nD τ sig) (r : ℕ) (d : Bool) :
    BI.Storable (upEmb : UEmb _ 𝕄) ((Rd (F := F) m).payload g r d) := by
  show BI.Storable upEmb (match g.2 with
    | .reg _ => if d then barPayY g.1.1 else barPayX g.1.1
    | .dma q => if famOf q = 0 then sxPay m g.1.1 (chunkOf q) (chunkOf_lt q) else if famOf q = 1 then rxPay m g.1.1 (chunkOf q) (chunkOf_lt q)
        else if famOf q = 2 then syPay m g.1.1 (chunkOf q) (chunkOf_lt q) else ryPay m g.1.1 (chunkOf q) (chunkOf_lt q))
  unfold barPayX barPayY sxPay rxPay syPay ryPay xPc rPc oPc
  (repeat' split) <;> infer_instance

section Tables
variable (c : Dev nD)

theorem dma_ne_bar (q : DmaSem sig) : (SemLoc.dma q : SemLoc sig) ≠ .reg barS := fun h => by cases h

theorem duties_bar : (Rd (F := F) m).duties (barC c) 0 = Finset.univ := by dsimp only [Rd]; exact if_pos ⟨rfl, rfl, rfl⟩
theorem duties_dma (q : DmaSem sig) (hq : 2 ≤ q.val) : (Rd (F := F) m).duties (dmaC c q) 0 = {false} := by
  dsimp only [Rd]; rw [if_neg (fun h => dma_ne_bar q h.2.2)]; exact if_pos ⟨rfl, rfl, hq⟩
theorem duties_later (g : GSem nD τ sig) : ∀ r, 1 ≤ r → (Rd (F := F) m).duties g r = ∅ :=
  fun r hr => by dsimp only [Rd]; rw [if_neg fun h => by omega, if_neg fun h => by omega]

theorem amount_bar (d : Bool) : (Rd (F := F) m).amount (barC c) 0 d = 1 := by dsimp only [Rd]; exact if_pos rfl
theorem amount_dma (q : DmaSem sig) (d : Bool) : (Rd (F := F) m).amount (dmaC c q) 0 d = 4096 := by dsimp only [Rd]; exact if_neg (dma_ne_bar q)

theorem expect_bar : (Rd (F := F) m).expect (barC c) 0 = 2 := by
  unfold Schedule.expect Schedule.amountOf
  rw [duties_bar, Finset.sum_congr rfl fun d _ => amount_bar m c d, Finset.sum_const, Finset.card_univ, Fintype.card_bool, smul_eq_mul]
theorem expect_dma (q : DmaSem sig) (hq : 2 ≤ q.val) : (Rd (F := F) m).expect (dmaC c q) 0 = 4096 := by
  unfold Schedule.expect Schedule.amountOf; rw [duties_dma m c q hq, Finset.sum_singleton, amount_dma]

theorem payload_bar_true : (Rd (F := F) m).payload (barC c) 0 true = barPayY c := by dsimp only [Rd]; rw [if_pos rfl]
theorem payload_bar_false : (Rd (F := F) m).payload (barC c) 0 false = barPayX c := by
  dsimp only [Rd]; exact if_neg Bool.false_ne_true

theorem fam_sx (i : ℕ) (hi : i < 16) : famOf (sxS i hi) = 0 ∧ chunkOf (sxS i hi) = i := by
  unfold famOf chunkOf; rw [sxS_val]; omega
theorem fam_rx (i : ℕ) (hi : i < 16) : famOf (rxS i hi) = 1 ∧ chunkOf (rxS i hi) = i := by
  unfold famOf chunkOf; rw [rxS_val]; omega
theorem fam_sy (i : ℕ) (hi : i < 16) : famOf (syS i hi) = 2 ∧ chunkOf (syS i hi) = i := by
  unfold famOf chunkOf; rw [syS_val]; omega
theorem fam_ry (i : ℕ) (hi : i < 16) : famOf (ryS i hi) = 3 ∧ chunkOf (ryS i hi) = i := by
  unfold famOf chunkOf; rw [ryS_val]; omega

theorem scr_sx (i : ℕ) (hi : i < 16) : 2 ≤ (sxS i hi).val := by rw [sxS_val]; omega
theorem scr_rx (i : ℕ) (hi : i < 16) : 2 ≤ (rxS i hi).val := by rw [rxS_val]; omega
theorem scr_sy (i : ℕ) (hi : i < 16) : 2 ≤ (syS i hi).val := by rw [syS_val]; omega
theorem scr_ry (i : ℕ) (hi : i < 16) : 2 ≤ (ryS i hi).val := by rw [ryS_val]; omega

theorem sxPay_congr {i i' : ℕ} (e : i = i') (hi : i < 16) (hi' : i' < 16) : sxPay m c i hi = sxPay m c i' hi' := by subst e; rfl
theorem rxPay_congr {i i' : ℕ} (e : i = i') (hi : i < 16) (hi' : i' < 16) : rxPay m c i hi = rxPay m c i' hi' := by subst e; rfl
theorem syPay_congr {i i' : ℕ} (e : i = i') (hi : i < 16) (hi' : i' < 16) : syPay m c i hi = syPay m c i' hi' := by subst e; rfl
theorem ryPay_congr {i i' : ℕ} (e : i = i') (hi : i < 16) (hi' : i' < 16) : ryPay m c i hi = ryPay m c i' hi' := by subst e; rfl

theorem payload_sx (i : ℕ) (hi : i < 16) (d : Bool) : (Rd (F := F) m).payload (dmaC c (sxS i hi)) 0 d = sxPay m c i hi := by
  dsimp only [Rd]; rw [if_pos (fam_sx i hi).1]; exact sxPay_congr m c (fam_sx i hi).2 _ _
theorem payload_rx (i : ℕ) (hi : i < 16) (d : Bool) : (Rd (F := F) m).payload (dmaC c (rxS i hi)) 0 d = rxPay m c i hi := by
  dsimp only [Rd]; rw [if_neg (by rw [(fam_rx i hi).1]; decide), if_pos (fam_rx i hi).1]; exact rxPay_congr m c (fam_rx i hi).2 _ _
theorem payload_sy (i : ℕ) (hi : i < 16) (d : Bool) : (Rd (F := F) m).payload (dmaC c (syS i hi)) 0 d = syPay m c i hi := by
  dsimp only [Rd]; rw [if_neg (by rw [(fam_sy i hi).1]; decide), if_neg (by rw [(fam_sy i hi).1]; decide), if_pos (fam_sy i hi).1]
  exact syPay_congr m c (fam_sy i hi).2 _ _
theorem payload_ry (i : ℕ) (hi : i < 16) (d : Bool) : (Rd (F := F) m).payload (dmaC c (ryS i hi)) 0 d = ryPay m c i hi := by
  dsimp only [Rd]; rw [if_neg (by rw [(fam_ry i hi).1]; decide), if_neg (by rw [(fam_ry i hi).1]; decide), if_neg (by rw [(fam_ry i hi).1]; decide)]
  exact ryPay_congr m c (fam_ry i hi).2 _ _

/-- The whole of the barrier cell's round: both neighbours' buffers. -/
theorem rest_bar : bigSep ((Rd (F := F) m).duties (barC c) 0 \ ∅) (fun d => (Rd (F := F) m).payload (barC c) 0 d) = iprop(barPayX c ∗ barPayY c) := by
  rw [Finset.sdiff_empty, duties_bar, bigSep_univ_eq_bigSepL [false, true] (by decide) (by decide), bigSepL_cons_cons, bigSepL_singleton,
    payload_bar_false, payload_bar_true]
  rfl
theorem rest_dma (q : DmaSem sig) (hq : 2 ≤ q.val) :
    bigSep ((Rd (F := F) m).duties (dmaC c q) 0 \ ∅) (fun d => (Rd (F := F) m).payload (dmaC c q) 0 d) = (Rd (F := F) m).payload (dmaC c q) 0 false := by
  rw [Finset.sdiff_empty, duties_dma m c q hq, bigSep_singleton]

end Tables

end Cert.KernelIdeal.Proto

end
-- ==== Proof.KernelIdeal.Program.lean ====
/-
  The body of the kernel, restated as four runs of sixteen like steps after the entry handshake: the sixteen
  first-axis transfers; sixteen times "wait for chunk i to land, add it to the own rows, store the sum, forward it
  along the second axis"; the sixteen waits for the forwarded chunks of the neighbour; the thirty-two waits for
  the departures.  The printed body is this program, by unfolding.
-/
import proofs.«900315_g7700000000000316_dist_rsx_agy_m1024_n512_v7x_xy2x2_f32_1_alg».proof.Proof.KernelIdeal.Tables

set_option maxRecDepth 65536

noncomputable section

namespace Cert.KernelIdeal.Proto

open Cert.KernelIdeal Cert.KernelIdeal.Gen
open Idealize.ShloMosaic
open Idealize.ShloMosaic.TcCoe
open Idealize.SL.Sem

variable {F : FTy → Type} [FloatOps F]

/-- The device each of the sixteen first-axis transfers addresses, as printed. -/
def devB (d0 : Dev nD) : ℕ → Dev nD
  | 0 => ⟨k0_dev3 d0, k0_dev3_lt d0⟩ | 1 => ⟨k0_dev4 d0, k0_dev4_lt d0⟩ | 2 => ⟨k0_dev5 d0, k0_dev5_lt d0⟩ | 3 => ⟨k0_dev6 d0, k0_dev6_lt d0⟩
  | 4 => ⟨k0_dev7 d0, k0_dev7_lt d0⟩ | 5 => ⟨k0_dev8 d0, k0_dev8_lt d0⟩ | 6 => ⟨k0_dev9 d0, k0_dev9_lt d0⟩ | 7 => ⟨k0_dev10 d0, k0_dev10_lt d0⟩
  | 8 => ⟨k0_dev11 d0, k0_dev11_lt d0⟩ | 9 => ⟨k0_dev12 d0, k0_dev12_lt d0⟩ | 10 => ⟨k0_dev13 d0, k0_dev13_lt d0⟩ | 11 => ⟨k0_dev14 d0, k0_dev14_lt d0⟩
  | 12 => ⟨k0_dev15 d0, k0_dev15_lt d0⟩ | 13 => ⟨k0_dev16 d0, k0_dev16_lt d0⟩ | 14 => ⟨k0_dev17 d0, k0_dev17_lt d0⟩ | 15 => ⟨k0_dev18 d0, k0_dev18_lt d0⟩
  | _ => d0
/-- The device each of the sixteen second-axis transfers addresses, as printed. -/
def devC (d0 : Dev nD) : ℕ → Dev nD
  | 0 => ⟨k0_dev19 d0, k0_dev19_lt d0⟩ | 1 => ⟨k0_dev20 d0, k0_dev20_lt d0⟩ | 2 => ⟨k0_dev21 d0, k0_dev21_lt d0⟩ | 3 => ⟨k0_dev22 d0, k0_dev22_lt d0⟩
  | 4 => ⟨k0_dev23 d0, k0_dev23_lt d0⟩ | 5 => ⟨k0_dev24 d0, k0_dev24_lt d0⟩ | 6 => ⟨k0_dev25 d0, k0_dev25_lt d0⟩ | 7 => ⟨k0_dev26 d0, k0_dev26_lt d0⟩
  | 8 => ⟨k0_dev27 d0, k0_dev27_lt d0⟩ | 9 => ⟨k0_dev28 d0, k0_dev28_lt d0⟩ | 10 => ⟨k0_dev29 d0, k0_dev29_lt d0⟩ | 11 => ⟨k0_dev30 d0, k0_dev30_lt d0⟩
  | 12 => ⟨k0_dev31 d0, k0_dev31_lt d0⟩ | 13 => ⟨k0_dev32 d0, k0_dev32_lt d0⟩ | 14 => ⟨k0_dev33 d0, k0_dev33_lt d0⟩ | 15 => ⟨k0_dev34 d0, k0_dev34_lt d0⟩
  | _ => d0

abbrev Off2 : Type := {off : Fin 2 → ℕ // ∀ a, off a + S64x512.size a ≤ S1024x1024.size a}
/-- The offsets of chunk `i` of the device's own half of the result's columns: as the store spells them, -/
def offA (d0 : Dev nD) : ℕ → Off2
  | 0 => ⟨k0_off1 d0, k0_off1_inb d0⟩ | 1 => ⟨k0_off3 d0, k0_off3_inb d0⟩ | 2 => ⟨k0_off5 d0, k0_off5_inb d0⟩ | 3 => ⟨k0_off7 d0, k0_off7_inb d0⟩
  | 4 => ⟨k0_off9 d0, k0_off9_inb d0⟩ | 5 => ⟨k0_off11 d0, k0_off11_inb d0⟩ | 6 => ⟨k0_off13 d0, k0_off13_inb d0⟩ | 7 => ⟨k0_off15 d0, k0_off15_inb d0⟩
  | 8 => ⟨k0_off17 d0, k0_off17_inb d0⟩ | 9 => ⟨k0_off19 d0, k0_off19_inb d0⟩ | 10 => ⟨k0_off21 d0, k0_off21_inb d0⟩ | 11 => ⟨k0_off23 d0, k0_off23_inb d0⟩
  | 12 => ⟨k0_off25 d0, k0_off25_inb d0⟩ | 13 => ⟨k0_off27 d0, k0_off27_inb d0⟩ | 14 => ⟨k0_off29 d0, k0_off29_inb d0⟩ | 15 => ⟨k0_off31 d0, k0_off31_inb d0⟩
  | _ => ⟨k0_off1 d0, k0_off1_inb d0⟩
/-- and as the transfer and its waits spell them. -/
def offB (d0 : Dev nD) : ℕ → Off2
  | 0 => ⟨k0_off2 d0, k0_off2_inb d0⟩ | 1 => ⟨k0_off4 d0, k0_off4_inb d0⟩ | 2 => ⟨k0_off6 d0, k0_off6_inb d0⟩ | 3 => ⟨k0_off8 d0, k0_off8_inb d0⟩
  | 4 => ⟨k0_off10 d0, k0_off10_inb d0⟩ | 5 => ⟨k0_off12 d0, k0_off12_inb d0⟩ | 6 => ⟨k0_off14 d0, k0_off14_inb d0⟩ | 7 => ⟨k0_off16 d0, k0_off16_inb d0⟩
  | 8 => ⟨k0_off18 d0, k0_off18_inb d0⟩ | 9 => ⟨k0_off20 d0, k0_off20_inb d0⟩ | 10 => ⟨k0_off22 d0, k0_off22_inb d0⟩ | 11 => ⟨k0_off24 d0, k0_off24_inb d0⟩
  | 12 => ⟨k0_off26 d0, k0_off26_inb d0⟩ | 13 => ⟨k0_off28 d0, k0_off28_inb d0⟩ | 14 => ⟨k0_off30 d0, k0_off30_inb d0⟩ | 15 => ⟨k0_off32 d0, k0_off32_inb d0⟩
  | _ => ⟨k0_off2 d0, k0_off2_inb d0⟩

abbrev oRA (d0 : Dev nD) (i : ℕ) : Rect S1024x1024 := Rect.unit (s := S1024x1024) (offA d0 i).1 S64x512.size (offA d0 i).2
abbrev oQ (d0 : Dev nD) (i : ℕ) : Memref sig .tc .vmem S64x512 .f32 :=
  oM.slice (Rect.unit (s := S1024x1024) (offB d0 i).1 S64x512.size (offB d0 i).2) (fun _ => rfl)

abbrev PU (F : FTy → Type) [FloatOps F] : Type 1 := Prog (TpuEff nD τ sig (Elt F) Λ₀ .tc) PUnit

/-- One first-axis transfer: the own rows of chunk `i` into the neighbour's landing buffer. -/
def stepB (d0 : Dev nD) (i : ℕ) (hi : i < 16) (k : PU F) : PU F :=
  Prog.op (.enqueueDma (xP i hi) (.remote (Dev.tc (devB d0 i)) (rP i hi) (.dma (sxS i hi))) (.dma (rxS i hi))
      ((View.wordExact_bits rfl).reshape _ _) (View.wordExact_bits rfl) ⟨⟨rfl, Or.inl rfl⟩, trivial⟩) fun _ => k

/-- Chunk `i` has landed: add, store, forward. -/
def stepC (d0 : Dev nD) (i : ℕ) (hi : i < 16) (k : PU F) : PU F :=
  Prog.op (.waitDma2 (rxS i hi) (xP i hi) (rP i hi) ((View.wordExact_bits rfl).reshape _ _) (View.wordExact_bits rfl)) fun _ =>
  Prog.op (.load xM (xR i hi).toLoadRect (View.loadsAt_vmem h_S1x64x512)) fun v1 =>
  Prog.op (.load rM (rR i hi).toLoadRect (View.loadsAt_vmem h_S64x512)) fun v2 =>
  Prog.op (.load oM (oRA d0 i).toLoadRect (View.loadsAt_vmem h_S64x512)) fun _ =>
  Prog.op (.store oM (oRA d0 i) (k0_pay1 v1 v2) Finset.univ (View.stores_vmem_bits_univ h_S64x512 rfl) (.inl rfl)) fun _ =>
  Prog.op (.enqueueDma (oQ d0 i) (.remote (Dev.tc (devC d0 i)) (oQ d0 i) (.dma (syS i hi))) (.dma (ryS i hi))
      (View.wordExact_bits rfl) (View.wordExact_bits rfl) ⟨⟨rfl, Or.inl rfl⟩, trivial⟩) fun _ => k

/-- The neighbour's chunk `i` of the other half of the columns has landed. -/
def stepD (d0 : Dev nD) (i : ℕ) (hi : i < 16) (k : PU F) : PU F :=
  Prog.op (.waitDma2 (ryS i hi) (oQ d0 i) (oQ d0 i) (View.wordExact_bits rfl) (View.wordExact_bits rfl)) fun _ => k

/-- Both departures of chunk `i` are complete. -/
def stepE (d0 : Dev nD) (i : ℕ) (hi : i < 16) (k : PU F) : PU F :=
  Prog.op (.waitDma2 (sxS i hi) (rP i hi) (xP i hi) (View.wordExact_bits rfl) ((View.wordExact_bits rfl).reshape _ _)) fun _ =>
  Prog.op (.waitDma2 (syS i hi) (oQ d0 i) (oQ d0 i) (View.wordExact_bits rfl) (View.wordExact_bits rfl)) fun _ => k

/-- `n` steps, chunks `16 - n` to `15`, then the rest. -/
def run (step : (i : ℕ) → i < 16 → PU F → PU F) (rest : PU F) : (n : ℕ) → n ≤ 16 → PU F
  | 0, _ => rest
  | n + 1, h => step (16 - (n + 1)) (by omega) (run step rest n (by omega))

/-- The whole body from the device id on. -/
def bodyFrom (d0 : Dev nD) : PU F :=
  Prog.op (.semSignal ((⟨k0_dev1 d0, k0_dev1_lt d0⟩ : Dev nD), .tc) barS 1) fun _ =>
  Prog.op (.semSignal ((⟨k0_dev2 d0, k0_dev2_lt d0⟩ : Dev nD), .tc) barS 1) fun _ =>
  Prog.op (.semWait barS 2) fun _ =>
  run (stepB d0) (run (stepC d0) (run (stepD d0) (run (stepE d0) (Prog.ret ⟨⟩) 16 le_rfl) 16 le_rfl) 16 le_rfl) 16 le_rfl

set_option maxHeartbeats 4000000 in
/-- The printed body is that program. -/
theorem body_eq : cc0_body (F := F) xM (Memref.isWhole_whole _) oM (Memref.isWhole_whole _) rM (Memref.isWhole_whole _)
      cc0_scratch1 cc0_scratch2 cc0_scratch3 cc0_scratch4 = Prog.op .deviceId (fun d0 => bodyFrom (F := F) d0) := rfl

end Cert.KernelIdeal.Proto

end
-- ==== Proof.KernelIdeal.State.lean ====
/-
  What a device owes its neighbours at each moment, the levels that order the waits (a barrier cell below a
  first-axis receive cell below a second-axis receive cell; everything else at the bottom), and the evidence each
  wait presents: whatever the waiting device still owes lies strictly above the cell it waits on.
-/
import proofs.«900315_g7700000000000316_dist_rsx_agy_m1024_n512_v7x_xy2x2_f32_1_alg».proof.Proof.KernelIdeal.Program

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What is owed -/

/-- chunk `k`'s credit on the first-axis neighbour's receive cell, on the second-axis neighbour's -/
def tRx (c : Dev nD) (k : ℕ) : CellTallies nD τ sig Unit := if hk : k < 16 then tallyAt (dmaC (xp c) (rxS k hk)) () 4096 else 0
def tRy (c : Dev nD) (k : ℕ) : CellTallies nD τ sig Unit := if hk : k < 16 then tallyAt (dmaC (yp c) (ryS k hk)) () 4096 else 0
/-- the chunks from `i` on -/
def oweX (c : Dev nD) (i : ℕ) : CellTallies nD τ sig Unit := ∑ k ∈ Finset.Ico i 16, tRx c k
def oweY (c : Dev nD) (i : ℕ) : CellTallies nD τ sig Unit := ∑ k ∈ Finset.Ico i 16, tRy c k
/-- after the handshake's two signals; at launch (the first signal, to the first-axis neighbour, peels the last summand) -/
def O₁ (c : Dev nD) : CellTallies nD τ sig Unit := oweX c 0 + oweY c 0
def O₀ (c : Dev nD) : CellTallies nD τ sig Unit := (O₁ c + tallyAt (barC (yp c)) () 1) + tallyAt (barC (xp c)) () 1

theorem oweX_step (c : Dev nD) (i : ℕ) (hi : i < 16) : oweX c i = oweX c (i + 1) + tallyAt (dmaC (xp c) (rxS i hi)) () 4096 := by
  unfold oweX; rw [Ring.sum_Ico_succ hi, add_comm]; unfold tRx; rw [dif_pos hi]
theorem oweY_step (c : Dev nD) (i : ℕ) (hi : i < 16) : oweY c i = oweY c (i + 1) + tallyAt (dmaC (yp c) (ryS i hi)) () 4096 := by
  unfold oweY; rw [Ring.sum_Ico_succ hi, add_comm]; unfold tRy; rw [dif_pos hi]
theorem oweX_end (c : Dev nD) : oweX c 16 = 0 := by unfold oweX; rw [Finset.Ico_self, Finset.sum_empty]
theorem oweY_end (c : Dev nD) : oweY c 16 = 0 := by unfold oweY; rw [Finset.Ico_self, Finset.sum_empty]

theorem tRx_pos {c : Dev nD} {k : ℕ} {g : GSem nD τ sig} {u : Unit} (h : 0 < tRx c k g u) : ∃ hk : k < 16, g = dmaC (xp c) (rxS k hk) := by
  unfold tRx at h
  by_cases hk : k < 16
  · rw [dif_pos hk, tallyAt_apply] at h
    by_cases hg : g = dmaC (xp c) (rxS k hk) ∧ u = ()
    · exact ⟨hk, hg.1⟩
    · rw [if_neg hg] at h; exact absurd h (Nat.lt_irrefl 0)
  · rw [dif_neg hk] at h; exact absurd h (Nat.lt_irrefl 0)
theorem tRy_pos {c : Dev nD} {k : ℕ} {g : GSem nD τ sig} {u : Unit} (h : 0 < tRy c k g u) : ∃ hk : k < 16, g = dmaC (yp c) (ryS k hk) := by
  unfold tRy at h
  by_cases hk : k < 16
  · rw [dif_pos hk, tallyAt_apply] at h
    by_cases hg : g = dmaC (yp c) (ryS k hk) ∧ u = ()
    · exact ⟨hk, hg.1⟩
    · rw [if_neg hg] at h; exact absurd h (Nat.lt_irrefl 0)
  · rw [dif_neg hk] at h; exact absurd h (Nat.lt_irrefl 0)
theorem oweX_pos {c : Dev nD} {i : ℕ} {g : GSem nD τ sig} {u : Unit} (h : 0 < oweX c i g u) : ∃ k, ∃ hk : k < 16, g = dmaC (xp c) (rxS k hk) := by
  obtain ⟨k, -, hk⟩ := Pipeline.sum_pos_exists h; exact ⟨k, tRx_pos hk⟩
theorem oweY_pos {c : Dev nD} {i : ℕ} {g : GSem nD τ sig} {u : Unit} (h : 0 < oweY c i g u) : ∃ k, ∃ hk : k < 16, g = dmaC (yp c) (ryS k hk) := by
  obtain ⟨k, -, hk⟩ := Pipeline.sum_pos_exists h; exact ⟨k, tRy_pos hk⟩

/-! ## The levels -/

def L (g : GSem nD τ sig) : Finset Unit := if g.1.2 = .tc then {()} else ∅
def lv (g : GSem nD τ sig) (_ : Unit) : ℕ := match g.2 with
  | .reg _ => 1
  | .dma q => if 2 ≤ q.val ∧ famOf q = 1 then 2 else if famOf q = 3 then 3 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) : lv (barC c) () = 1 := rfl
theorem lv_rx (c : Dev nD) (i : ℕ) (hi : i < 16) : lv (dmaC c (rxS i hi)) () = 2 := by
  show (if 2 ≤ (rxS i hi).val ∧ famOf (rxS i hi) = 1 then 2 else if famOf (rxS i hi) = 3 then 3 else 0) = 2
  rw [if_pos ⟨scr_rx i hi, (fam_rx i hi).1⟩]
theorem lv_ry (c : Dev nD) (i : ℕ) (hi : i < 16) : lv (dmaC c (ryS i hi)) () = 3 := by
  show (if 2 ≤ (ryS i hi).val ∧ famOf (ryS i hi) = 1 then 2 else if famOf (ryS i hi) = 3 then 3 else 0) = 3
  rw [if_neg (by rw [(fam_ry i hi).1]; omega), if_pos (fam_ry i hi).1]
theorem lv_stage (c : Dev nD) (q : DmaSem sig) (hq : q.val < 2) : lv (dmaC c q) () = 0 := by
  show (if 2 ≤ q.val ∧ famOf q = 1 then 2 else if famOf q = 3 then 3 else 0) = 0
  rw [if_neg (by omega), if_neg (by unfold famOf; omega)]

/-- What a device owes from the handshake on sits on receive cells, above its barrier cell. -/
theorem O₁_pos {c : Dev nD} {g : GSem nD τ sig} {u : Unit} (h : 0 < O₁ c g u) : u ∈ L g ∧ 2 ≤ lv g u := by
  rcases Pipeline.add_pos_cases h with h | h
  · obtain ⟨k, hk, rfl⟩ := oweX_pos h; exact ⟨by rw [L_tc]; exact Finset.mem_singleton_self _, by rw [lv_rx]⟩
  · obtain ⟨k, hk, rfl⟩ := oweY_pos h; exact ⟨by rw [L_tc]; exact Finset.mem_singleton_self _, by rw [lv_ry]; decide⟩
theorem O₀_pos {c : Dev nD} {g : GSem nD τ sig} {u : Unit} (h : 0 < O₀ c g u) : u ∈ L g ∧ 1 ≤ lv g u := by
  rcases Pipeline.add_pos_cases h with h | h
  · rcases Pipeline.add_pos_cases h with h | h
    · exact ⟨(O₁_pos h).1, by have := (O₁_pos h).2; omega⟩
    · rw [tallyAt_apply] at h
      by_cases hg : g = barC (yp c) ∧ u = ()
      · rw [hg.1]; exact ⟨by rw [L_tc]; exact Finset.mem_singleton_self _, by rw [lv_bar]⟩
      · rw [if_neg hg] at h; exact absurd h (Nat.lt_irrefl 0)
  · rw [tallyAt_apply] at h
    by_cases hg : g = barC (xp c) ∧ u = ()
    · rw [hg.1]; exact ⟨by rw [L_tc]; exact Finset.mem_singleton_self _, by rw [lv_bar]⟩
    · rw [if_neg hg] at h; exact absurd h (Nat.lt_irrefl 0)

/-- The barrier wait: everything still owed is a receive credit. -/
theorem mayWait_bar (c : Dev nD) : (levAts L lv : sProp 𝕄) ⊢ MayWait (c : Thread nD τ) (.reg barS) () (O₁ c) :=
  Pipeline.mayWait_of_levAts (by rw [L_tc]; exact Finset.mem_singleton_self _)
    fun g u hg => ⟨(O₁_pos hg).1, by show lv (barC c) () < lv g u; rw [lv_bar]; have := (O₁_pos hg).2; omega⟩
/-- The wait for a landed chunk: what is still owed are second-axis receive credits. -/
theorem mayWait_rx (c : Dev nD) (i : ℕ) (hi : i < 16) (i' : ℕ) :
    (levAts L lv : sProp 𝕄) ⊢ MayWait (c : Thread nD τ) (.dma (rxS i hi)) () (oweY c i') :=
  Pipeline.mayWait_of_levAts (by rw [L_tc]; exact Finset.mem_singleton_self _)
    fun g u hg => by
      obtain ⟨k, hk, rfl⟩ := oweY_pos hg
      exact ⟨by rw [L_tc]; exact Finset.mem_singleton_self _, by show lv (dmaC c (rxS i hi)) () < _; rw [lv_rx, lv_ry]; decide⟩
/-- The pipeline's own waits, on the staging cells at the bottom. -/
theorem mayWait_stage (c : Dev nD) (q : DmaSem sig) (hq : q.val < 2) (O : CellTallies nD τ sig Unit) (hO : O = O₀ c ∨ O = 0) :
    (levAts L lv : sProp 𝕄) ⊢ MayWait (c : Thread nD τ) (.dma q) () O := by
  rcases hO with rfl | rfl
  · exact Pipeline.mayWait_of_levAts (by rw [L_tc]; exact Finset.mem_singleton_self _)
      fun g u hg => ⟨(O₀_pos hg).1, by show lv (dmaC c q) () < lv g u; rw [lv_stage c q hq]; have := (O₀_pos hg).2; omega⟩
  · rw [MayWait_zero]; iintro -; iempintro

end Cert.KernelIdeal.Proto

end
-- ==== Proof.KernelIdeal.Landing.lean ====
/-
  What lands where.  A chunk written through its view agrees, on the chunk's own elements, with the closed
  description of the buffer (`rAt`, `outAt`), whatever lay underneath; so each transfer's landing is the payload
  the schedule promises, and each store's result is the chunk the second-axis transfer carries.
-/
import proofs.«900315_g7700000000000316_dist_rsx_agy_m1024_n512_v7x_xy2x2_f32_1_alg».proof.Proof.KernelIdeal.State

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The printed devices and offsets, in closed form -/

theorem devB_eq (c : Dev nD) (i : ℕ) (hi : i < 16) : devB c i = xp c := by
  interval_cases i <;> first
    | exact devX_of c (k0_dev3_eq c) | exact devX_of c (k0_dev4_eq c) | exact devX_of c (k0_dev5_eq c) | exact devX_of c (k0_dev6_eq c)
    | exact devX_of c (k0_dev7_eq c) | exact devX_of c (k0_dev8_eq c) | exact devX_of c (k0_dev9_eq c) | exact devX_of c (k0_dev10_eq c)
    | exact devX_of c (k0_dev11_eq c) | exact devX_of c (k0_dev12_eq c) | exact devX_of c (k0_dev13_eq c) | exact devX_of c (k0_dev14_eq c)
    | exact devX_of c (k0_dev15_eq c) | exact devX_of c (k0_dev16_eq c) | exact devX_of c (k0_dev17_eq c) | exact devX_of c (k0_dev18_eq c)
theorem devC_eq (c : Dev nD) (i : ℕ) (hi : i < 16) : devC c i = yp c := by
  interval_cases i <;> first
    | exact devY_of c (k0_dev19_eq c) | exact devY_of c (k0_dev20_eq c) | exact devY_of c (k0_dev21_eq c) | exact devY_of c (k0_dev22_eq c)
    | exact devY_of c (k0_dev23_eq c) | exact devY_of c (k0_dev24_eq c) | exact devY_of c (k0_dev25_eq c) | exact devY_of c (k0_dev26_eq c)
    | exact devY_of c (k0_dev27_eq c) | exact devY_of c (k0_dev28_eq c) | exact devY_of c (k0_dev29_eq c) | exact devY_of c (k0_dev30_eq c)
    | exact devY_of c (k0_dev31_eq c) | exact devY_of c (k0_dev32_eq c) | exact devY_of c (k0_dev33_eq c) | exact devY_of c (k0_dev34_eq c)
theorem dev1_eq (c : Dev nD) : (⟨k0_dev1 c, k0_dev1_lt c⟩ : Dev nD) = xp c := devX_of c (k0_dev1_eq c)
theorem dev2_eq (c : Dev nD) : (⟨k0_dev2 c, k0_dev2_lt c⟩ : Dev nD) = yp c := devY_of c (k0_dev2_eq c)

theorem offA_eq (c : Dev nD) (i : ℕ) (hi : i < 16) : offA c i = ⟨![64 * i, 512 * col c], hoin i hi (col c) (col_lt c)⟩ := by
  interval_cases i <;> first
    | exact Subtype.ext (k0_off1_eq c) | exact Subtype.ext (k0_off3_eq c) | exact Subtype.ext (k0_off5_eq c) | exact Subtype.ext (k0_off7_eq c)
    | exact Subtype.ext (k0_off9_eq c) | exact Subtype.ext (k0_off11_eq c) | exact Subtype.ext (k0_off13_eq c) | exact Subtype.ext (k0_off15_eq c)
    | exact Subtype.ext (k0_off17_eq c) | exact Subtype.ext (k0_off19_eq c) | exact Subtype.ext (k0_off21_eq c) | exact Subtype.ext (k0_off23_eq c)
    | exact Subtype.ext (k0_off25_eq c) | exact Subtype.ext (k0_off27_eq c) | exact Subtype.ext (k0_off29_eq c) | exact Subtype.ext (k0_off31_eq c)
theorem offB_eq (c : Dev nD) (i : ℕ) (hi : i < 16) : offB c i = ⟨![64 * i, 512 * col c], hoin i hi (col c) (col_lt c)⟩ := by
  interval_cases i <;> first
    | exact Subtype.ext (k0_off2_eq c) | exact Subtype.ext (k0_off4_eq c) | exact Subtype.ext (k0_off6_eq c) | exact Subtype.ext (k0_off8_eq c)
    | exact Subtype.ext (k0_off10_eq c) | exact Subtype.ext (k0_off12_eq c) | exact Subtype.ext (k0_off14_eq c) | exact Subtype.ext (k0_off16_eq c)
    | exact Subtype.ext (k0_off18_eq c) | exact Subtype.ext (k0_off20_eq c) | exact Subtype.ext (k0_off22_eq c) | exact Subtype.ext (k0_off24_eq c)
    | exact Subtype.ext (k0_off26_eq c) | exact Subtype.ext (k0_off28_eq c) | exact Subtype.ext (k0_off30_eq c) | exact Subtype.ext (k0_off32_eq c)

theorem oRA_eq (c : Dev nD) (i : ℕ) (hi : i < 16) : oRA c i = oR i hi (col c) (col_lt c) := by
  have h : ∀ o o' : Off2, o = o' → Rect.unit (s := S1024x1024) o.1 S64x512.size o.2 = Rect.unit (s := S1024x1024) o'.1 S64x512.size o'.2 := by
    rintro o _ rfl; rfl
  exact h _ _ (offA_eq c i hi)
theorem oQ_eq (c : Dev nD) (i : ℕ) (hi : i < 16) : oQ c i = oP i hi (col c) (col_lt c) := by
  have h : ∀ o o' : Off2, o = o' → oM.slice (Rect.unit (s := S1024x1024) o.1 S64x512.size o.2) (fun _ => rfl)
      = oM.slice (Rect.unit (s := S1024x1024) o'.1 S64x512.size o'.2) (fun _ => rfl) := by
    rintro o _ rfl; rfl
  exact h _ _ (offB_eq c i hi)

/-! ## Which chunk an element belongs to -/

theorem row_of_mem_rP {i : ℕ} {hi : i < 16} {j : S1024x512.Idx} (h : j ∈ (rP i hi).view.set) : (j 0).val / 64 = i := by
  have h' : j ∈ (rR i hi).set := (View.set_slice_whole cc0_scratch0 (rR i hi)) ▸ h
  have h0 : 64 * i ≤ (j 0).val ∧ (j 0).val < 64 * i + 64 := Rect.mem_set_unit.mp h' 0
  omega
theorem rowcol_of_mem_oP {i : ℕ} {hi : i < 16} {b : ℕ} {hb : b < 2} {j : S1024x1024.Idx} (h : j ∈ (oP i hi b hb).view.set) :
    (j 0).val / 64 = i ∧ (j 1).val / 512 = b := by
  have h' : j ∈ (oR i hi b hb).set := (View.set_slice_whole cc0_stg1_0 (oR i hi b hb)) ▸ h
  have h0 : 64 * i ≤ (j 0).val ∧ (j 0).val < 64 * i + 64 := Rect.mem_set_unit.mp h' 0
  have h1 : 512 * b ≤ (j 1).val ∧ (j 1).val < 512 * b + 512 := Rect.mem_set_unit.mp h' 1
  omega

theorem rAt_of_row (c : Dev nD) (i : ℕ) (hi : i < 16) (j : S1024x512.Idx) (h : (j 0).val / 64 = i) :
    rAt m c j = (rP i hi).view.write (Elt F) (junkR (F := F)) ((xP i hi).view.read (Elt F) (xstg m (xp c))) Finset.univ j := by
  subst h; rfl
theorem outAt_own (c : Dev nD) (i : ℕ) (hi : i < 16) (j : S1024x1024.Idx) (h0 : (j 0).val / 64 = i) (h1 : (j 1).val / 512 = col c) :
    outAt m c j = ownW m c i hi j := by
  subst h0; unfold outAt; exact if_pos h1
theorem outAt_other (c d : Dev nD) (hd : yp c = d) (b : ℕ) (hb : b < 2) (hbd : col d = b) (i : ℕ) (hi : i < 16) (j : S1024x1024.Idx)
    (h0 : (j 0).val / 64 = i) (h1 : (j 1).val / 512 ≠ col c) :
    outAt m c j = (oP i hi b hb).view.write (Elt F) (junkO (F := F)) ((oP i hi b hb).view.read (Elt F) (ownW m d i hi)) Finset.univ j := by
  subst h0; subst hd; subst hbd; unfold outAt; exact if_neg h1

/-! ## The landings -/

/-- The first-axis transfer of chunk `i` from `c` lands as the receive cell's payload promises. -/
theorem landX (c : Dev nD) (i : ℕ) (hi : i < 16) (fd : (cc0_scratch0 : Ref sig .tc).ty.Contents (Elt F)) :
    ((rP i hi).view.loc (xp c : Thread nD τ) ↦[(rP i hi).view.set]{fullShare}
        (rP i hi).view.write (Elt F) fd ((xP i hi).view.read (Elt F) (xstg m c)) Finset.univ : sProp 𝕄)
      = rPc (xp c) i hi (rAt m (xp c)) := by
  unfold rPc
  refine pointsTo_congr fun j hj => ?_
  rw [rAt_of_row m (xp c) i hi j (row_of_mem_rP hj), xp_xp]
  exact View.write_congr (fun _ _ _ => rfl) (fun hn => absurd (by rw [View.setOn_univ]; exact hj) hn)

/-- The stored chunk is the chunk of the closed description: what the send cell of the second axis gets back. -/
theorem storedY (c : Dev nD) (i : ℕ) (hi : i < 16) (f0 : (cc0_stg1_0 : Ref sig .tc).ty.Contents (Elt F)) :
    ((oP i hi (col c) (col_lt c)).view.loc (c : Thread nD τ) ↦[(oP i hi (col c) (col_lt c)).view.set]{fullShare}
        (oM.access (oR i hi (col c) (col_lt c))).write (Elt F) f0 (ownVal m c i hi) Finset.univ : sProp 𝕄)
      = oPc c i hi (col c) (col_lt c) (outAt m c) := by
  unfold oPc
  refine pointsTo_congr fun j hj => ?_
  rw [outAt_own m c i hi j (rowcol_of_mem_oP hj).1 (rowcol_of_mem_oP hj).2]
  exact View.write_congr (fun _ _ _ => rfl) (fun hn => absurd (by rw [View.setOn_univ]; exact hj) hn)

theorem oPc_congr (c : Dev nD) (i : ℕ) (hi : i < 16) {b b' : ℕ} (e : b = b') (hb : b < 2) (hb' : b' < 2) (f : (cc0_stg1_0 : Ref sig .tc).ty.Contents (Elt F)) :
    (oPc c i hi b hb f : sProp 𝕄) = oPc c i hi b' hb' f := by subst e; rfl

/-- The second-axis transfer of chunk `i` from `c` lands as its neighbour's receive cell promises. -/
theorem landY (c : Dev nD) (i : ℕ) (hi : i < 16) (f0 fd : (cc0_stg1_0 : Ref sig .tc).ty.Contents (Elt F)) :
    ((oP i hi (col c) (col_lt c)).view.loc (yp c : Thread nD τ) ↦[(oP i hi (col c) (col_lt c)).view.set]{fullShare}
        (oP i hi (col c) (col_lt c)).view.write (Elt F) fd ((oP i hi (col c) (col_lt c)).view.read (Elt F)
          ((oM.access (oR i hi (col c) (col_lt c))).write (Elt F) f0 (ownVal m c i hi) Finset.univ)) Finset.univ : sProp 𝕄)
      = oPc (yp c) i hi (col (yp (yp c))) (col_lt _) (outAt m (yp c)) := by
  rw [oPc_congr (yp c) i hi (congrArg col (yp_yp c)) (col_lt _) (col_lt c)]
  unfold oPc
  refine pointsTo_congr fun j hj => ?_
  have hne : (j 1).val / 512 ≠ col (yp c) := by
    rw [(rowcol_of_mem_oP hj).2, col_yp]; have := col_lt c; omega
  rw [outAt_other m (yp c) c (yp_yp c) (col c) (col_lt c) rfl i hi j (rowcol_of_mem_oP hj).1 hne]
  refine View.write_congr (fun x _ _ => ?_) (fun hn => absurd (by rw [View.setOn_univ]; exact hj) hn)
  refine congrFun (View.read_congr fun k hk => ?_) x
  exact View.write_congr (fun _ _ _ => rfl) (fun hn => absurd (by rw [View.setOn_univ]; exact hk) hn)

end Cert.KernelIdeal.Proto

end
-- ==== Proof.KernelIdeal.Regions.lean ====
/-
  Each of the three buffers a device works on is the disjoint union of its sixteen chunks of 64 rows (the result
  buffer: of sixteen chunks in each half of its columns): holding a buffer is holding its chunks.
-/
import proofs.«900315_g7700000000000316_dist_rsx_agy_m1024_n512_v7x_xy2x2_f32_1_alg».proof.Proof.KernelIdeal.Landing

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ)

/-! ## The landing buffer -/

theorem mem_rP_iff {i : ℕ} {hi : i < 16} {j : S1024x512.Idx} : j ∈ (rP i hi).view.set ↔ (j 0).val / 64 = i := by
  refine ⟨row_of_mem_rP, fun h => ?_⟩
  have h' : j ∈ (rR i hi).set := Rect.mem_set_unit.mpr fun a => by
    match a with
    | ⟨0, _⟩ => exact (show 64 * i ≤ (j 0).val ∧ (j 0).val < 64 * i + 64 from by omega)
    | ⟨1, _⟩ => exact (show 0 ≤ (j 1).val ∧ (j 1).val < 0 + 512 from ⟨Nat.zero_le _, by have h1 : (j 1).val < 512 := (j 1).isLt; omega⟩)
  exact (View.set_slice_whole cc0_scratch0 (rR i hi)).symm ▸ h'

theorem scr_chunks (c : Dev nD) (f : (cc0_scratch0 : Ref sig .tc).ty.Contents (Elt F)) :
    (((c : Thread nD τ).loc cc0_scratch0) ↦{fullShare} f : sProp 𝕄) = bigSep (Finset.univ : Finset (Fin 16)) fun i => rPc c i.val i.isLt f := by
  unfold rPc
  have hcov : (Finset.univ : Finset (Fin 16)).biUnion (fun i => (rP i.val i.isLt).view.set) = Finset.univ :=
    Finset.eq_univ_iff_forall.mpr fun (j : S1024x512.Idx) => Finset.mem_biUnion.mpr
      ⟨⟨(j 0).val / 64, by have h0 : (j 0).val < 1024 := (j 0).isLt; omega⟩, Finset.mem_univ _, mem_rP_iff.mpr rfl⟩
  have h := pointsTo_biUnion (Ix := Unit) (Name := ℕ) (U := UU) (Lvl := ℕ) (ℓ := (c : Thread nD τ).loc cc0_scratch0) (q := fullShare) (f := f) Finset.univ (fun i : Fin 16 => (rP i.val i.isLt).view.set)
    (fun i _ i' _ hne => Finset.disjoint_left.mpr fun j hj hj' => hne (Fin.ext ((mem_rP_iff.mp hj).symm.trans (mem_rP_iff.mp hj'))))
  rw [hcov] at h
  exact h

/-! ## The result buffer -/

theorem mem_oP_iff {i : ℕ} {hi : i < 16} {b : ℕ} {hb : b < 2} {j : S1024x1024.Idx} :
    j ∈ (oP i hi b hb).view.set ↔ ((j 0).val / 64 = i ∧ (j 1).val / 512 = b) := by
  refine ⟨rowcol_of_mem_oP, fun h => ?_⟩
  have h' : j ∈ (oR i hi b hb).set := Rect.mem_set_unit.mpr fun a => by
    match a with
    | ⟨0, _⟩ => exact (show 64 * i ≤ (j 0).val ∧ (j 0).val < 64 * i + 64 from by omega)
    | ⟨1, _⟩ => exact (show 512 * b ≤ (j 1).val ∧ (j 1).val < 512 * b + 512 from by omega)
  exact (View.set_slice_whole cc0_stg1_0 (oR i hi b hb)).symm ▸ h'

theorem out_chunks (c : Dev nD) (f : (cc0_stg1_0 : Ref sig .tc).ty.Contents (Elt F)) :
    (((c : Thread nD τ).loc cc0_stg1_0) ↦{fullShare} f : sProp 𝕄)
      = bigSep (Finset.univ : Finset (Fin 16 × Fin 2)) fun ib => oPc c ib.1.val ib.1.isLt ib.2.val ib.2.isLt f := by
  unfold oPc
  have hcov : (Finset.univ : Finset (Fin 16 × Fin 2)).biUnion (fun ib => (oP ib.1.val ib.1.isLt ib.2.val ib.2.isLt).view.set) = Finset.univ :=
    Finset.eq_univ_iff_forall.mpr fun (j : S1024x1024.Idx) => Finset.mem_biUnion.mpr
      ⟨(⟨(j 0).val / 64, by have h0 : (j 0).val < 1024 := (j 0).isLt; omega⟩, ⟨(j 1).val / 512, by have h1 : (j 1).val < 1024 := (j 1).isLt; omega⟩),
        Finset.mem_univ _, mem_oP_iff.mpr ⟨rfl, rfl⟩⟩
  have h := pointsTo_biUnion (Ix := Unit) (Name := ℕ) (U := UU) (Lvl := ℕ) (ℓ := (c : Thread nD τ).loc cc0_stg1_0) (q := fullShare) (f := f) Finset.univ
    (fun ib : Fin 16 × Fin 2 => (oP ib.1.val ib.1.isLt ib.2.val ib.2.isLt).view.set)
    (fun ib _ ib' _ hne => Finset.disjoint_left.mpr fun j hj hj' => hne (Prod.ext
      (Fin.ext ((mem_oP_iff.mp hj).1.symm.trans (mem_oP_iff.mp hj').1)) (Fin.ext ((mem_oP_iff.mp hj).2.symm.trans (mem_oP_iff.mp hj').2))))
  rw [hcov] at h
  exact h

set_option maxHeartbeats 1000000 in
/-- The result buffer as the chunks of the device's own half of the columns and those of the other half. -/
theorem out_halves (c : Dev nD) (f : (cc0_stg1_0 : Ref sig .tc).ty.Contents (Elt F)) :
    (((c : Thread nD τ).loc cc0_stg1_0) ↦{fullShare} f : sProp 𝕄)
      ⊣⊢ iprop((bigSep (Finset.univ : Finset (Fin 16)) fun i => oPc c i.val i.isLt (col c) (col_lt c) f)
          ∗ bigSep (Finset.univ : Finset (Fin 16)) fun i => oPc c i.val i.isLt (col (yp c)) (col_lt _) f) := by
  have e1 : (((c : Thread nD τ).loc cc0_stg1_0) ↦{fullShare} f : sProp 𝕄)
      = iprop((bigSep (Finset.univ : Finset (Fin 16)) fun i => oPc c i.val i.isLt 0 (by decide) f)
          ∗ bigSep (Finset.univ : Finset (Fin 16)) fun i => oPc c i.val i.isLt 1 (by decide) f) := by
    rw [out_chunks, bigSep_univ_prod, ← bigSep_sep']
    exact bigSep_congr fun i _ => bigSep_univ_two _
  rw [e1]
  have hc : col c = 0 ∨ col c = 1 := by have := col_lt c; omega
  rcases hc with h | h
  · have h' : col (yp c) = 1 := by rw [col_yp, h]
    have ea : (bigSep (Finset.univ : Finset (Fin 16)) fun i => (oPc c i.val i.isLt (col c) (col_lt c) f : sProp 𝕄))
        = bigSep (Finset.univ : Finset (Fin 16)) fun i => oPc c i.val i.isLt 0 (by decide) f :=
      bigSep_congr fun i _ => oPc_congr c i.val i.isLt h (col_lt c) (by decide) f
    have eb : (bigSep (Finset.univ : Finset (Fin 16)) fun i => (oPc c i.val i.isLt (col (yp c)) (col_lt _) f : sProp 𝕄))
        = bigSep (Finset.univ : Finset (Fin 16)) fun i => oPc c i.val i.isLt 1 (by decide) f :=
      bigSep_congr fun i _ => oPc_congr c i.val i.isLt h' (col_lt _) (by decide) f
    rw [ea, eb]
  · have h' : col (yp c) = 0 := by rw [col_yp, h]
    have ea : (bigSep (Finset.univ : Finset (Fin 16)) fun i => (oPc c i.val i.isLt (col c) (col_lt c) f : sProp 𝕄))
        = bigSep (Finset.univ : Finset (Fin 16)) fun i => oPc c i.val i.isLt 1 (by decide) f :=
      bigSep_congr fun i _ => oPc_congr c i.val i.isLt h (col_lt c) (by decide) f
    have eb : (bigSep (Finset.univ : Finset (Fin 16)) fun i => (oPc c i.val i.isLt (col (yp c)) (col_lt _) f : sProp 𝕄))
        = bigSep (Finset.univ : Finset (Fin 16)) fun i => oPc c i.val i.isLt 0 (by decide) f :=
      bigSep_congr fun i _ => oPc_congr c i.val i.isLt h' (col_lt _) (by decide) f
    rw [ea, eb]
    exact ⟨sep_comm.1, sep_comm.1⟩

/-! ## The input staging buffer -/

theorem xP_set (i : ℕ) (hi : i < 16) : (xP i hi).view.set = (xR i hi).set :=
  (View.set_reshape _ _).trans (View.set_slice_whole cc0_stg0_0 (xR i hi))

theorem mem_xP_iff {i : ℕ} {hi : i < 16} {j : S1x1024x512.Idx} : j ∈ (xP i hi).view.set ↔ (j 1).val / 64 = i := by
  rw [xP_set]
  constructor
  · intro h
    have h1 : 64 * i ≤ (j 1).val ∧ (j 1).val < 64 * i + 64 := Rect.mem_set_unit.mp h 1
    omega
  · intro h
    exact Rect.mem_set_unit.mpr fun a => by
      match a with
      | ⟨0, _⟩ => exact (show 0 ≤ (j 0).val ∧ (j 0).val < 0 + 1 from ⟨Nat.zero_le _, by have h0 : (j 0).val < 1 := (j 0).isLt; omega⟩)
      | ⟨1, _⟩ => exact (show 64 * i ≤ (j 1).val ∧ (j 1).val < 64 * i + 64 from by omega)
      | ⟨2, _⟩ => exact (show 0 ≤ (j 2).val ∧ (j 2).val < 0 + 512 from ⟨Nat.zero_le _, by have h2 : (j 2).val < 512 := (j 2).isLt; omega⟩)

theorem x_chunks (c : Dev nD) (q : PosShare TreeShare) :
    (((c : Thread nD τ).loc cc0_stg0_0) ↦{q} xstg m c : sProp 𝕄) = bigSep (Finset.univ : Finset (Fin 16)) fun i => xPc m c i.val i.isLt q := by
  unfold xPc
  have hcov : (Finset.univ : Finset (Fin 16)).biUnion (fun i => (xP i.val i.isLt).view.set) = Finset.univ :=
    Finset.eq_univ_iff_forall.mpr fun (j : S1x1024x512.Idx) => Finset.mem_biUnion.mpr
      ⟨⟨(j 1).val / 64, by have h1 : (j 1).val < 1024 := (j 1).isLt; omega⟩, Finset.mem_univ _, mem_xP_iff.mpr rfl⟩
  have h := pointsTo_biUnion (Ix := Unit) (Name := ℕ) (U := UU) (Lvl := ℕ) (ℓ := (c : Thread nD τ).loc cc0_stg0_0) (q := q) (f := xstg m c) Finset.univ (fun i : Fin 16 => (xP i.val i.isLt).view.set)
    (fun i _ i' _ hne => Finset.disjoint_left.mpr fun j hj hj' => hne (Fin.ext ((mem_xP_iff.mp hj).symm.trans (mem_xP_iff.mp hj'))))
  rw [hcov] at h
  exact h

end Cert.KernelIdeal.Proto

end
-- ==== Proof.KernelIdeal.Ghost.lean ====
/-
  The ghost state of the protocol as each device holds it: the invariants of all the cells (their names dealt at
  launch) and that each has reached its one round; and, chunk by chunk, the families of tokens, credits, positions
  and buffer chunks the four runs of the body consume and produce.
-/
import proofs.«900315_g7700000000000316_dist_rsx_agy_m1024_n512_v7x_xy2x2_f32_1_alg».proof.Proof.KernelIdeal.Regions

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

abbrev 𝒱₀ : Variants := Variants.none

/-! ## The cells, by key -/

/-- A device's cells: its barrier cell, and family `k` (first-axis send, first-axis receive, second-axis send,
    second-axis receive) chunk `i`. -/
abbrev CK : Type := Unit ⊕ (Fin 4 × Fin 16)
def dsem (k : Fin 4) (i : Fin 16) : DmaSem sig := match k with
  | 0 => sxS i.val i.isLt | 1 => rxS i.val i.isLt | 2 => syS i.val i.isLt | 3 => ryS i.val i.isLt
def csem : CK → SemLoc sig
  | .inl _ => .reg barS
  | .inr (k, i) => .dma (dsem k i)
abbrev kcell (ck : Dev nD × CK) : GSem nD τ sig := ((ck.1 : Thread nD τ), csem ck.2)

/-- The invariants of all cells under the names `K`, and that every cell is at its round. -/
def records (K : Dev nD × CK → ℕ) : sProp 𝕄 :=
  iprop((bigSep Finset.univ fun ck : Dev nD × CK => cellInv ER (Rd m) (K ck) (kcell ck))
    ∗ bigSep Finset.univ fun ck : Dev nD × CK => reached ER (kcell ck) 0)

instance records_persistent (K : Dev nD × CK → ℕ) : BI.Persistent (records m K) := by unfold records; infer_instance

theorem inv_at' (K : Dev nD × CK → ℕ) (ck : Dev nD × CK) :
    (bigSep Finset.univ fun ck : Dev nD × CK => (cellInv ER (Rd m) (K ck) (kcell ck) : sProp 𝕄)) ⊢ cellInv ER (Rd m) (K ck) (kcell ck) :=
  bigSep_elim (Finset.mem_univ ck)
theorem reached_at' (ck : Dev nD × CK) :
    (bigSep Finset.univ fun ck : Dev nD × CK => (reached ER (kcell ck) 0 : sProp 𝕄)) ⊢ reached ER (kcell ck) 0 :=
  bigSep_elim (Finset.mem_univ ck)
theorem inv_at (K : Dev nD × CK → ℕ) (ck : Dev nD × CK) : records m K ⊢ cellInv ER (Rd m) (K ck) (kcell ck) := by
  unfold records; iintro ⟨H, -⟩; iapply (inv_at' m K ck); iexact H
theorem reached_at (K : Dev nD × CK → ℕ) (ck : Dev nD × CK) : records m K ⊢ reached ER (kcell ck) 0 := by
  unfold records; iintro ⟨-, H⟩; iapply (reached_at' (F := F) ck); iexact H

/-- the keys of the four families -/
abbrev kBar : CK := .inl ()
abbrev kSx (i : ℕ) (hi : i < 16) : CK := .inr (0, ⟨i, hi⟩)
abbrev kRx (i : ℕ) (hi : i < 16) : CK := .inr (1, ⟨i, hi⟩)
abbrev kSy (i : ℕ) (hi : i < 16) : CK := .inr (2, ⟨i, hi⟩)
abbrev kRy (i : ℕ) (hi : i < 16) : CK := .inr (3, ⟨i, hi⟩)

/-! ## The families, chunk by chunk -/

/-- a family of semaphores: one of `sxS`, `rxS`, `syS`, `ryS` -/
abbrev Fam : Type := (k : ℕ) → k < 16 → DmaSem sig

def fTok (d : Dev nD) (S : Fam) (k : ℕ) : sProp 𝕄 := if hk : k < 16 then dutyTok ER (dmaC d (S k hk)) 0 false else iprop(emp)
def fCred (c : Dev nD) (S : Fam) (k : ℕ) : sProp 𝕄 := if hk : k < 16 then cred (tallyAt (dmaC c (S k hk)) () 4096) else iprop(emp)
def fPos (c : Dev nD) (S : Fam) (R : ℕ) (k : ℕ) : sProp 𝕄 := if hk : k < 16 then atPos ER (dmaC c (S k hk)) R ∅ 0 else iprop(emp)
/-- the own rows of chunk `k` at a share -/
def fX (c : Dev nD) (q : PosShare TreeShare) (k : ℕ) : sProp 𝕄 := if hk : k < 16 then xPc m c k hk q else iprop(emp)
/-- chunk `k` of device `d`'s landing buffer at some contents; at its final contents -/
def fRany (d : Dev nD) (k : ℕ) : sProp 𝕄 := if hk : k < 16 then iprop(∃ f, rPc d k hk f) else iprop(emp)
def fRat (c : Dev nD) (k : ℕ) : sProp 𝕄 := if hk : k < 16 then rPc c k hk (rAt m c) else iprop(emp)
/-- chunk `k` of half `b` of the columns of device `d`'s result buffer at some contents; at its final contents -/
def fOany (d : Dev nD) (b : ℕ) (hb : b < 2) (k : ℕ) : sProp 𝕄 := if hk : k < 16 then iprop(∃ f, oPc d k hk b hb f) else iprop(emp)
def fOat (c : Dev nD) (b : ℕ) (hb : b < 2) (k : ℕ) : sProp 𝕄 := if hk : k < 16 then oPc c k hk b hb (outAt m c) else iprop(emp)

/-- A family over the sixteen chunks as a run over the numbers below sixteen. -/
theorem fin_eq_range (D : Fin 16 → sProp 𝕄) (Ψ : ℕ → sProp 𝕄) (h : ∀ (t : ℕ) (ht : t < 16), Ψ t = D ⟨t, ht⟩) :
    bigSep Finset.univ D = bigSep (Finset.range 16) Ψ := Ring.bigSep_fin_eq_range 16 D Ψ h

end Cert.KernelIdeal.Proto

end
-- ==== Proof.KernelIdeal.StepB.lean ====
/-
  The sixteen first-axis transfers.  Chunk `i`: the device lends the left half of its share of its own rows to its
  send cell, writes its first-axis neighbour's landing chunk (which that neighbour handed over at the handshake),
  and pays that neighbour's receive cell the chunk's credit.
-/
import proofs.«900315_g7700000000000316_dist_rsx_agy_m1024_n512_v7x_xy2x2_f32_1_alg».proof.Proof.KernelIdeal.Ghost

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section StepB
variable (K : Dev nD × CK → ℕ)

/-- One transfer, addressed to `n = xp c`. -/
theorem wp_sendX (c n : Dev nD) (hn : n = xp c) (i : ℕ) (hi : i < 16)
    {hsc : ((rP i hi) : Memref sig (Dev.tc n : Thread nD τ).2.kind .vmem S64x512 .f32).view.ref.isScScratch = false}
    {hsrc : (xP i hi).view.WordExact} {hdst : (rP i hi).view.WordExact}
    {hsem : DmaTarget.Typed .vmem (.dma (rxS i hi)) (.remote (Dev.tc n : Thread nD τ) (rP i hi) (.dma (sxS i hi)) hsc)}
    {α : Type} {Q : α → sProp 𝕄} {k : PUnit → Prog (TpuEff nD τ sig (Elt F) Λ₀ .tc) α}
    (fd : (cc0_scratch0 : Ref sig .tc).ty.Contents (Elt F)) (O : CellTallies nD τ sig Unit) (W : Waits sig Unit) :
    iprop(records m K ∗ xPc m c i hi fullShare.left ∗ rPc (xp c) i hi fd
        ∗ owes (c : Thread nD τ) (O + tallyAt (dmaC (xp c) (rxS i hi)) () 4096) W
        ∗ dutyTok ER (dmaC c (sxS i hi)) 0 false ∗ dutyTok ER (dmaC (xp c) (rxS i hi)) 0 false)
      ⊢ iprop(((cred (tallyAt (dmaC c (sxS i hi)) () 4096) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (xP i hi) (.remote (Dev.tc n : Thread nD τ) (rP i hi) (.dma (sxS i hi)) hsc) (.dma (rxS i hi)) hsrc hdst hsem) k) Q) := by
  subst hn
  iintro ⟨#HR, Hx, Hr, HO, Ht1, Ht2⟩
  unfold xPc rPc
  iapply (Rounds.wp_send_pointsTo 𝒱₀ ER (Rd m) (c : Thread nD τ) none (src := xP i hi) (dst := rP i hi) (c' := (xp c : Thread nD τ))
    (q := fullShare.left) (fs := xstg m c) (κ₁ := K (c, kSx i hi)) (κ₂ := K (xp c, kRx i hi))
    (r₁ := 0) (r₂ := 0) (d₁ := false) (d₂ := false) (fd := fd)
    (by rw [duties_dma m c _ (scr_sx i hi)]; exact Finset.mem_singleton_self _)
    (by rw [duties_dma m (xp c) _ (scr_rx i hi)]; exact Finset.mem_singleton_self _)
    () () 4096 rfl (amount_dma m c _ false) (amount_dma m (xp c) _ false) O rfl (W := W)
    (by rw [payload_sx]; all_goals exact BI.Entails.refl _)
    (by rw [payload_rx]; unfold rxPay; rw [landX]; all_goals exact BI.Entails.refl _))
  isplitr; · iapply (inv_at m K (c, kSx i hi)); iexact HR
  isplitr; · iapply (inv_at m K (xp c, kRx i hi)); iexact HR
  isplitl [Hx]; · iexact Hx
  isplitl [Hr]; · iexact Hr
  isplitl [HO]; · iexact HO
  isplitl [Ht1]; · iexact Ht1
  isplitr; · iapply (reached_at m K (c, kSx i hi)); iexact HR
  isplitl [Ht2]; · iexact Ht2
  iapply (reached_at m K (xp c, kRx i hi)); iexact HR

/-- What the transfers of the chunks from `i` on need, and what those before `i` have left. -/
def needB (c : Dev nD) (i : ℕ) : sProp 𝕄 :=
  bigSep (Finset.Ico i 16) fun k => iprop(fX m c fullShare.left k ∗ fRany (xp c) k ∗ fTok c sxS k ∗ fTok (xp c) rxS k)
def doneB (c : Dev nD) (i : ℕ) : sProp 𝕄 := bigSep (Finset.range i) (fCred c sxS)

theorem run_B (c : Dev nD) (O : CellTallies nD τ sig Unit) (W : Waits sig Unit) (rest : PU F) (Q : PUnit → sProp 𝕄) :
    ∀ (n i : ℕ) (h : n ≤ 16), i + n = 16 →
    iprop(records m K ∗ needB m c i ∗ doneB c i ∗ owes (c : Thread nD τ) (oweX c i + O) W)
      ⊢ iprop(((doneB c 16 ∗ owes (c : Thread nD τ) O W) -∗ wp frame (wpE (defs₀ (F := F)) 𝒱₀ (c : Thread nD τ) none) Set.univ rest Q)
          -∗ wp frame (wpE (defs₀ (F := F)) 𝒱₀ (c : Thread nD τ) none) Set.univ (run (stepB c) rest n h) Q) := by
  intro n
  induction n with
  | zero =>
    intro i h hin
    have hi : i = 16 := by omega
    subst hi
    rw [oweX_end, zero_add]
    show _ ⊢ iprop(_ -∗ wp frame _ Set.univ rest Q)
    iintro ⟨-, -, HD, HO⟩ Hk
    iapply Hk
    isplitl [HD] <;> iassumption
  | succ n ih =>
    intro i h hin
    have hi : i < 16 := by omega
    have hi' : 16 - (n + 1) = i := by omega
    have hstep : ∀ (j : ℕ) (hj : j < 16), j = i → stepB (F := F) c j hj (run (stepB c) rest n (by omega)) = stepB c i hi (run (stepB c) rest n (by omega)) := by
      intro j hj e; subst e; rfl
    have hprog : run (stepB (F := F) c) rest (n + 1) h = stepB c i hi (run (stepB c) rest n (by omega)) := hstep (16 - (n + 1)) (by omega) hi'
    rw [hprog, oweX_step c i hi, add_right_comm]
    unfold stepB needB
    rw [Ring.bigSep_Ico_succ hi]
    unfold fX fRany fTok
    rw [dif_pos hi, dif_pos hi, dif_pos hi, dif_pos hi]
    iintro ⟨#HR, HN, HD, HO⟩ Hk
    icases HN with ⟨⟨Hx, Hr, Ht1, Ht2⟩, HN⟩
    icases Hr with ⟨%fd, Hr⟩
    iapply (wp_sendX m K c (devB c i) (devB_eq c i hi) i hi fd (oweX c (i + 1) + O) W) $$ [Hx Hr HO Ht1 Ht2]
    · isplitr; · iexact HR
      isplitl [Hx]; · iexact Hx
      isplitl [Hr]; · iexact Hr
      isplitl [HO]; · iexact HO
      isplitl [Ht1] <;> iassumption
    iintro ⟨Hc, HO⟩
    iapply (ih (i + 1) (by omega) (by omega)) $$ [HN HD Hc HO]
    · isplitr; · iexact HR
      isplitl [HN]; · unfold needB; iexact HN
      isplitl [HD Hc]
      · unfold doneB; rw [Ring.bigSep_range_succ]; unfold fCred; rw [dif_pos hi]
        isplitl [Hc] <;> iassumption
      iexact HO
    iexact Hk

end StepB

end Cert.KernelIdeal.Proto

end
-- ==== Proof.KernelIdeal.StepC.lean ====
/-
  The sixteen rounds of the middle of the body.  Round `i`: wait until the first-axis neighbour's chunk `i` has
  landed (what is still owed then are second-axis receive credits only, which sit above); read the own rows and
  the landed rows; store their sum into the own half of the result's columns; send the stored chunk to the
  second-axis neighbour, into the chunk of its result buffer it handed over at the handshake.
-/
import proofs.«900315_g7700000000000316_dist_rsx_agy_m1024_n512_v7x_xy2x2_f32_1_alg».proof.Proof.KernelIdeal.StepB

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- Round `i` over a device `n` and offsets `oA` (the store's) and `oB` (the transfer's) as the body prints them. -/
def stepCg (n : Dev nD) (oA oB : Off2) (i : ℕ) (hi : i < 16) (k : PU F) : PU F :=
  Prog.op (.waitDma2 (rxS i hi) (xP i hi) (rP i hi) ((View.wordExact_bits rfl).reshape _ _) (View.wordExact_bits rfl)) fun _ =>
  Prog.op (.load xM (xR i hi).toLoadRect (View.loadsAt_vmem h_S1x64x512)) fun v1 =>
  Prog.op (.load rM (rR i hi).toLoadRect (View.loadsAt_vmem h_S64x512)) fun v2 =>
  Prog.op (.load oM (Rect.unit (s := S1024x1024) oA.1 S64x512.size oA.2).toLoadRect (View.loadsAt_vmem h_S64x512)) fun _ =>
  Prog.op (.store oM (Rect.unit (s := S1024x1024) oA.1 S64x512.size oA.2) (k0_pay1 v1 v2) Finset.univ (View.stores_vmem_bits_univ h_S64x512 rfl) (.inl rfl)) fun _ =>
  Prog.op (.enqueueDma (oM.slice (Rect.unit (s := S1024x1024) oB.1 S64x512.size oB.2) (fun _ => rfl))
      (.remote (Dev.tc n) (oM.slice (Rect.unit (s := S1024x1024) oB.1 S64x512.size oB.2) (fun _ => rfl)) (.dma (syS i hi))) (.dma (ryS i hi))
      (View.wordExact_bits rfl) (View.wordExact_bits rfl) ⟨⟨rfl, Or.inl rfl⟩, trivial⟩) fun _ => k

theorem stepC_eq (c : Dev nD) (i : ℕ) (hi : i < 16) (k : PU F) : stepC c i hi k = stepCg (devC c i) (offA c i) (offB c i) i hi k := rfl

theorem credit_chunk_r (i : ℕ) (hi : i < 16) : (rP i hi).view.dmaCredit = 4096 := rfl
theorem credit_chunk_x (i : ℕ) (hi : i < 16) : (xP i hi).view.dmaCredit = 4096 := rfl
theorem credit_chunk_o (i : ℕ) (hi : i < 16) (b : ℕ) (hb : b < 2) : (oP i hi b hb).view.dmaCredit = 4096 := rfl

section StepC
variable (K : Dev nD × CK → ℕ)

set_option maxHeartbeats 1600000 in
theorem wp_stepCg (c n : Dev nD) (hn : n = yp c) (i : ℕ) (hi : i < 16) (oA oB : Off2)
    (hA : oA = ⟨![64 * i, 512 * col c], hoin i hi (col c) (col_lt c)⟩) (hB : oB = ⟨![64 * i, 512 * col c], hoin i hi (col c) (col_lt c)⟩)
    (k : PU F) (Q : PUnit → sProp 𝕄) (W : Waits sig Unit)
    (f0 fd : (cc0_stg1_0 : Ref sig .tc).ty.Contents (Elt F)) :
    iprop(records m K ∗ levAts L lv
        ∗ cred (tallyAt (dmaC c (rxS i hi)) () 4096) ∗ atPos ER (dmaC c (rxS i hi)) 0 ∅ 0
        ∗ owes (c : Thread nD τ) (oweY c i) W
        ∗ xPc m c i hi fullShare.right ∗ oPc c i hi (col c) (col_lt c) f0 ∗ oPc (yp c) i hi (col c) (col_lt c) fd
        ∗ dutyTok ER (dmaC c (syS i hi)) 0 false ∗ dutyTok ER (dmaC (yp c) (ryS i hi)) 0 false)
      ⊢ iprop(((∃ W', cred (tallyAt (dmaC c (syS i hi)) () 4096) ∗ atPos ER (dmaC c (rxS i hi)) 1 ∅ 0 ∗ owes (c : Thread nD τ) (oweY c (i + 1)) W'
                ∗ xPc m c i hi fullShare.right ∗ rPc c i hi (rAt m c))
            -∗ wp frame (wpE (defs₀ (F := F)) 𝒱₀ (c : Thread nD τ) none) Set.univ k Q)
          -∗ wp frame (wpE (defs₀ (F := F)) 𝒱₀ (c : Thread nD τ) none) Set.univ (stepCg n oA oB i hi k) Q) := by
  subst hn; subst hA; subst hB
  unfold stepCg
  iintro ⟨#HR, #Hlev, Hc, Hat, HO, Hx, Ho, Hd, Ht1, Ht2⟩ Hk
  -- the wait for the landing
  iapply (Rounds.wp_wait_rest_token 𝒱₀ ER (Rd m) (c : Thread nD τ) none (κ := K (c, kRx i hi))
      (wpE_waitDma2_eq 𝒱₀ (c : Thread nD τ) none Set.univ) (Set.mem_univ _) () (O := oweY c i) (W := W) (R := 0) (m := 0) (T := ∅)
      (by rw [Nat.zero_add, expect_dma m c _ (scr_rx i hi)]; rfl)) $$ [Hc HO Hat]
  · isplitr; · iapply (inv_at m K (c, kRx i hi)); iexact HR
    isplitl [Hc]; · iexact Hc
    isplitl [HO]; · iexact HO
    isplitr; · iapply (mayWait_rx c i hi i); iexact Hlev
    iexact Hat
  iintro ⟨HO, Hat, -, Hpay⟩
  ihave Hr := (Entails.of_eq ((rest_dma m c _ (scr_rx i hi)).trans (payload_rx m c i hi false))) $$ Hpay
  unfold rxPay xPc rPc oPc
  -- the three loads and the store
  iapply (wp_load 𝒱₀ (c : Thread nD τ) none Set.univ (m := xM)
    (Memref.setOn_subset_of_access_subset (c : Thread nD τ) (m := xM) (r := xR i hi) (by rw [xP_set]; exact (View.set_slice_whole cc0_stg0_0 (xR i hi)).le))) $$ Hx; iintro Hx
  iapply (wp_load 𝒱₀ (c : Thread nD τ) none Set.univ (m := rM) (Memref.setOn_subset_of_access_subset (c : Thread nD τ) (m := rM) (r := rR i hi) subset_rfl)) $$ Hr; iintro Hr
  iapply (wp_load 𝒱₀ (c : Thread nD τ) none Set.univ (m := oM) (Memref.setOn_subset_of_access_subset (c : Thread nD τ) (m := oM) (r := oR i hi (col c) (col_lt c)) subset_rfl)) $$ Ho; iintro Ho
  iapply (wp_store 𝒱₀ (c : Thread nD τ) none Set.univ (m := oM) (r := oR i hi (col c) (col_lt c)) (Mk := Finset.univ)
    (S := (oM.access (oR i hi (col c) (col_lt c))).set) (f := f0) (by rw [View.setOn_univ])) $$ Ho; iintro Ho
  -- the transfer of the stored chunk
  iapply (Rounds.wp_send_pointsTo 𝒱₀ ER (Rd m) (c : Thread nD τ) none (src := oP i hi (col c) (col_lt c)) (dst := oP i hi (col c) (col_lt c))
    (c' := (yp c : Thread nD τ)) (q := fullShare)
    (fs := (oM.access (oR i hi (col c) (col_lt c))).write (Elt F) f0 (ownVal m c i hi) Finset.univ)
    (κ₁ := K (c, kSy i hi)) (κ₂ := K (yp c, kRy i hi)) (r₁ := 0) (r₂ := 0) (d₁ := false) (d₂ := false) (fd := fd)
    (by rw [duties_dma m c _ (scr_sy i hi)]; exact Finset.mem_singleton_self _)
    (by rw [duties_dma m (yp c) _ (scr_ry i hi)]; exact Finset.mem_singleton_self _)
    () () 4096 rfl (amount_dma m c _ false) (amount_dma m (yp c) _ false) (oweY c (i + 1)) (oweY_step c i hi)
    (W := insert (SemLoc.dma (rxS i hi), ()) W)
    (by rw [payload_sy]; unfold syPay; rw [storedY]; all_goals exact BI.Entails.refl _)
    (by rw [payload_ry]; unfold ryPay; rw [landY]; all_goals exact BI.Entails.refl _)) $$ [Ho Hd HO Ht1 Ht2]
  · isplitr; · iapply (inv_at m K (c, kSy i hi)); iexact HR
    isplitr; · iapply (inv_at m K (yp c, kRy i hi)); iexact HR
    isplitl [Ho]; · iexact Ho
    isplitl [Hd]; · iexact Hd
    isplitl [HO]; · iexact HO
    isplitl [Ht1]; · iexact Ht1
    isplitr; · iapply (reached_at m K (c, kSy i hi)); iexact HR
    isplitl [Ht2]; · iexact Ht2
    iapply (reached_at m K (yp c, kRy i hi)); iexact HR
  iintro ⟨Hcs, HO⟩
  iapply Hk
  iexists _
  isplitl [Hcs]; · iexact Hcs
  isplitl [Hat]; · iexact Hat
  isplitl [HO]; · iexact HO
  isplitl [Hx]; · iexact Hx
  iexact Hr

def needC (c : Dev nD) (i : ℕ) : sProp 𝕄 :=
  bigSep (Finset.Ico i 16) fun k => iprop(fCred c rxS k ∗ fPos c rxS 0 k ∗ fX m c fullShare.right k ∗ fOany c (col c) (col_lt c) k
    ∗ fOany (yp c) (col c) (col_lt c) k ∗ fTok c syS k ∗ fTok (yp c) ryS k)
def doneC (c : Dev nD) (i : ℕ) : sProp 𝕄 :=
  bigSep (Finset.range i) fun k => iprop(fCred c syS k ∗ fPos c rxS 1 k ∗ fX m c fullShare.right k ∗ fRat m c k)

theorem run_C (c : Dev nD) (rest : PU F) (Q : PUnit → sProp 𝕄) :
    ∀ (n i : ℕ) (h : n ≤ 16), i + n = 16 →
    iprop(records m K ∗ levAts L lv ∗ needC m c i ∗ doneC m c i ∗ (∃ W, owes (c : Thread nD τ) (oweY c i) W))
      ⊢ iprop(((doneC m c 16 ∗ ∃ W, owes (c : Thread nD τ) 0 W) -∗ wp frame (wpE (defs₀ (F := F)) 𝒱₀ (c : Thread nD τ) none) Set.univ rest Q)
          -∗ wp frame (wpE (defs₀ (F := F)) 𝒱₀ (c : Thread nD τ) none) Set.univ (run (stepC c) rest n h) Q) := by
  intro n
  induction n with
  | zero =>
    intro i h hin
    have hi : i = 16 := by omega
    subst hi
    rw [oweY_end]
    show _ ⊢ iprop(_ -∗ wp frame _ Set.univ rest Q)
    iintro ⟨-, -, -, HD, HO⟩ Hk
    iapply Hk
    isplitl [HD] <;> iassumption
  | succ n ih =>
    intro i h hin
    have hi : i < 16 := by omega
    have hi' : 16 - (n + 1) = i := by omega
    have hstep : ∀ (j : ℕ) (hj : j < 16), j = i → stepC (F := F) c j hj (run (stepC c) rest n (by omega)) = stepC c i hi (run (stepC c) rest n (by omega)) := by
      intro j hj e; subst e; rfl
    have hprog : run (stepC (F := F) c) rest (n + 1) h = stepC c i hi (run (stepC c) rest n (by omega)) := hstep (16 - (n + 1)) (by omega) hi'
    rw [hprog, stepC_eq]
    unfold needC
    rw [Ring.bigSep_Ico_succ hi]
    unfold fCred fPos fX fOany fTok
    rw [dif_pos hi, dif_pos hi, dif_pos hi, dif_pos hi, dif_pos hi, dif_pos hi, dif_pos hi]
    iintro ⟨#HR, #Hlev, HN, HD, ⟨%W, HO⟩⟩ Hk
    icases HN with ⟨⟨Hc, Hat, Hx, Ho, Hd, Ht1, Ht2⟩, HN⟩
    icases Ho with ⟨%f0, Ho⟩
    icases Hd with ⟨%fd, Hd⟩
    iapply (wp_stepCg m K c (devC c i) (devC_eq c i hi) i hi (offA c i) (offB c i) (offA_eq c i hi) (offB_eq c i hi) _ Q W f0 fd) $$ [Hc Hat HO Hx Ho Hd Ht1 Ht2]
    · isplitr; · iexact HR
      isplitr; · iexact Hlev
      isplitl [Hc]; · iexact Hc
      isplitl [Hat]; · iexact Hat
      isplitl [HO]; · iexact HO
      isplitl [Hx]; · iexact Hx
      isplitl [Ho]; · iexact Ho
      isplitl [Hd]; · iexact Hd
      isplitl [Ht1] <;> iassumption
    iintro ⟨%W', Hcs, Hat, HO, Hx, Hr⟩
    iapply (ih (i + 1) _ (by omega)) $$ [HN HD Hcs Hat HO Hx Hr]
    · isplitr; · iexact HR
      isplitr; · iexact Hlev
      isplitl [HN]; · unfold needC; iexact HN
      isplitl [HD Hcs Hat Hx Hr]
      · unfold doneC; rw [Ring.bigSep_range_succ]; unfold fCred fPos fX fRat; rw [dif_pos hi, dif_pos hi, dif_pos hi, dif_pos hi]
        isplitl [Hcs Hat Hx Hr]
        · isplitl [Hcs]; · iexact Hcs
          isplitl [Hat]; · iexact Hat
          isplitl [Hx] <;> iassumption
        iexact HD
      iexists W'; iexact HO
    iexact Hk

end StepC

end Cert.KernelIdeal.Proto

end
-- ==== Proof.KernelIdeal.StepDE.lean ====
/-
  The end of the body: the sixteen waits for the second-axis neighbour's chunks, which fill the other half of the
  result's columns, and the thirty-two waits for the departures, which return the lent halves of the own rows and
  the stored chunks.  The device owes nothing by then.
-/
import proofs.«900315_g7700000000000316_dist_rsx_agy_m1024_n512_v7x_xy2x2_f32_1_alg».proof.Proof.KernelIdeal.StepC

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

def stepDg (oB : Off2) (i : ℕ) (hi : i < 16) (k : PU F) : PU F :=
  Prog.op (.waitDma2 (ryS i hi) (oM.slice (Rect.unit (s := S1024x1024) oB.1 S64x512.size oB.2) (fun _ => rfl))
    (oM.slice (Rect.unit (s := S1024x1024) oB.1 S64x512.size oB.2) (fun _ => rfl)) (View.wordExact_bits rfl) (View.wordExact_bits rfl)) fun _ => k
def stepEg (oB : Off2) (i : ℕ) (hi : i < 16) (k : PU F) : PU F :=
  Prog.op (.waitDma2 (sxS i hi) (rP i hi) (xP i hi) (View.wordExact_bits rfl) ((View.wordExact_bits rfl).reshape _ _)) fun _ =>
  Prog.op (.waitDma2 (syS i hi) (oM.slice (Rect.unit (s := S1024x1024) oB.1 S64x512.size oB.2) (fun _ => rfl))
    (oM.slice (Rect.unit (s := S1024x1024) oB.1 S64x512.size oB.2) (fun _ => rfl)) (View.wordExact_bits rfl) (View.wordExact_bits rfl)) fun _ => k

theorem stepD_eq (c : Dev nD) (i : ℕ) (hi : i < 16) (k : PU F) : stepD c i hi k = stepDg (offB c i) i hi k := rfl
theorem stepE_eq (c : Dev nD) (i : ℕ) (hi : i < 16) (k : PU F) : stepE c i hi k = stepEg (offB c i) i hi k := rfl

section StepDE
variable (K : Dev nD × CK → ℕ)

theorem wp_stepDg (c : Dev nD) (i : ℕ) (hi : i < 16) (oB : Off2) (hB : oB = ⟨![64 * i, 512 * col c], hoin i hi (col c) (col_lt c)⟩)
    (k : PU F) (Q : PUnit → sProp 𝕄) (W : Waits sig Unit) :
    iprop(records m K ∗ cred (tallyAt (dmaC c (ryS i hi)) () 4096) ∗ atPos ER (dmaC c (ryS i hi)) 0 ∅ 0 ∗ owes (c : Thread nD τ) 0 W)
      ⊢ iprop(((∃ W', atPos ER (dmaC c (ryS i hi)) 1 ∅ 0 ∗ oPc c i hi (col (yp c)) (col_lt _) (outAt m c) ∗ owes (c : Thread nD τ) 0 W')
            -∗ wp frame (wpE (defs₀ (F := F)) 𝒱₀ (c : Thread nD τ) none) Set.univ k Q)
          -∗ wp frame (wpE (defs₀ (F := F)) 𝒱₀ (c : Thread nD τ) none) Set.univ (stepDg oB i hi k) Q) := by
  subst hB
  unfold stepDg
  iintro ⟨#HR, Hc, Hat, HO⟩ Hk
  iapply (Rounds.wp_wait_rest_token 𝒱₀ ER (Rd m) (c : Thread nD τ) none (κ := K (c, kRy i hi))
      (wpE_waitDma2_eq 𝒱₀ (c : Thread nD τ) none Set.univ) (Set.mem_univ _) () (O := 0) (W := W) (R := 0) (m := 0) (T := ∅)
      (by rw [Nat.zero_add, expect_dma m c _ (scr_ry i hi)]; exact credit_chunk_o i hi (col c) (col_lt c))) $$ [Hc HO Hat]
  · isplitr; · iapply (inv_at m K (c, kRy i hi)); iexact HR
    isplitl [Hc]
    · iapply (Entails.of_eq (show (cred (tallyAt (dmaC c (ryS i hi)) () 4096) : sProp 𝕄)
        = cred (tallyAt (dmaC c (ryS i hi)) () (oP i hi (col c) (col_lt c)).view.dmaCredit) from by rw [credit_chunk_o])); iexact Hc
    isplitl [HO]; · iexact HO
    isplitr; · rw [MayWait_zero]; iempintro
    iexact Hat
  iintro ⟨HO, Hat, -, Hpay⟩
  ihave Ho := (Entails.of_eq ((rest_dma m c _ (scr_ry i hi)).trans (payload_ry m c i hi false))) $$ Hpay
  unfold ryPay
  iapply Hk
  iexists _
  isplitl [Hat]; · iexact Hat
  isplitl [Ho] <;> iassumption

def needD (c : Dev nD) (i : ℕ) : sProp 𝕄 := bigSep (Finset.Ico i 16) fun k => iprop(fCred c ryS k ∗ fPos c ryS 0 k)
def doneD (c : Dev nD) (i : ℕ) : sProp 𝕄 := bigSep (Finset.range i) fun k => iprop(fPos c ryS 1 k ∗ fOat m c (col (yp c)) (col_lt _) k)

theorem run_D (c : Dev nD) (rest : PU F) (Q : PUnit → sProp 𝕄) :
    ∀ (n i : ℕ) (h : n ≤ 16), i + n = 16 →
    iprop(records m K ∗ needD c i ∗ doneD m c i ∗ (∃ W, owes (c : Thread nD τ) 0 W))
      ⊢ iprop(((doneD m c 16 ∗ ∃ W, owes (c : Thread nD τ) 0 W) -∗ wp frame (wpE (defs₀ (F := F)) 𝒱₀ (c : Thread nD τ) none) Set.univ rest Q)
          -∗ wp frame (wpE (defs₀ (F := F)) 𝒱₀ (c : Thread nD τ) none) Set.univ (run (stepD c) rest n h) Q) := by
  intro n
  induction n with
  | zero =>
    intro i h hin
    have hi : i = 16 := by omega
    subst hi
    show _ ⊢ iprop(_ -∗ wp frame _ Set.univ rest Q)
    iintro ⟨-, -, HD, HO⟩ Hk
    iapply Hk
    isplitl [HD] <;> iassumption
  | succ n ih =>
    intro i h hin
    have hi : i < 16 := by omega
    have hi' : 16 - (n + 1) = i := by omega
    have hstep : ∀ (j : ℕ) (hj : j < 16), j = i → stepD (F := F) c j hj (run (stepD c) rest n (by omega)) = stepD c i hi (run (stepD c) rest n (by omega)) := by
      intro j hj e; subst e; rfl
    have hprog : run (stepD (F := F) c) rest (n + 1) h = stepD c i hi (run (stepD c) rest n (by omega)) := hstep (16 - (n + 1)) (by omega) hi'
    rw [hprog, stepD_eq]
    unfold needD
    rw [Ring.bigSep_Ico_succ hi]
    unfold fCred fPos
    rw [dif_pos hi, dif_pos hi]
    iintro ⟨#HR, HN, HD, ⟨%W, HO⟩⟩ Hk
    icases HN with ⟨⟨Hc, Hat⟩, HN⟩
    iapply (wp_stepDg m K c i hi (offB c i) (offB_eq c i hi) _ Q W) $$ [Hc Hat HO]
    · isplitr; · iexact HR
      isplitl [Hc]; · iexact Hc
      isplitl [Hat] <;> iassumption
    iintro ⟨%W', Hat, Ho, HO⟩
    iapply (ih (i + 1) _ (by omega)) $$ [HN HD Hat Ho HO]
    · isplitr; · iexact HR
      isplitl [HN]; · unfold needD; iexact HN
      isplitl [HD Hat Ho]
      · unfold doneD; rw [Ring.bigSep_range_succ]; unfold fPos fOat; rw [dif_pos hi, dif_pos hi]
        isplitl [Hat Ho]
        · isplitl [Hat] <;> iassumption
        iexact HD
      iexists W'; iexact HO
    iexact Hk

theorem wp_stepEg (c : Dev nD) (i : ℕ) (hi : i < 16) (oB : Off2) (hB : oB = ⟨![64 * i, 512 * col c], hoin i hi (col c) (col_lt c)⟩)
    (k : PU F) (Q : PUnit → sProp 𝕄) (W : Waits sig Unit) :
    iprop(records m K ∗ cred (tallyAt (dmaC c (sxS i hi)) () 4096) ∗ atPos ER (dmaC c (sxS i hi)) 0 ∅ 0
        ∗ cred (tallyAt (dmaC c (syS i hi)) () 4096) ∗ atPos ER (dmaC c (syS i hi)) 0 ∅ 0 ∗ owes (c : Thread nD τ) 0 W)
      ⊢ iprop(((∃ W', atPos ER (dmaC c (sxS i hi)) 1 ∅ 0 ∗ xPc m c i hi fullShare.left
                ∗ atPos ER (dmaC c (syS i hi)) 1 ∅ 0 ∗ oPc c i hi (col c) (col_lt c) (outAt m c) ∗ owes (c : Thread nD τ) 0 W')
            -∗ wp frame (wpE (defs₀ (F := F)) 𝒱₀ (c : Thread nD τ) none) Set.univ k Q)
          -∗ wp frame (wpE (defs₀ (F := F)) 𝒱₀ (c : Thread nD τ) none) Set.univ (stepEg oB i hi k) Q) := by
  subst hB
  unfold stepEg
  iintro ⟨#HR, Hc1, Hat1, Hc2, Hat2, HO⟩ Hk
  iapply (Rounds.wp_wait_rest_token 𝒱₀ ER (Rd m) (c : Thread nD τ) none (κ := K (c, kSx i hi))
      (wpE_waitDma2_eq 𝒱₀ (c : Thread nD τ) none Set.univ) (Set.mem_univ _) () (O := 0) (W := W) (R := 0) (m := 0) (T := ∅)
      (by rw [Nat.zero_add, expect_dma m c _ (scr_sx i hi)]; exact credit_chunk_x i hi)) $$ [Hc1 HO Hat1]
  · isplitr; · iapply (inv_at m K (c, kSx i hi)); iexact HR
    isplitl [Hc1]
    · iapply (Entails.of_eq (show (cred (tallyAt (dmaC c (sxS i hi)) () 4096) : sProp 𝕄)
        = cred (tallyAt (dmaC c (sxS i hi)) () (xP i hi).view.dmaCredit) from by rw [credit_chunk_x])); iexact Hc1
    isplitl [HO]; · iexact HO
    isplitr; · rw [MayWait_zero]; iempintro
    iexact Hat1
  iintro ⟨HO, Hat1, -, Hpay⟩
  ihave Hx := (Entails.of_eq ((rest_dma m c _ (scr_sx i hi)).trans (payload_sx m c i hi false))) $$ Hpay
  iapply (Rounds.wp_wait_rest_token 𝒱₀ ER (Rd m) (c : Thread nD τ) none (κ := K (c, kSy i hi))
      (wpE_waitDma2_eq 𝒱₀ (c : Thread nD τ) none Set.univ) (Set.mem_univ _) () (O := 0) (W := insert (SemLoc.dma (sxS i hi), ()) W) (R := 0) (m := 0) (T := ∅)
      (by rw [Nat.zero_add, expect_dma m c _ (scr_sy i hi)]; exact credit_chunk_o i hi (col c) (col_lt c))) $$ [Hc2 HO Hat2]
  · isplitr; · iapply (inv_at m K (c, kSy i hi)); iexact HR
    isplitl [Hc2]
    · iapply (Entails.of_eq (show (cred (tallyAt (dmaC c (syS i hi)) () 4096) : sProp 𝕄)
        = cred (tallyAt (dmaC c (syS i hi)) () (oP i hi (col c) (col_lt c)).view.dmaCredit) from by rw [credit_chunk_o])); iexact Hc2
    isplitl [HO]; · iexact HO
    isplitr; · rw [MayWait_zero]; iempintro
    iexact Hat2
  iintro ⟨HO, Hat2, -, Hpay⟩
  ihave Ho := (Entails.of_eq ((rest_dma m c _ (scr_sy i hi)).trans (payload_sy m c i hi false))) $$ Hpay
  unfold sxPay syPay
  iapply Hk
  iexists _
  isplitl [Hat1]; · iexact Hat1
  isplitl [Hx]; · iexact Hx
  isplitl [Hat2]; · iexact Hat2
  isplitl [Ho] <;> iassumption

def needE (c : Dev nD) (i : ℕ) : sProp 𝕄 :=
  bigSep (Finset.Ico i 16) fun k => iprop(fCred c sxS k ∗ fPos c sxS 0 k ∗ fCred c syS k ∗ fPos c syS 0 k)
def doneE (c : Dev nD) (i : ℕ) : sProp 𝕄 :=
  bigSep (Finset.range i) fun k => iprop(fPos c sxS 1 k ∗ fX m c fullShare.left k ∗ fPos c syS 1 k ∗ fOat m c (col c) (col_lt c) k)

theorem run_E (c : Dev nD) (rest : PU F) (Q : PUnit → sProp 𝕄) :
    ∀ (n i : ℕ) (h : n ≤ 16), i + n = 16 →
    iprop(records m K ∗ needE c i ∗ doneE m c i ∗ (∃ W, owes (c : Thread nD τ) 0 W))
      ⊢ iprop(((doneE m c 16 ∗ ∃ W, owes (c : Thread nD τ) 0 W) -∗ wp frame (wpE (defs₀ (F := F)) 𝒱₀ (c : Thread nD τ) none) Set.univ rest Q)
          -∗ wp frame (wpE (defs₀ (F := F)) 𝒱₀ (c : Thread nD τ) none) Set.univ (run (stepE c) rest n h) Q) := by
  intro n
  induction n with
  | zero =>
    intro i h hin
    have hi : i = 16 := by omega
    subst hi
    show _ ⊢ iprop(_ -∗ wp frame _ Set.univ rest Q)
    iintro ⟨-, -, HD, HO⟩ Hk
    iapply Hk
    isplitl [HD] <;> iassumption
  | succ n ih =>
    intro i h hin
    have hi : i < 16 := by omega
    have hi' : 16 - (n + 1) = i := by omega
    have hstep : ∀ (j : ℕ) (hj : j < 16), j = i → stepE (F := F) c j hj (run (stepE c) rest n (by omega)) = stepE c i hi (run (stepE c) rest n (by omega)) := by
      intro j hj e; subst e; rfl
    have hprog : run (stepE (F := F) c) rest (n + 1) h = stepE c i hi (run (stepE c) rest n (by omega)) := hstep (16 - (n + 1)) (by omega) hi'
    rw [hprog, stepE_eq]
    unfold needE
    rw [Ring.bigSep_Ico_succ hi]
    unfold fCred fPos
    rw [dif_pos hi, dif_pos hi, dif_pos hi, dif_pos hi]
    iintro ⟨#HR, HN, HD, ⟨%W, HO⟩⟩ Hk
    icases HN with ⟨⟨Hc1, Hat1, Hc2, Hat2⟩, HN⟩
    iapply (wp_stepEg m K c i hi (offB c i) (offB_eq c i hi) _ Q W) $$ [Hc1 Hat1 Hc2 Hat2 HO]
    · isplitr; · iexact HR
      isplitl [Hc1]; · iexact Hc1
      isplitl [Hat1]; · iexact Hat1
      isplitl [Hc2]; · iexact Hc2
      isplitl [Hat2] <;> iassumption
    iintro ⟨%W', Hat1, Hx, Hat2, Ho, HO⟩
    iapply (ih (i + 1) _ (by omega)) $$ [HN HD Hat1 Hx Hat2 Ho HO]
    · isplitr; · iexact HR
      isplitl [HN]; · unfold needE; iexact HN
      isplitl [HD Hat1 Hx Hat2 Ho]
      · unfold doneE; rw [Ring.bigSep_range_succ]; unfold fPos fX fOat; rw [dif_pos hi, dif_pos hi, dif_pos hi, dif_pos hi]
        isplitl [Hat1 Hx Hat2 Ho]
        · isplitl [Hat1]; · iexact Hat1
          isplitl [Hx]; · iexact Hx
          isplitl [Hat2] <;> iassumption
        iexact HD
      iexists W'; iexact HO
    iexact Hk

end StepDE

end Cert.KernelIdeal.Proto

end
-- ==== Proof.KernelIdeal.BodyDefs.lean ====
/-
  One device's body, from what the launch hands it to what it hands back.  In: the ghost state of the protocol, the
  credit for the units its cells will receive, the three buffers.  The buffers are cut into chunks; the landing
  buffer and the other half of the result's columns go to the two neighbours with the handshake's signals, and
  theirs arrive with the wait; the four runs follow; at the end every cell of the device's own is closed at zero
  and the chunks are put together again: the input as it was, the landing buffer full of the neighbour's rows, the
  result buffer holding the sums.
-/
import proofs.«900315_g7700000000000316_dist_rsx_agy_m1024_n512_v7x_xy2x2_f32_1_alg».proof.Proof.KernelIdeal.StepDE

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-- a family over the numbers below sixteen -/
abbrev R16 (A : ℕ → sProp 𝕄) : sProp 𝕄 := bigSep (Finset.range 16) A

def fZero (c : Dev nD) (S : Fam) (k : ℕ) : sProp 𝕄 := if hk : k < 16 then semVal (dmaC c (S k hk)) 0 else iprop(emp)

/-! ## What a device starts from and ends with -/

def ghost (K : Dev nD × CK → ℕ) (c : Dev nD) : sProp 𝕄 :=
  iprop(records m K
    ∗ atPos ER (barC c) 0 ∅ 0
    ∗ R16 (fun k => iprop(fPos c sxS 0 k ∗ fPos c rxS 0 k ∗ fPos c syS 0 k ∗ fPos c ryS 0 k))
    ∗ dutyTok ER (barC (xp c)) 0 false ∗ dutyTok ER (barC (yp c)) 0 true
    ∗ R16 (fun k => iprop(fTok c sxS k ∗ fTok (xp c) rxS k ∗ fTok c syS k ∗ fTok (yp c) ryS k)))

def start (c : Dev nD) : sProp 𝕄 :=
  iprop((∃ K, ghost m K c) ∗ cred (tallyAt (barC c) () 2) ∗ R16 (fun k => iprop(fCred c rxS k ∗ fCred c ryS k)) ∗ levAts L lv)

def scrPts (c : Dev nD) (f : (cc0_scratch0 : Ref sig .tc).ty.Contents (Elt F)) : sProp 𝕄 := ((c : Thread nD τ).loc cc0_scratch0) ↦{fullShare} f

def Φ₀ (c : Dev nD) : sProp 𝕄 := iprop(start m c ∗ ∃ f, scrPts c f)
def zeros (c : Dev nD) : sProp 𝕄 := iprop(R16 (fZero c sxS) ∗ R16 (fZero c rxS) ∗ R16 (fZero c syS) ∗ R16 (fZero c ryS))
def Φ₁ (c : Dev nD) : sProp 𝕄 := iprop(scrPts c (rAt m c) ∗ zeros c)

variable (ρ : Dev nD → PrngReg)

def dats (_ : Fin 1) (c : Dev nD) : Dat τ (Elt F) Unit ℕ UU ℕ cfg0 c where
  A w := m ((cfg0.win w).arr.view.loc (c : Thread nD τ))
  after w _ := match w with
    | ⟨0, _⟩ => xstg m c
    | ⟨1, _⟩ => outAt m c
  Φ t := match t with
    | ⟨0, _⟩ => Φ₀ m c
    | ⟨_ + 1, _⟩ => Φ₁ m c
  q _ := fullShare
  owed t := match t with
    | ⟨0, _⟩ => O₀ c
    | ⟨_ + 1, _⟩ => 0

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)
theorem fetch_0 (t : Fin cfg0.N) : (cfg0.win (0 : Fin 2)).fetch t = true := by rw [fin_N t]; rfl

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

/-! ## Families over the chunks, both ways of counting them -/

theorem fin16_fX (c : Dev nD) (q : PosShare TreeShare) :
    (bigSep (Finset.univ : Finset (Fin 16)) fun i => xPc m c i.val i.isLt q) = R16 (fX m c q) :=
  fin_eq_range _ _ fun t ht => by unfold fX; rw [dif_pos ht]
theorem fin16_fRany (d : Dev nD) :
    (bigSep (Finset.univ : Finset (Fin 16)) fun i => (iprop(∃ f, rPc d i.val i.isLt f) : sProp 𝕄)) = R16 (fRany d) :=
  fin_eq_range _ _ fun t ht => by unfold fRany; rw [dif_pos ht]
theorem fin16_fRat (c : Dev nD) :
    (bigSep (Finset.univ : Finset (Fin 16)) fun i => rPc c i.val i.isLt (rAt m c)) = R16 (fRat m c) :=
  fin_eq_range _ _ fun t ht => by unfold fRat; rw [dif_pos ht]
theorem fin16_fOany (d : Dev nD) (b : ℕ) (hb : b < 2) :
    (bigSep (Finset.univ : Finset (Fin 16)) fun i => (iprop(∃ f, oPc d i.val i.isLt b hb f) : sProp 𝕄)) = R16 (fOany d b hb) :=
  fin_eq_range _ _ fun t ht => by unfold fOany; rw [dif_pos ht]
theorem fin16_fOat (c : Dev nD) (b : ℕ) (hb : b < 2) :
    (bigSep (Finset.univ : Finset (Fin 16)) fun i => oPc c i.val i.isLt b hb (outAt m c)) = R16 (fOat m c b hb) :=
  fin_eq_range _ _ fun t ht => by unfold fOat; rw [dif_pos ht]

theorem some_chunks_r (d : Dev nD) (f : (cc0_scratch0 : Ref sig .tc).ty.Contents (Elt F)) :
    (bigSep (Finset.univ : Finset (Fin 16)) fun i => rPc d i.val i.isLt f) ⊢ (R16 (fRany d) : sProp 𝕄) := by
  rw [← fin16_fRany]
  exact bigSep_mono fun i _ => show (rPc d i.val i.isLt f : sProp 𝕄) ⊢ iprop(∃ f, rPc d i.val i.isLt f) from by iintro H; iexists f; iexact H
theorem some_chunks_o (d : Dev nD) (b : ℕ) (hb : b < 2) (f : (cc0_stg1_0 : Ref sig .tc).ty.Contents (Elt F)) :
    (bigSep (Finset.univ : Finset (Fin 16)) fun i => oPc d i.val i.isLt b hb f) ⊢ (R16 (fOany d b hb) : sProp 𝕄) := by
  rw [← fin16_fOany]
  exact bigSep_mono fun i _ => show (oPc d i.val i.isLt b hb f : sProp 𝕄) ⊢ iprop(∃ f, oPc d i.val i.isLt b hb f) from by iintro H; iexists f; iexact H

/-- The handshake's payloads are the neighbours' chunks. -/
theorem barPayX_eq (c : Dev nD) : (barPayX c : sProp 𝕄) = R16 (fRany (xp c)) := by unfold barPayX; exact fin16_fRany (xp c)
theorem barPayY_eq (c : Dev nD) : (barPayY c : sProp 𝕄) = R16 (fOany (yp c) (col c) (col_lt c)) := by unfold barPayY; exact fin16_fOany (yp c) (col c) (col_lt c)
theorem fOany_congr (d : Dev nD) {b b' : ℕ} (e : b = b') (hb : b < 2) (hb' : b' < 2) : (fOany (F := F) d b hb) = fOany d b' hb' := by subst e; rfl

/-! ## Closing a family of cells -/

section Close
variable (K : Dev nD × CK → ℕ)

theorem close_fam (c : Dev nD) (S : Fam) (κ : (k : ℕ) → k < 16 → ℕ) (hS : ∀ k hk, 2 ≤ (S k hk).val)
    (hinv : ∀ k hk, records m K ⊢ cellInv ER (Rd m) (κ k hk) (dmaC c (S k hk))) :
    iprop(records m K ∗ R16 (fPos c S 1)) ⊢ (|={Set.univ}=> R16 (fZero c S) : sProp 𝕄) := by
  refine (bigSep_with_persistent (R := records m K) (Ψ := fun k => iprop(|={Set.univ}=> fZero c S k)) fun k _ => ?_).trans (bigSep_fupd _ _)
  unfold fPos fZero
  by_cases hk : k < 16
  · rw [dif_pos hk, dif_pos hk]
    iintro ⟨#HR, Hat⟩
    iapply (Rounds.cell_close ER (Rd m) (Set.mem_univ (κ k hk)) (fun h => h) (R := 0 + 1) (duties_later m (dmaC c (S k hk))))
    isplitr; · iapply (hinv k hk); iexact HR
    iexact Hat
  · rw [dif_neg hk, dif_neg hk]
    iintro ⟨-, H⟩; imodintro; iexact H

end Close

end Cert.KernelIdeal.Proto

end
-- ==== Proof.KernelIdeal.Body.lean ====
/-
  The body of one device, whole: the handshake, the four runs, the cells closed, the buffers put together again.
-/
import proofs.«900315_g7700000000000316_dist_rsx_agy_m1024_n512_v7x_xy2x2_f32_1_alg».proof.Proof.KernelIdeal.BodyDefs

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

section Body
variable (K : Dev nD × CK → ℕ)

def bodyPre (c : Dev nD) : sProp 𝕄 :=
  iprop((ghost m K c ∗ cred (tallyAt (barC c) () 2) ∗ R16 (fun k => iprop(fCred c rxS k ∗ fCred c ryS k)) ∗ levAts L lv ∗ ∃ f, scrPts c f)
    ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

def bodyPost (c : Dev nD) : sProp 𝕄 :=
  iprop(Φ₁ m c ∗ (dats m 0 c).owesAt () t₀.succ ∗ stg c cc0_stg0_0 (xstg m c) ∗ stg c cc0_stg1_0 (outAt m c))

set_option maxHeartbeats 4000000 in
theorem sound_body (c : Dev nD) (Kt : PUnit → sProp 𝕄) :
    iprop(bodyPre m K c ∗ (bodyPost m c -∗ Kt ⟨⟩))
      ⊢ wp frame (wpE (defs₀ (F := F)) 𝒱₀ c none) Set.univ
          (cc0_body xM (Memref.isWhole_whole _) oM (Memref.isWhole_whole _) rM (Memref.isWhole_whole _) cc0_scratch1 cc0_scratch2 cc0_scratch3 cc0_scratch4) Kt := by
  rw [body_eq]
  simp only [wp_deviceId]
  show _ ⊢ wp frame _ Set.univ (bodyFrom c) Kt
  unfold bodyFrom
  rw [dev1_eq c, dev2_eq c]
  unfold bodyPre ghost
  simp only [bigSep_sep']
  iintro ⟨⟨⟨⟨#HR, HatB, ⟨HpSx, HpRx, HpSy, HpRy⟩, HtX, HtY, ⟨HtSx, HtRx, HtSy, HtRy⟩⟩, HcB, ⟨HcRx, HcRy⟩, #Hlev, ⟨%fs, Hscr⟩⟩, Ho, ⟨%d0, %g0, %hg0, Hx⟩, ⟨%d1, %g1, %hg1, Hout⟩⟩, Hk⟩
  have hx : g0 = xstg m c := by rw [hg0]; unfold Dat.before; rw [if_pos (fetch_0 t₀)]; rfl
  subst hx
  unfold Dat.owesAt Pipeline.owesWithin
  icases Ho with ⟨%W, %hW, HO⟩
  rw [show (dats m 0 c).owed t₀.castSucc = O₀ c from rfl]
  -- the buffers, chunk by chunk
  unfold scrPts
  ihave Hscr := (Entails.of_eq (scr_chunks c fs)) $$ Hscr
  ihave Hscr := (some_chunks_r c fs) $$ Hscr
  ihave Hout := (out_halves c g1).1 $$ Hout
  icases Hout with ⟨HoutM, HoutO⟩
  ihave HoutM := (some_chunks_o c (col c) (col_lt c) g1) $$ HoutM
  ihave HoutO := (some_chunks_o c (col (yp c)) (col_lt _) g1) $$ HoutO
  ihave Hx := (pointsTo_share (PosShare.mem_left_op_right fullShare)).1 $$ Hx
  icases Hx with ⟨HxL, HxR⟩
  ihave HxL := (Entails.of_eq ((x_chunks m c fullShare.left).trans (fin16_fX m c fullShare.left))) $$ HxL
  ihave HxR := (Entails.of_eq ((x_chunks m c fullShare.right).trans (fin16_fX m c fullShare.right))) $$ HxR
  -- the first signal, to the first-axis neighbour: the landing buffer goes with it
  unfold O₀
  iapply (Rounds.wp_signal 𝒱₀ ER (Rd m) (c : Thread nD τ) none (dst := (xp c : Thread nD τ)) (κ := K (xp c, kBar))
      (d := false) (by rw [duties_bar]; exact Finset.mem_univ _) (amount_bar m (xp c) false) () (O₁ c + tallyAt (barC (yp c)) () 1) rfl)
    $$ [HO HtX Hscr]
  · isplitr; · iapply (inv_at m K (xp c, kBar)); iexact HR
    isplitl [HO]; · iexact HO
    isplitl [HtX]; · iexact HtX
    isplitl [Hscr]; · rw [payload_bar_false, barPayX_eq, xp_xp]; iexact Hscr
    iapply (reached_at m K (xp c, kBar)); iexact HR
  iintro HO
  -- the second, to the second-axis neighbour: the other half of the result's columns goes with it
  iapply (Rounds.wp_signal 𝒱₀ ER (Rd m) (c : Thread nD τ) none (dst := (yp c : Thread nD τ)) (κ := K (yp c, kBar))
      (d := true) (by rw [duties_bar]; exact Finset.mem_univ _) (amount_bar m (yp c) true) () (O₁ c) rfl)
    $$ [HO HtY HoutO]
  · isplitr; · iapply (inv_at m K (yp c, kBar)); iexact HR
    isplitl [HO]; · iexact HO
    isplitl [HtY]; · iexact HtY
    isplitl [HoutO]; · rw [payload_bar_true, barPayY_eq, yp_yp]; iexact HoutO
    iapply (reached_at m K (yp c, kBar)); iexact HR
  iintro HO
  -- the wait for both neighbours: their buffers come with it
  iapply (Rounds.wp_wait_rest_token 𝒱₀ ER (Rd m) (c : Thread nD τ) none (κ := K (c, kBar))
      (wpE_semWait_eq 𝒱₀ (c : Thread nD τ) none Set.univ) (Set.mem_univ _) () (O := O₁ c) (W := W) (R := 0) (m := 0) (T := ∅)
      (by rw [expect_bar])) $$ [HcB HO HatB]
  · isplitr; · iapply (inv_at m K (c, kBar)); iexact HR
    isplitl [HcB]; · iexact HcB
    isplitl [HO]; · iexact HO
    isplitr; · iapply (mayWait_bar c); iexact Hlev
    iexact HatB
  iintro ⟨HO, HatB, -, Hpay⟩
  ihave Hp := (Entails.of_eq (rest_bar m c)) $$ Hpay
  rw [barPayX_eq, barPayY_eq]
  icases Hp with ⟨HrN, HoN⟩
  -- the sixteen first-axis transfers
  unfold O₁
  iapply (run_B m K c (oweY c 0) _ _ _ 16 0 le_rfl rfl) $$ [HxL HrN HtSx HtRx HO]
  · unfold needB doneB
    rw [← Finset.range_eq_Ico, Finset.range_zero, bigSep_empty]
    simp only [bigSep_sep']
    isplitr; · iexact HR
    isplitl [HxL HrN HtSx HtRx]
    · isplitl [HxL]; · iexact HxL
      isplitl [HrN]; · iexact HrN
      isplitl [HtSx] <;> iassumption
    isplitr; · iempintro
    iexact HO
  iintro ⟨HcSx, HO⟩
  -- the sixteen rounds of wait, add, store, forward
  iapply (run_C m K c _ _ 16 0 le_rfl rfl) $$ [HcRx HpRx HxR HoutM HoN HtSy HtRy HO]
  · unfold needC doneC
    rw [← Finset.range_eq_Ico, Finset.range_zero, bigSep_empty]
    simp only [bigSep_sep']
    isplitr; · iexact HR
    isplitr; · iexact Hlev
    isplitl [HcRx HpRx HxR HoutM HoN HtSy HtRy]
    · isplitl [HcRx]; · iexact HcRx
      isplitl [HpRx]; · iexact HpRx
      isplitl [HxR]; · iexact HxR
      isplitl [HoutM]; · iexact HoutM
      isplitl [HoN]; · iexact HoN
      isplitl [HtSy] <;> iassumption
    isplitr; · iempintro
    iexists _; iexact HO
  unfold doneC
  simp only [bigSep_sep']
  iintro ⟨⟨HcSy, HpRx1, HxR, HrAt⟩, ⟨%W2, HO⟩⟩
  -- the sixteen waits for the neighbour's chunks
  iapply (run_D m K c _ _ 16 0 le_rfl rfl) $$ [HcRy HpRy HO]
  · unfold needD doneD
    rw [← Finset.range_eq_Ico, Finset.range_zero, bigSep_empty]
    simp only [bigSep_sep']
    isplitr; · iexact HR
    isplitl [HcRy HpRy]
    · isplitl [HcRy] <;> iassumption
    isplitr; · iempintro
    iexists _; iexact HO
  unfold doneD
  simp only [bigSep_sep']
  iintro ⟨⟨HpRy1, HoY⟩, ⟨%W3, HO⟩⟩
  -- the thirty-two waits for the departures
  unfold doneB
  iapply (run_E m K c _ _ 16 0 le_rfl rfl) $$ [HcSx HpSx HcSy HpSy HO]
  · unfold needE doneE
    rw [← Finset.range_eq_Ico, Finset.range_zero, bigSep_empty]
    simp only [bigSep_sep']
    isplitr; · iexact HR
    isplitl [HcSx HpSx HcSy HpSy]
    · isplitl [HcSx]; · iexact HcSx
      isplitl [HpSx]; · iexact HpSx
      isplitl [HcSy] <;> iassumption
    isplitr; · iempintro
    iexists _; iexact HO
  unfold doneE
  simp only [bigSep_sep']
  iintro ⟨⟨HpSx1, HxL, HpSy1, HoS⟩, ⟨%W4, HO⟩⟩
  -- every own cell closes at zero
  imod (close_fam m K c sxS (fun k hk => K (c, kSx k hk)) scr_sx (fun k hk => inv_at m K (c, kSx k hk))) $$ [HpSx1] with HzSx
  · isplitr; · iexact HR
    iexact HpSx1
  imod (close_fam m K c rxS (fun k hk => K (c, kRx k hk)) scr_rx (fun k hk => inv_at m K (c, kRx k hk))) $$ [HpRx1] with HzRx
  · isplitr; · iexact HR
    iexact HpRx1
  imod (close_fam m K c syS (fun k hk => K (c, kSy k hk)) scr_sy (fun k hk => inv_at m K (c, kSy k hk))) $$ [HpSy1] with HzSy
  · isplitr; · iexact HR
    iexact HpSy1
  imod (close_fam m K c ryS (fun k hk => K (c, kRy k hk)) scr_ry (fun k hk => inv_at m K (c, kRy k hk))) $$ [HpRy1] with HzRy
  · isplitr; · iexact HR
    iexact HpRy1
  rw [wp_ret]; imodintro
  iapply Hk
  unfold bodyPost Φ₁ zeros scrPts Dat.owesAt Pipeline.owesWithin
  rw [show (dats m 0 c).owed t₀.succ = 0 from rfl]
  isplitl [HrAt HzSx HzRx HzSy HzRy]
  · isplitl [HrAt]
    · iapply (Entails.of_eq ((scr_chunks c (rAt m c)).trans (fin16_fRat m c)).symm); iexact HrAt
    isplitl [HzSx]; · iexact HzSx
    isplitl [HzRx]; · iexact HzRx
    isplitl [HzSy] <;> iassumption
  isplitl [HO]
  · iexists W4
    isplitr; · ipureintro; exact fun _ _ => Or.inl trivial
    iexact HO
  isplitl [HxL HxR]
  · iexists _; isplitr; · (ipureintro; rfl)
    iapply (pointsTo_share (PosShare.mem_left_op_right fullShare)).2
    isplitl [HxL]
    · iapply (Entails.of_eq ((x_chunks m c fullShare.left).trans (fin16_fX m c fullShare.left)).symm); iexact HxL
    · iapply (Entails.of_eq ((x_chunks m c fullShare.right).trans (fin16_fX m c fullShare.right)).symm); iexact HxR
  iexists _; isplitr; · (ipureintro; rfl)
  iapply (out_halves c (outAt m c)).2
  isplitl [HoS]
  · iapply (Entails.of_eq (fin16_fOat m c (col c) (col_lt c)).symm); iexact HoS
  · iapply (Entails.of_eq (fin16_fOat m c (col (yp c)) (col_lt _)).symm); iexact HoY

set_option maxRecDepth 65536 in
def bodyPre' (c : Dev nD) : sProp 𝕄 :=
  iprop(Φ₀ m c ∗ (dats m 0 c).owesAt () t₀.castSucc
    ∗ (∃ d, stg c cc0_stg0_0 ((dats m 0 c).before (0 : Fin 2) t₀ d))
    ∗ (∃ d, stg c cc0_stg1_0 ((dats m 0 c).before (1 : Fin 2) t₀ d)))

theorem bigSep_W (Φ : Fin cfg0.W → sProp 𝕄) : bigSep Finset.univ Φ = iprop(Φ (0 : Fin 2) ∗ Φ (1 : Fin 2)) := bigSep_W0 Φ

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

set_option maxRecDepth 65536 in
/-- The library's body obligation on device `c`. -/
theorem body_obligation (c : Dev nD) : BodyObligation (dats (F := F) m 0 c) (defs₀ (F := F)) 𝒱₀ () Set.univ := fun t => by
  rw [fin_N t]
  rw [bigSep_W, bigSep_W]
  simp only [owns_whole_eq]
  show bodyPre' m c ⊢ wp frame (wpE (defs₀ (F := F)) 𝒱₀ c none) Set.univ
    (cc0_body xM (Memref.isWhole_whole _) oM (Memref.isWhole_whole _) rM (Memref.isWhole_whole _) cc0_scratch1 cc0_scratch2 cc0_scratch3 cc0_scratch4)
    (fun _ => bodyPost m c)
  unfold bodyPre' Φ₀ start
  iintro ⟨⟨⟨⟨%K, Hg⟩, Hrest⟩, Hscr⟩, Ho, Hx, Hout⟩
  iapply (sound_body m K c fun _ => bodyPost m c)
  unfold bodyPre
  isplitr []
  · isplitl [Hg Hrest Hscr]
    · isplitl [Hg]; · iexact Hg
      icases Hrest with ⟨H1, H2, H3⟩
      isplitl [H1]; · iexact H1
      isplitl [H2]; · iexact H2
      isplitl [H3]; · iexact H3
      iexact Hscr
    isplitl [Ho]; · iexact Ho
    isplitl [Hx] <;> iassumption
  · iintro H; iexact H

end Body

end Cert.KernelIdeal.Proto

end
-- ==== Proof.KernelIdeal.Launch1.lean ====
/-
  The launch.  All devices' cells are funded under one update (the barrier semaphore is the runtime's, shared by the
  three devices that touch it), their invariants allocated and named, the duty tokens dealt to the devices that
  pay them (a barrier's `false` token and a first-axis receive token to the first-axis neighbour, a barrier's
  `true` token and a second-axis receive token to the second-axis neighbour, the send tokens to the device
  itself), and the launch credit read off what every device owes.  Then every fair execution of all four devices
  terminates with each result buffer holding the sums and the argument unchanged.
-/
import proofs.«900315_g7700000000000316_dist_rsx_agy_m1024_n512_v7x_xy2x2_f32_1_alg».proof.Proof.KernelIdeal.Body

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

def s₀ : MemSt nD τ sig (Elt F) := ⟨m, fun _ => 0, ρ⟩

/-! ## The cells and tokens, enumerated -/

theorem dsem_val : ∀ (k : Fin 4) (i : Fin 16), (dsem k i).val = 2 + 16 * k.val + i.val := by decide

theorem csem_injective : Function.Injective csem := by
  rintro (_ | ⟨k, i⟩) (_ | ⟨k', i'⟩) h
  · rfl
  · exact absurd h (fun h' => by cases h')
  · exact absurd h (fun h' => by cases h')
  · have h1 : dsem k i = dsem k' i' := by injection h
    have h2 := congrArg Fin.val h1
    rw [dsem_val, dsem_val] at h2
    have hk : k = k' := Fin.ext (by have := i.isLt; have := i'.isLt; omega)
    have hi : i = i' := Fin.ext (by have := i.isLt; have := i'.isLt; subst hk; omega)
    rw [hk, hi]

theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]
def allCells : Finset (GSem nD τ sig) := Finset.univ.map ⟨kcell, kcell_injective⟩

/-- the duties of a device's cells: its barrier's two, each DMA cell's one -/
abbrev TK : Type := Bool ⊕ (Fin 4 × Fin 16)
def tokOf (ct : Dev nD × TK) : GSem nD τ sig × ℕ × Bool := match ct.2 with
  | .inl d => (barC ct.1, 0, d)
  | .inr (k, i) => (dmaC ct.1 (dsem k i), 0, false)
theorem tokOf_injective : Function.Injective (tokOf : Dev nD × TK → GSem nD τ sig × ℕ × Bool) := by
  rintro ⟨c, t⟩ ⟨c', t'⟩ h
  have h1 : c = c' := by
    have := congrArg (fun x : GSem nD τ sig × ℕ × Bool => x.1.1.1) h
    rcases t with d | ⟨k, i⟩ <;> rcases t' with d' | ⟨k', i'⟩ <;> exact this
  subst h1
  rcases t with d | ⟨k, i⟩ <;> rcases t' with d' | ⟨k', i'⟩
  · have : d = d' := congrArg (fun x : GSem nD τ sig × ℕ × Bool => x.2.2) h
    rw [this]
  · exact absurd (congrArg (fun x : GSem nD τ sig × ℕ × Bool => x.1.2) h) (fun h' => by cases h')
  · exact absurd (congrArg (fun x : GSem nD τ sig × ℕ × Bool => x.1.2) h) (fun h' => by cases h')
  · have h2 : csem (.inr (k, i)) = csem (.inr (k', i')) := congrArg (fun x : GSem nD τ sig × ℕ × Bool => x.1.2) h
    have e2 : (k, i) = (k', i') := Sum.inr.inj (csem_injective h2)
    rw [e2]
def allToks : Finset (GSem nD τ sig × ℕ × Bool) := Finset.univ.map ⟨tokOf, tokOf_injective⟩

def u₀ : UU :=
  (initOf (Pipeline.cells cfgs cellOf_inj) (Pipeline.launchToks cfgs cellOf_inj), initOf allCells allToks)

/-- The duty tokens of device `c`'s own cells, as minted. -/
def toks (c : Dev nD) : sProp 𝕄 := bigSep Finset.univ fun t : TK => dutyTok ER (tokOf (c, t)).1 (tokOf (c, t)).2.1 (tokOf (c, t)).2.2

/-- What the launch element deals device `c`; what the global step makes of it. -/
def G (c : Dev nD) : sProp 𝕄 :=
  iprop((bigSep Finset.univ fun k : CK => roundState ER (Rd m) (kcell (c, k)) 0)
    ∗ (bigSep Finset.univ fun k : CK => iprop(atPos ER (kcell (c, k)) 0 ∅ 0 ∗ reached ER (kcell (c, k)) 0)) ∗ toks c)
def G' (c : Dev nD) : sProp 𝕄 := iprop(∃ K, ghost m K c)

theorem fund_all : BI.own (ER (initOf allCells allToks)) ⊢ (|==> bigSep Finset.univ (G m) : sProp 𝕄) := by
  have hX (Φ : GSem nD τ sig → sProp 𝕄) : bigSep allCells Φ = bigSep Finset.univ fun c : Dev nD => bigSep Finset.univ fun k : CK => Φ (kcell (c, k)) := by
    unfold allCells; rw [bigSep_map, bigSep_univ_prod]; rfl
  have hT : bigSep allToks (fun x => (dutyTok ER x.1 x.2.1 x.2.2 : sProp 𝕄)) = bigSep Finset.univ fun c : Dev nD => toks c := by
    unfold allToks; rw [bigSep_map, bigSep_univ_prod]; rfl
  iintro HX
  imod (Rounds.fund ER (Rd m) allCells allToks) $$ HX with ⟨Hst, Hr, Hat, Htok⟩
  imodintro
  ihave Hst' := (Entails.of_eq (hX fun g => roundState ER (Rd m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The semaphores the launch hands over -/

/-- The kernel's own (scoped) semaphores, as the launch theorem indexes them. -/
abbrev osem : Fin 4 × Fin 16 → SemLoc sig := fun p => .dma (dsem p.1 p.2)

theorem ownSemFacts : Pipeline.OwnSemFacts cfg0.spec osem := by decide

theorem share_eq (c : Dev nD) (w : Fin cfg0.W) : (dats m 0 c).share w = fullShare := by unfold Dat.share; split <;> rfl

theorem unscopedSems0_eq (c : Dev nD) : (unscopedSems0 c : sProp 𝕄) = semVal (barC c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  have e : (bigSep Finset.univ fun k : CK => semVal (kcell (c, k)) 0 : sProp 𝕄)
      = iprop(semVal (barC c) 0 ∗ bigSep Finset.univ fun p : Fin 4 × Fin 16 => semVal (((c : Dev nD).tc : Thread nD τ), osem p) 0) := by
    rw [bigSep_univ_sum, bigSep_univ_of_subsingleton ()]; rfl
  rw [unscopedSems0_eq, e]
  unfold Pipeline.ownSems0
  iintro ⟨HS, HB⟩
  isplitl [HB]
  · iexact HB
  · iexact HS

theorem core_alloc (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k => iprop(∃ κ : ℕ, cellInv ER (Rd m) κ (kcell (c, k))))
          ∗ (bigSep Finset.univ fun k : CK => iprop(atPos ER (kcell (c, k)) 0 ∅ 0 ∗ reached ER (kcell (c, k)) 0)) ∗ toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (Rd m) (kcell (c, k)) 0)
      ⊢ (|={Set.univ}=> bigSep Finset.univ fun k => iprop(∃ κ : ℕ, cellInv ER (Rd m) κ (kcell (c, k))) : sProp 𝕄) from by
        rw [← bigSep_sep']
        exact (bigSep_mono fun k _ => (Rounds.body_intro ER (Rd m) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

end Cert.KernelIdeal.Proto

end
-- ==== Proof.KernelIdeal.Launch2.lean ====
/-
  The launch, continued: the tokens dealt to their payers, the names chosen, the launch credit, the run.
-/
import proofs.«900315_g7700000000000316_dist_rsx_agy_m1024_n512_v7x_xy2x2_f32_1_alg».proof.Proof.KernelIdeal.Launch1

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## Four families of sixteen -/

theorem fam_split (Φ : Fin 4 × Fin 16 → sProp 𝕄) (A B C D : ℕ → sProp 𝕄)
    (hA : ∀ (t : ℕ) (ht : t < 16), A t = Φ (0, ⟨t, ht⟩)) (hB : ∀ (t : ℕ) (ht : t < 16), B t = Φ (1, ⟨t, ht⟩))
    (hC : ∀ (t : ℕ) (ht : t < 16), C t = Φ (2, ⟨t, ht⟩)) (hD : ∀ (t : ℕ) (ht : t < 16), D t = Φ (3, ⟨t, ht⟩)) :
    bigSep Finset.univ Φ = R16 (fun k => iprop(A k ∗ B k ∗ C k ∗ D k)) := by
  rw [bigSep_univ_prod, bigSep_univ_eq_bigSepL [(0 : Fin 4), 1, 2, 3] (by decide) (by decide), bigSepL_cons, bigSepL_cons, bigSepL_cons_cons, bigSepL_singleton,
    fin_eq_range (fun i : Fin 16 => Φ (0, i)) A hA, fin_eq_range (fun i : Fin 16 => Φ (1, i)) B hB,
    fin_eq_range (fun i : Fin 16 => Φ (2, i)) C hC, fin_eq_range (fun i : Fin 16 => Φ (3, i)) D hD]
  unfold R16
  rw [bigSep_sep', bigSep_sep', bigSep_sep']
  rfl

theorem pos_eq (c : Dev nD) :
    (bigSep Finset.univ fun k : CK => (atPos ER (kcell (c, k)) 0 ∅ 0 : sProp 𝕄))
      = iprop(atPos ER (barC c) 0 ∅ 0 ∗ R16 (fun k => iprop(fPos c sxS 0 k ∗ fPos c rxS 0 k ∗ fPos c syS 0 k ∗ fPos c ryS 0 k))) := by
  rw [bigSep_univ_sum, bigSep_univ_of_subsingleton (),
    fam_split (fun p : Fin 4 × Fin 16 => (atPos ER (kcell (c, Sum.inr p)) 0 ∅ 0 : sProp 𝕄)) (fPos c sxS 0) (fPos c rxS 0) (fPos c syS 0) (fPos c ryS 0)
      (fun t ht => by unfold fPos; rw [dif_pos ht]; rfl) (fun t ht => by unfold fPos; rw [dif_pos ht]; rfl)
      (fun t ht => by unfold fPos; rw [dif_pos ht]; rfl) (fun t ht => by unfold fPos; rw [dif_pos ht]; rfl)]
  rfl

theorem toks_eq (c : Dev nD) :
    (toks c : sProp 𝕄) = iprop((dutyTok ER (barC c) 0 false ∗ dutyTok ER (barC c) 0 true)
      ∗ R16 (fun k => iprop(fTok c sxS k ∗ fTok c rxS k ∗ fTok c syS k ∗ fTok c ryS k))) := by
  unfold toks
  rw [bigSep_univ_sum, bigSep_univ_eq_bigSepL [false, true] (by decide) (by decide), bigSepL_cons_cons, bigSepL_singleton,
    fam_split (fun p : Fin 4 × Fin 16 => (dutyTok ER (tokOf (c, Sum.inr p)).1 (tokOf (c, Sum.inr p)).2.1 (tokOf (c, Sum.inr p)).2.2 : sProp 𝕄))
      (fTok c sxS) (fTok c rxS) (fTok c syS) (fTok c ryS)
      (fun t ht => by unfold fTok; rw [dif_pos ht]; rfl) (fun t ht => by unfold fTok; rw [dif_pos ht]; rfl)
      (fun t ht => by unfold fTok; rw [dif_pos ht]; rfl) (fun t ht => by unfold fTok; rw [dif_pos ht]; rfl)]
  rfl

/-! ## The tokens go to their payers -/

def payToks (c : Dev nD) : sProp 𝕄 :=
  iprop((dutyTok ER (barC (xp c)) 0 false ∗ dutyTok ER (barC (yp c)) 0 true)
    ∗ R16 (fun k => iprop(fTok c sxS k ∗ fTok (xp c) rxS k ∗ fTok c syS k ∗ fTok (yp c) ryS k)))

theorem toks_around : (bigSep Finset.univ fun c : Dev nD => (toks c : sProp 𝕄)) ⊢ bigSep Finset.univ fun c : Dev nD => payToks c := by
  rw [bigSep_congr (s := Finset.univ) (fun (c : Dev nD) _ => toks_eq (F := F) c)]
  unfold payToks R16
  simp only [bigSep_sep']
  rw [bigSep_univ_equiv xswap (fun c : Dev nD => (dutyTok ER (barC c) 0 false : sProp 𝕄)),
    bigSep_univ_equiv yswap (fun c : Dev nD => (dutyTok ER (barC c) 0 true : sProp 𝕄)),
    bigSep_univ_equiv xswap (fun c : Dev nD => (bigSep (Finset.range 16) (fTok c rxS) : sProp 𝕄)),
    bigSep_univ_equiv yswap (fun c : Dev nD => (bigSep (Finset.range 16) (fTok c ryS) : sProp 𝕄))]
  exact BI.Entails.refl _

/-! ## The names; the ghost state of each device -/

def linear (c : Dev nD) : sProp 𝕄 :=
  iprop((atPos ER (barC c) 0 ∅ 0 ∗ R16 (fun k => iprop(fPos c sxS 0 k ∗ fPos c rxS 0 k ∗ fPos c syS 0 k ∗ fPos c ryS 0 k))) ∗ payToks c)

theorem ghost_intro (K : Dev nD × CK → ℕ) (c : Dev nD) : iprop(records m K ∗ linear c) ⊢ G' m c := by
  unfold linear payToks G' ghost
  iintro ⟨#HR, ⟨HaB, Hpos⟩, ⟨HtX, HtY⟩, Htok⟩
  iexists K
  isplitr; · iexact HR
  isplitl [HaB]; · iexact HaB
  isplitl [Hpos]; · iexact Hpos
  isplitl [HtX]; · iexact HtX
  isplitl [HtY] <;> iassumption

theorem regroup :
    (bigSep Finset.univ fun c : Dev nD => iprop((bigSep Finset.univ fun k => iprop(∃ κ : ℕ, cellInv ER (Rd m) κ (kcell (c, k))))
          ∗ (bigSep Finset.univ fun k : CK => iprop(atPos ER (kcell (c, k)) 0 ∅ 0 ∗ reached ER (kcell (c, k)) 0)) ∗ toks c) : sProp 𝕄)
      ⊢ bigSep Finset.univ (G' m) := by
  rw [bigSep_sep', bigSep_sep', ← bigSep_univ_prod (fun ck : Dev nD × CK => iprop(∃ κ : ℕ, cellInv ER (Rd m) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HRe⟩, Htok⟩
  ihave HK := (BI.bigSep_exists_pi Finset.univ (fun (ck : Dev nD × CK) (κ : ℕ) => (cellInv ER (Rd m) κ (kcell ck) : sProp 𝕄))) $$ HI
  icases HK with ⟨%K, #HI⟩
  ihave Htk := (toks_around (F := F)) $$ Htok
  iapply (bigSep_with_persistent (R := records m K) fun c _ => ghost_intro m K c)
  isplitr
  · unfold records; isplitl; · iexact HI
    iexact HRe
  · iapply ((Entails.of_eq (bigSep_sep' Finset.univ (fun c : Dev nD => bigSep Finset.univ fun k : CK => (atPos ER (kcell (c, k)) 0 ∅ 0 : sProp 𝕄)) payToks).symm).trans
      (bigSep_mono fun c _ => show _ ⊢ linear c from Entails.of_eq (by unfold linear; rw [pos_eq])))
    isplitl [Hat]; · iexact Hat
    iexact Htk

/-- The global step: own and unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

end Cert.KernelIdeal.Proto

end
-- ==== Proof.KernelIdeal.Launch3.lean ====
/-
  The launch, concluded: the credit each device starts with, what the launch hands the body and takes back, and
  the run of all four devices.
-/
import proofs.«900315_g7700000000000316_dist_rsx_agy_m1024_n512_v7x_xy2x2_f32_1_alg».proof.Proof.KernelIdeal.Launch2

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

/-! ## The launch credit -/

theorem cred_fam_x (c : Dev nD) :
    (Pipeline.launchCred (fun d => oweX d 0) c : sProp 𝕄) ⊢ R16 (fCred c rxS) := by
  unfold oweX R16
  rw [Pipeline.launchCred_sum (Finset.Ico 0 16) (fun k d => tRx d k) c, ← Finset.range_eq_Ico]
  refine bigSep_mono fun k _ => ?_
  unfold tRx fCred
  by_cases hk : k < 16
  · simp only [dif_pos hk]
    exact Pipeline.launchCred_tallyAt (.dma (rxS k hk)) xp xp xp_xp xp_xp () 4096 c
  · simp only [dif_neg hk]
    rw [Pipeline.launchCred_zero]
    exact BI.Entails.refl _
theorem cred_fam_y (c : Dev nD) :
    (Pipeline.launchCred (fun d => oweY d 0) c : sProp 𝕄) ⊢ R16 (fCred c ryS) := by
  unfold oweY R16
  rw [Pipeline.launchCred_sum (Finset.Ico 0 16) (fun k d => tRy d k) c, ← Finset.range_eq_Ico]
  refine bigSep_mono fun k _ => ?_
  unfold tRy fCred
  by_cases hk : k < 16
  · simp only [dif_pos hk]
    exact Pipeline.launchCred_tallyAt (.dma (ryS k hk)) yp yp yp_yp yp_yp () 4096 c
  · simp only [dif_neg hk]
    rw [Pipeline.launchCred_zero]
    exact BI.Entails.refl _

theorem creds (c : Dev nD) :
    (Pipeline.launchCred O₀ c : sProp 𝕄) ⊢ iprop(cred (tallyAt (barC c) () 2) ∗ R16 (fun k => iprop(fCred c rxS k ∗ fCred c ryS k))) := by
  have e : (O₀ : Dev nD → CellTallies nD τ sig Unit)
      = fun d => ((oweX d 0 + oweY d 0) + tallyAt (barC (yp d)) () 1) + tallyAt (barC (xp d)) () 1 := rfl
  rw [e, Pipeline.launchCred_add (fun d => (oweX d 0 + oweY d 0) + tallyAt (barC (yp d)) () 1) (fun d => tallyAt (barC (xp d)) () 1),
    Pipeline.launchCred_add (fun d => oweX d 0 + oweY d 0) (fun d => tallyAt (barC (yp d)) () 1),
    Pipeline.launchCred_add (fun d => oweX d 0) (fun d => oweY d 0)]
  iintro ⟨⟨⟨HX, HY⟩, HbY⟩, HbX⟩
  ihave H1 := (Pipeline.launchCred_tallyAt (SemLoc.reg barS) xp xp xp_xp xp_xp () 1 c) $$ HbX
  ihave H2 := (Pipeline.launchCred_tallyAt (SemLoc.reg barS) yp yp yp_yp yp_yp () 1 c) $$ HbY
  ihave HX' := (cred_fam_x (F := F) c) $$ HX
  ihave HY' := (cred_fam_y (F := F) c) $$ HY
  isplitl [H1 H2]
  · rw [← tallyAt_add (barC c) () 1 1]
    iapply (cred_add _ _).2
    isplitl [H1] <;> iassumption
  · unfold R16; rw [bigSep_sep']
    isplitl [HX'] <;> iassumption

/-! ## What the launch hands the body, and takes back -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds (F := F) c) $$ Hcr
  icases Hc with ⟨H1, HN⟩
  imodintro
  unfold start G'
  isplitl
  · isplitl [HG]; · iexact HG
    isplitl [H1]; · iexact H1
    isplitl [HN]; · iexact HN
    iexact Hlev
  · iempintro

theorem phi0_intro (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scrPts
  iintro ⟨Hs, -, ⟨%f, Hr⟩⟩
  isplitl [Hs]; · iexact Hs
  iexists f; iexact Hr

theorem ownSems0_eq (c : Dev nD) :
    (Pipeline.ownSems0 (Ix := Unit) (Name := ℕ) (U := UU) (Lvl := ℕ) (Val := Elt F) (τ := τ) osem c : sProp 𝕄) = zeros c := by
  unfold Pipeline.ownSems0 zeros
  rw [fam_split (fun p : Fin 4 × Fin 16 => (semVal (((c : Dev nD).tc : Thread nD τ), osem p) 0 : sProp 𝕄)) (fZero c sxS) (fZero c rxS) (fZero c syS) (fZero c ryS)
      (fun t ht => by unfold fZero; rw [dif_pos ht]; rfl) (fun t ht => by unfold fZero; rw [dif_pos ht]; rfl)
      (fun t ht => by unfold fZero; rw [dif_pos ht]; rfl) (fun t ht => by unfold fZero; rw [dif_pos ht]; rfl)]
  unfold R16
  rw [bigSep_sep', bigSep_sep', bigSep_sep']

theorem phi1_exit (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ m c from rfl, scopedRest0_eq, ownSems0_eq]
  unfold Φ₁ scrPts
  iintro ⟨Hr, Hz⟩
  isplitr; · iempintro
  isplitl [Hz]; · iexact Hz
  iexists (rAt m c); iexact Hr

theorem waits (c : Dev nD) : (levAts L lv : sProp 𝕄) ⊢ Pipeline.cellsWaits cfgs (dats m) () 0 c :=
  Pipeline.cellsWaits_intro cfgs (dats m) () 0 c fun w s t =>
    mayWait_stage c _ (by fin_cases w <;> fin_cases s <;> decide) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m 0 c).arrAt w cfg0.N

def QC : PUnit × MemSt nD τ sig (Elt F) → Prop := fun r =>
  ∀ c : Dev nD, ∀ w : Fin cfg0.W, r.2.mem ((cfg0.win w).arr.view.loc (c : Thread nD τ)) = finalA m c w

set_option maxRecDepth 32000 in
/-- On the mesh of four devices, at any float instance, from any memory with zero counters: every weakly fair
    execution of @main terminates, and every final state has each device's result array at the contents the proof
    data names and its argument array unchanged. -/
theorem run_main : θ_run defs (onTc (τ := τ) (main (F := F))) (s₀ m ρ) (QC m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun c => (main_chain c).trans rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_all m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- The argument array after the run holds what it held; the result array holds the sums. -/
theorem finalA_x (c : Dev nD) : finalA m c (0 : Fin 2) = m (win0_0.arr.view.loc (c : Thread nD τ)) :=
  (dats (F := F) m 0 c).arrAt_in (0 : Fin 2) rfl _

end Cert.KernelIdeal.Proto

end
-- ==== Proof.KernelIdeal.Final.lean ====
/-
  The arrays after the run: the result array of each device is what its body left in the result's staging buffer,
  the argument array is untouched.
-/
import proofs.«900315_g7700000000000316_dist_rsx_agy_m1024_n512_v7x_xy2x2_f32_1_alg».proof.Proof.KernelIdeal.Launch3
import Idealize.ShloMosaic.Lib.Pipeline.Value

set_option maxRecDepth 16384

noncomputable section

namespace Cert.KernelIdeal.Proto

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

variable (ρ : Dev nD → PrngReg)

theorem hz2 : (![0, 0] : Fin 2 → Nat) = fun _ => 0 := funext fun a => by fin_cases a <;> rfl

/-- The one block of the result window is the whole result array. -/
theorem final_out (c : Dev nD) : finalA m c (1 : Fin 2) = outAt m c := by
  unfold finalA
  refine (dats m 0 c).arrAt_eq_of_cover (1 : Fin 2) (outAt m c) (fun t _ => ?_) (fun i => ⟨t₀, flush0_1 t₀, ?_⟩)
  · rw [fin_N t]
    show outAt m c = ((View.whole main_v1).slice (win0_1.rect t₀)).read (Elt F) (outAt m c)
    exact (Memref.read_access_unit_zero (Elt F) main_v1 (funext fun a => by fin_cases a <;> rfl) _ (outAt m c)).symm
  · show i ∈ ((View.whole main_v1).slice (win0_1.rect t₀)).set
    rw [View.set_slice_whole]
    exact View.mem_set_unit_zero (funext fun a => by fin_cases a <;> rfl) _ i

/-- Every weakly fair execution of the four devices terminates with each result array holding the sums and each
    argument array unchanged. -/
theorem run_all (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v1) = outAt m c
      ∧ r.2.mem ((c.tc : Thread nD τ).loc main_arg0) = m ((c.tc : Thread nD τ).loc main_arg0) :=
  (θ_run defs _ _).mono (fun _ h c => ⟨(h c 1).trans (final_out m c), (h c 0).trans (finalA_x m c)⟩) (run_main m ρ)

end Cert.KernelIdeal.Proto

end
-- ==== Proof.RefSide.lean ====
/-
  The reference: one device sums the two slices of dimension 0 of the whole 2 × 1024 × 1024 array, starting from
  zero.  Its run (every execution ends with the result at that sum and the argument unchanged) and the sum read at
  an index are the generated modules imported here; nothing is added to them.
-/
import proofs.«900315_g7700000000000316_dist_rsx_agy_m1024_n512_v7x_xy2x2_f32_1_alg».proof.Defs
import proofs.«900315_g7700000000000316_dist_rsx_agy_m1024_n512_v7x_xy2x2_f32_1_alg».proof.Proof.Gen.ReferenceIdeal
import proofs.«900315_g7700000000000316_dist_rsx_agy_m1024_n512_v7x_xy2x2_f32_1_alg».proof.Proof.Gen.ReferenceIdeal.Run
import proofs.«900315_g7700000000000316_dist_rsx_agy_m1024_n512_v7x_xy2x2_f32_1_alg».proof.Proof.Gen.ReferenceIdeal.Read
import Idealize.ShloMosaic.Lib.ValueIdx
import Idealize.ShloMosaic.PureOps.Ideal.Laws
-- ==== Proof.ValueK.lean ====
/-
  The result buffer in closed form, over the extended reals.  Entry (r, k) of device c's result buffer is the sum
  of row r, column k mod 512 of two blocks: the block of the device d of c's mesh row whose half of the columns k
  falls in (d is c itself or its second-axis neighbour), and the block of d's first-axis neighbour.
-/
import proofs.«900315_g7700000000000316_dist_rsx_agy_m1024_n512_v7x_xy2x2_f32_1_alg».proof.Proof.KernelIdeal.Final
import Idealize.ShloMosaic.Lib.ValueIdx
import Idealize.ShloMosaic.Lib.Pipeline.Value

set_option maxRecDepth 16384

noncomputable section

namespace Cert.KernelIdeal.Val

open Cert.KernelIdeal Cert.KernelIdeal.Gen Cert.KernelIdeal.Proto
open Idealize.ShloMosaic Idealize.ShloMosaic.TcCoe Idealize.ShloMosaic.ValueIdx
open Idealize.SL.Sem

variable (m : (ℓ : Loc nD τ sig) → Buf (Elt Ideal) ℓ)

/-- Device `d`'s block of the argument. -/
abbrev xb (d : Dev nD) : S1x1024x512.Idx → EReal := m ((d : Thread nD τ).loc main_arg0)

/-- The staging buffer holds the whole block: the input window's one block is the array. -/
theorem xstg_eq (d : Dev nD) : xstg m d = xb m d := by
  unfold xstg
  exact Memref.read_access_unit_zero (Elt Ideal) main_arg0 (funext fun a => by fin_cases a <;> rfl) _ _

/-- Squeezing the leading unit axis keeps row and column. -/
theorem resh (y : S64x512.Idx) :
    Shape.reshapeEquiv (squeezes_S1x64x512_S64x512).numel_eq y = (ix3 (0 : Fin 1) (y 0) (y 1) : S1x64x512.Idx) := by
  refine Shape.reshapeEquiv_eq_of_rowMajor _ ?_
  rw [Shape.rowMajor_val_three, Shape.rowMajor_val_two]
  show ((0 : ℕ) * 64 + (y 0).val) * 512 + (y 1).val = (y 0).val * 512 + (y 1).val
  omega

/-- Row `64 i + y₀`, column `y₁` of the block. -/
def at3 (i : ℕ) (hi : i < 16) (y : S64x512.Idx) : S1x1024x512.Idx :=
  (xM.view.slice (xR i hi)).emb (ix3 (0 : Fin 1) (y 0) (y 1))

theorem rAt_emb (c : Dev nD) (i : ℕ) (hi : i < 16) (y : S64x512.Idx) :
    rAt m c ((rP i hi).view.emb y) = xstg m (xp c) (at3 i hi y) := by
  rw [rAt_of_row m c i hi _ (row_of_mem_rP ((rP i hi).view.emb_mem_set y)), View.write_emb_of_mem _ _ (Finset.mem_univ y), View.read_apply]
  show xstg m (xp c) ((xM.view.slice (xR i hi)).emb (Shape.reshapeEquiv (squeezes_S1x64x512_S64x512).numel_eq y)) = _
  rw [resh]; rfl

/-- the staging buffer's contents as extended reals -/
abbrev xs (d : Dev nD) : S1x1024x512.Idx → EReal := xstg m d

/-- the sum of two extended reals (so named that an entry of a float vector can stand for its value) -/
def addE (a b : EReal) : EReal := a + b

theorem ownVal_apply (c : Dev nD) (i : ℕ) (hi : i < 16) (y : S64x512.Idx) :
    ownVal m c i hi y = addE (xs m c (at3 i hi y)) (xs m (xp c) (at3 i hi y)) := by
  unfold ownVal k0_pay1
  show addE (shapeCast S64x512 (xM.view.readAt (Elt Ideal) (xR i hi).toLoadRect (xstg m c)) shapeCasts_S1x64x512_S64x512 y)
      (rM.view.readAt (Elt Ideal) (rR i hi).toLoadRect (rAt m c) y) = _
  have hsc : shapeCast S64x512 (xM.view.readAt (Elt Ideal) (xR i hi).toLoadRect (xstg m c)) shapeCasts_S1x64x512_S64x512 y
      = xM.view.readAt (Elt Ideal) (xR i hi).toLoadRect (xstg m c) (ix3 (0 : Fin 1) (y 0) (y 1)) :=
    shapeCast_apply _ _ y _ (by
      rw [Shape.rowMajor_val_three, Shape.rowMajor_val_two]
      show ((0 : ℕ) * 64 + (y 0).val) * 512 + (y 1).val = (y 0).val * 512 + (y 1).val
      omega)
  rw [hsc]
  show addE (xs m c (at3 i hi y)) (rAt m c ((rP i hi).view.emb y)) = _
  rw [rAt_emb]

theorem ownW_emb (c : Dev nD) (i : ℕ) (hi : i < 16) (y : S64x512.Idx) :
    ownW m c i hi ((oP i hi (col c) (col_lt c)).view.emb y) = ownVal m c i hi y := by
  unfold ownW
  exact View.write_emb_of_mem _ _ (Finset.mem_univ y)

/-- The device of `c`'s row that computes the half of the columns an entry is in. -/
def srcDev (c : Dev nD) (j : S1024x1024.Idx) : Dev nD := if (j 1).val / 512 = col c then c else yp c

theorem col_srcDev (c : Dev nD) (j : S1024x1024.Idx) : col (srcDev c j) = (j 1).val / 512 := by
  unfold srcDev
  have h1 : (j 1).val < 1024 := (j 1).isLt
  by_cases h : (j 1).val / 512 = col c
  · rw [if_pos h, h]
  · rw [if_neg h, col_yp]; have := col_lt c; omega

set_option maxHeartbeats 2000000 in
/-- An entry of the result buffer, through the chunk and the half it lies in. -/
theorem outAt_emb (c : Dev nD) (j : S1024x1024.Idx) :
    ∃ (i : ℕ) (hi : i < 16) (y : S64x512.Idx), (j 0).val = 64 * i + (y 0).val ∧ (j 1).val = 512 * ((j 1).val / 512) + (y 1).val
      ∧ outAt m c j = ownVal m (srcDev c j) i hi y := by
  have h0 : (j 0).val < 1024 := (j 0).isLt
  have h1 : (j 1).val < 1024 := (j 1).isLt
  have hi : (j 0).val / 64 < 16 := by omega
  have hb : (j 1).val / 512 < 2 := by omega
  obtain ⟨y, hy⟩ := View.exists_emb_of_mem_set (oP ((j 0).val / 64) hi ((j 1).val / 512) hb).view (mem_oP_iff.mpr ⟨rfl, rfl⟩)
  have e0 : 64 * ((j 0).val / 64) + 1 * (y 0).val = (j 0).val := congrArg (fun k : S1024x1024.Idx => (k 0).val) hy
  have e1 : 512 * ((j 1).val / 512) + 1 * (y 1).val = (j 1).val := congrArg (fun k : S1024x1024.Idx => (k 1).val) hy
  refine ⟨(j 0).val / 64, hi, y, by omega, by omega, ?_⟩
  unfold srcDev
  by_cases h : (j 1).val / 512 = col c
  · rw [if_pos h, outAt_own m c _ hi j rfl h]
    have hv : ∀ (i' : ℕ) (hi' : i' < 16) (b : ℕ) (hb' : b < 2), b = col c → (oP i' hi' b hb').view.emb y = j →
        ownW m c i' hi' j = ownVal m c i' hi' y := by
      intro i' hi' b hb' eb hyb; subst eb; rw [← hyb]; exact ownW_emb m c _ hi' y
    exact hv _ hi _ hb h hy
  · rw [if_neg h]
    have hcy : col (yp c) = (j 1).val / 512 := by rw [col_yp]; have := col_lt c; omega
    rw [outAt_other m c (yp c) rfl ((j 1).val / 512) hb hcy _ hi j rfl h]
    have hv : ∀ (i' : ℕ) (hi' : i' < 16) (b : ℕ) (hb' : b < 2), b = col (yp c) → (oP i' hi' b hb').view.emb y = j →
        (oP i' hi' b hb').view.write (Elt Ideal) (junkO (F := Ideal))
          ((oP i' hi' b hb').view.read (Elt Ideal) (ownW m (yp c) i' hi')) Finset.univ j
          = ownVal m (yp c) i' hi' y := by
      intro i' hi' b hb' eb hyb; subst eb
      rw [← hyb, View.write_emb_of_mem _ _ (Finset.mem_univ y), View.read_apply]
      exact ownW_emb m (yp c) _ hi' y
    exact hv _ hi _ hb hcy.symm hy

/-- Row `r`, column `k mod 512` of a block. -/
def i3 (j : S1024x1024.Idx) : S1x1024x512.Idx :=
  ix3 (0 : Fin 1) (j 0) ⟨(j 1).val % 512, Nat.mod_lt _ (by decide)⟩

theorem at3_eq (j : S1024x1024.Idx) (i : ℕ) (hi : i < 16) (y : S64x512.Idx)
    (e0 : (j 0).val = 64 * i + (y 0).val) (e1 : (j 1).val = 512 * ((j 1).val / 512) + (y 1).val) : at3 i hi y = i3 j := by
  have hy1 : (y 1).val < 512 := (y 1).isLt
  funext a; apply Fin.ext
  match a with
  | ⟨0, _⟩ => rfl
  | ⟨1, _⟩ => show 64 * i + 1 * (y 0).val = (j 0).val; omega
  | ⟨2, _⟩ => show 0 + 1 * (y 1).val = (j 1).val % 512; omega

/-- THE RESULT BUFFER, entry by entry. -/
theorem outAt_eq (c : Dev nD) (j : S1024x1024.Idx) :
    outAt m c j = addE (xb m (srcDev c j) (i3 j)) (xb m (xp (srcDev c j)) (i3 j)) := by
  obtain ⟨i, hi, y, e0, e1, h⟩ := outAt_emb m c j
  rw [h]
  refine (ownVal_apply m (srcDev c j) i hi y).trans ?_
  unfold xs
  rw [xstg_eq, xstg_eq, at3_eq j i hi y e0 e1]

end Cert.KernelIdeal.Val

end
-- ==== Proof.Value.lean ====
/-
  The two results are equal over the extended reals.  The reference sums the two slices of dimension 0 of the
  whole array, starting from zero.  Device c's result buffer holds, at (r, k), the entry (r, k mod 512) of the
  block of the device of its row that owns the half of the columns k lies in, plus the same entry of that
  device's first-axis neighbour; those two blocks are the two slices' parts with the same columns, in the order
  of the mesh rows, so the two sums agree up to commuting.
-/
import proofs.«900315_g7700000000000316_dist_rsx_agy_m1024_n512_v7x_xy2x2_f32_1_alg».proof.Proof.ValueK
import proofs.«900315_g7700000000000316_dist_rsx_agy_m1024_n512_v7x_xy2x2_f32_1_alg».proof.Proof.RefSide
import Idealize.ShloMosaic.Lib.Layout

set_option maxRecDepth 16384

noncomputable section

namespace Cert.KernelIdeal.Val

open Cert.KernelIdeal.Proto
open Idealize.ShloMosaic Idealize.ShloMosaic.TcCoe Idealize.ShloMosaic.ValueIdx
open Idealize.SL.Sem

/-! ## The reference -/

/-- slice `r` of the whole array at row and column `j` -/
def g3 (r : ℕ) (hr : r < 2) (j : Cert.KernelIdeal.S1024x1024.Idx) : Cert.ReferenceIdeal.S2x1024x1024.Idx :=
  ix3 (⟨r, hr⟩ : Fin 2) (j 0) (j 1)
theorem g3_congr {r r' : ℕ} (e : r = r') (hr : r < 2) (hr' : r' < 2) (j : Cert.KernelIdeal.S1024x1024.Idx) : g3 r hr j = g3 r' hr' j := by
  subst e; rfl

theorem ref_apply (X : Cert.ReferenceIdeal.S2x1024x1024.Idx → EReal) (j : Cert.KernelIdeal.S1024x1024.Idx) :
    Cert.ReferenceIdeal.Read.val_main_v0 (F := Ideal) X j = X (g3 0 (by decide) j) + X (g3 1 (by decide) j) := by
  rw [Cert.ReferenceIdeal.Read.val_main_v0_apply, Cert.ReferenceIdeal.Read.val_main_cst_apply, Fin.sum_univ_two]
  show Ideal.ofBits .f32 0x00000000#32 + (X _ + X _) = _
  rw [Ideal.ofBits_zero_f32, zero_add]
  have e : ∀ (k : Fin 2), Cert.ReferenceIdeal.Read.idx_main_v0 j k = g3 k.val k.isLt j := fun k =>
    funext fun a => by match a with | ⟨0, _⟩ => rfl | ⟨1, _⟩ => rfl | ⟨2, _⟩ => rfl
  rw [e 0, e 1]; rfl

/-! ## A device's block of the whole array -/

theorem mb0 : ∀ d : Dev Cert.KernelIdeal.nD, ((Layout.meshBlock [2, 2] ![[0], [], [1]] d) (0 : Fin 3)).val = d.val / 2 := by decide
theorem mb1 : ∀ d : Dev Cert.KernelIdeal.nD, ((Layout.meshBlock [2, 2] ![[0], [], [1]] d) (1 : Fin 3)).val = 0 := by decide
theorem mb2 : ∀ d : Dev Cert.KernelIdeal.nD, ((Layout.meshBlock [2, 2] ![[0], [], [1]] d) (2 : Fin 3)).val = d.val % 2 := by decide

set_option maxHeartbeats 1600000 in
theorem block_apply (X : Cert.ReferenceIdeal.S2x1024x1024.Idx → EReal) (d : Dev Cert.KernelIdeal.nD) (j : Cert.KernelIdeal.S1024x1024.Idx)
    (hcol : col d = (j 1).val / 512) :
    (Layout.blockN ⟨3, ![1, 1024, 512]⟩ ⟨3, ![2, 1024, 1024]⟩ (Layout.meshBlock [2, 2] ![[0], [], [1]] d) X) (i3 j)
      = X (g3 (d.val / 2) (by have hd : d.val < 4 := d.isLt; omega) j) := by
  rw [Layout.blockN_apply]
  refine congrArg X (funext fun a => Fin.ext ?_)
  have h1 : (j 1).val < 1024 := (j 1).isLt
  match a with
  | ⟨0, _⟩ => rw [Layout.TilesN.idx_val]; show ((Layout.meshBlock [2, 2] ![[0], [], [1]] d) (0 : Fin 3)).val * 1 + 0 = d.val / 2; rw [mb0]; omega
  | ⟨1, _⟩ => rw [Layout.TilesN.idx_val]; show ((Layout.meshBlock [2, 2] ![[0], [], [1]] d) (1 : Fin 3)).val * 1024 + (j 0).val = (j 0).val; rw [mb1]; omega
  | ⟨2, _⟩ =>
    rw [Layout.TilesN.idx_val]
    show ((Layout.meshBlock [2, 2] ![[0], [], [1]] d) (2 : Fin 3)).val * 512 + (j 1).val % 512 = (j 1).val
    rw [mb2]; unfold col at hcol; omega

theorem row_xp : ∀ d : Dev Cert.KernelIdeal.nD, (xp d).val / 2 = 1 - d.val / 2 := by decide
theorem row_yp : ∀ d : Dev Cert.KernelIdeal.nD, (yp d).val / 2 = d.val / 2 := by decide
theorem row_src (c : Dev Cert.KernelIdeal.nD) (j : Cert.KernelIdeal.S1024x1024.Idx) : (srcDev c j).val / 2 = c.val / 2 := by
  unfold srcDev; split
  · rfl
  · exact row_yp c

/-! ## The bridge -/

variable (m : (ℓ : Loc Cert.KernelIdeal.nD Cert.KernelIdeal.τ Cert.KernelIdeal.sig) → Buf (Elt Ideal) ℓ)

theorem result_eq (X : Cert.ReferenceIdeal.S2x1024x1024.Idx → EReal)
    (hagree : ∀ d : Dev Cert.KernelIdeal.nD, xb m d = Layout.blockN ⟨3, ![1, 1024, 512]⟩ ⟨3, ![2, 1024, 1024]⟩ (Layout.meshBlock [2, 2] ![[0], [], [1]] d) X)
    (c : Dev Cert.KernelIdeal.nD) (j : Cert.KernelIdeal.S1024x1024.Idx) :
    outAt m c j = Cert.ReferenceIdeal.Read.val_main_v0 (F := Ideal) X j := by
  rw [outAt_eq, ref_apply, hagree, hagree]
  unfold addE
  rw [
    block_apply X (srcDev c j) j (col_srcDev c j), block_apply X (xp (srcDev c j)) j ((col_xp _).trans (col_srcDev c j))]
  have hr : (srcDev c j).val / 2 = 0 ∨ (srcDev c j).val / 2 = 1 := by have hd : (srcDev c j).val < 4 := (srcDev c j).isLt; omega
  rcases hr with h | h
  · rw [g3_congr h _ (by decide) j, g3_congr ((row_xp _).trans (by rw [h])) _ (by decide) j]
  · rw [g3_congr h _ (by decide) j, g3_congr ((row_xp _).trans (by rw [h])) _ (by decide) j, add_comm (G := EReal)]

end Cert.KernelIdeal.Val

end
-- ==== Proof.lean ====
/-
  The certificate.  The kernel: on a 2 × 2 mesh every device holds a block of 1024 × 512 of an array of shape
  2 × 1024 × 1024 (dimension 0 cut along the first mesh axis, dimension 2 along the second); the devices of a
  column exchange their blocks and add them (a sum over dimension 0), the devices of a row exchange the sums, so
  that every device ends with the whole 1024 × 1024 sum.  The reference: the sum over dimension 0 on one device.

  The three frames come from one run of the kernel proved once at any float instance (the handshake on the
  barrier semaphore, thirty-two remote copies a device under the rounds discipline, the waits ordered by levels)
  and from the reference's generated run; no operation was rewritten by the ideal pass; and over the extended
  reals the two results are equal index by index: x₀ + x₁ against 0 + (x₀ + x₁), up to commuting the sum on the
  devices of the second row.
-/
import proofs.«900315_g7700000000000316_dist_rsx_agy_m1024_n512_v7x_xy2x2_f32_1_alg».proof.Defs
import proofs.«900315_g7700000000000316_dist_rsx_agy_m1024_n512_v7x_xy2x2_f32_1_alg».proof.Proof.Gen.Kernel
import proofs.«900315_g7700000000000316_dist_rsx_agy_m1024_n512_v7x_xy2x2_f32_1_alg».proof.Proof.Gen.KernelIdeal
import proofs.«900315_g7700000000000316_dist_rsx_agy_m1024_n512_v7x_xy2x2_f32_1_alg».proof.Proof.Gen.ReferenceIdeal
import proofs.«900315_g7700000000000316_dist_rsx_agy_m1024_n512_v7x_xy2x2_f32_1_alg».proof.Proof.Gen.Pre_finite_inputs_Kernel
import proofs.«900315_g7700000000000316_dist_rsx_agy_m1024_n512_v7x_xy2x2_f32_1_alg».proof.Proof.Gen.Pre_finite_inputs_ReferenceIdeal
import proofs.«900315_g7700000000000316_dist_rsx_agy_m1024_n512_v7x_xy2x2_f32_1_alg».proof.Proof.Kernel.Final
import proofs.«900315_g7700000000000316_dist_rsx_agy_m1024_n512_v7x_xy2x2_f32_1_alg».proof.Proof.KernelIdeal.Final
import proofs.«900315_g7700000000000316_dist_rsx_agy_m1024_n512_v7x_xy2x2_f32_1_alg».proof.Proof.RefSide
import proofs.«900315_g7700000000000316_dist_rsx_agy_m1024_n512_v7x_xy2x2_f32_1_alg».proof.Proof.Value
import Idealize.ShloMosaic.Adequacy
import Idealize.ShloMosaic.Init

noncomputable section

namespace Cert.Proof

open Idealize.ShloMosaic Idealize.SL.Sem

theorem frame_k : Cert.frame_Kernel := fun m ρ _ =>
  (θ_run (Cert.Kernel.defs (F := Bits)) _ _).mono (fun _ h c => (h c).2) (Cert.Kernel.Proto.run_all (F := Bits) m ρ)
theorem frame_ki : Cert.frame_KernelIdeal := fun m ρ _ =>
  (θ_run (Cert.KernelIdeal.defs (F := Ideal)) _ _).mono (fun _ h c => (h c).2) (Cert.KernelIdeal.Proto.run_all (F := Ideal) m ρ)
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both programs run; the reference ends at the sum over dimension 0 of its whole array, and each device's result
    array ends at the same values: the closed form of the result buffer, the block relation the claim gives, and
    commutativity of the sum of two extended reals. -/
theorem algebraic : Cert.algebraic_KernelIdeal_ReferenceIdeal := by
  intro m ρ m' ρ' _ hagree
  refine ⟨Cert.ReferenceIdeal.Read.val_main_v0 (F := Ideal)
    (m' (((0 : Dev Cert.ReferenceIdeal.nD).tc : Thread Cert.ReferenceIdeal.nD Cert.ReferenceIdeal.τ).loc Cert.ReferenceIdeal.main_arg0)), ?_, ?_⟩
  · refine (θ_run (Cert.KernelIdeal.defs (F := Ideal)) _ _).mono (fun _ h c => ⟨(h c).1.trans ?_, (h c).2⟩)
      (Cert.KernelIdeal.Proto.run_all (F := Ideal) m ρ)
    exact funext fun j => Cert.KernelIdeal.Val.result_eq m _ (fun d => hagree d) c j
  · exact (θ_run Cert.ReferenceIdeal.defs _ _).mono
      (fun _ h => ⟨(h 0).1.trans (Cert.ReferenceIdeal.Read.val_main_v0_eq _), (h 0).2⟩)
      (Cert.ReferenceIdeal.Value.run (F := Ideal) m' ρ')

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, frame_ri, preserves, algebraic⟩

end Cert.Proof

end
